-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S4x16x64x64 : Shape := ⟨4, ![4, 16, 64, 64]⟩
abbrev S1x512x1024 : Shape := ⟨3, ![1, 512, 1024]⟩
abbrev S1x16x64x64 : Shape := ⟨4, ![1, 16, 64, 64]⟩
abbrev S512x1024 : Shape := ⟨2, ![512, 1024]⟩
abbrev S64x64 : Shape := ⟨2, ![64, 64]⟩
abbrev S1x64 : Shape := ⟨2, ![1, 64]⟩
abbrev S1x1x64x64 : Shape := ⟨4, ![1, 1, 64, 64]⟩
abbrev S512x64 : Shape := ⟨2, ![512, 64]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S1024x3072, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S4x16x64x64, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x16x64x64, .f32⟩
  | .local _ .vmem, ⟨5, _⟩ => ⟨S1x16x64x64, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1x512x1024, .f32⟩
  | .local _ .vmem, ⟨10, _⟩ => ⟨S1x512x1024, .f32⟩
  | .local _ .vmem, ⟨11, _⟩ => ⟨S1024x1024, .bf16⟩
  | .local _ .vmem, ⟨12, _⟩ => ⟨S1x16x64x64, .f32⟩
  | .local _ .vmem, ⟨13, _⟩ => ⟨S1x16x64x64, .f32⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3072x1024_S1024x3072_1_0 : S3072x1024.Transposes [1, 0] S1024x3072
  slices_S1024x3072_S1024x1024_0_0 : S1024x3072.Slices ![0, 0] S1024x1024
  bitsLt_bf16_f32 : FTy.bits .bf16 < FTy.bits .f32
  slices_S1024x3072_S1024x1024_0_1024 : S1024x3072.Slices ![0, 1024] S1024x1024
  slices_S1024x3072_S1024x1024_0_2048 : S1024x3072.Slices ![0, 2048] S1024x1024
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S1024 : S512x1024.Reduces [0] S1024
  broadcasts_S1x1024_S512x1024 : S1x1024.Broadcasts S512x1024
  broadcasts_S1x1024_S1024x1024 : S1x1024.Broadcasts S1024x1024
  inb_S1024x1024_S64x64_0_0 : ∀ a, (![0, 0] : Fin 2 → Nat) a + S64x64.size a ≤ S1024x1024.size a
  h_S64x64 : 0 < S64x64.numel
  inb_S1x1024_S1x64_0_0 : ∀ a, (![0, 0] : Fin 2 → Nat) a + S1x64.size a ≤ S1x1024.size a
  h_S1x64 : 0 < S1x64.numel
  broadcasts_S1x64_S64x64 : S1x64.Broadcasts S64x64
  inb_S1x16x64x64_S1x1x64x64_0_0_0_0 : ∀ a, (![0, 0, 0, 0] : Fin 4 → Nat) a + S1x1x64x64.size a ≤ S1x16x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1024x1024_S64x64_64_64 : ∀ a, (![64, 64] : Fin 2 → Nat) a + S64x64.size a ≤ S1024x1024.size a
  inb_S1x1024_S1x64_0_64 : ∀ a, (![0, 64] : Fin 2 → Nat) a + S1x64.size a ≤ S1x1024.size a
  inb_S1x16x64x64_S1x1x64x64_0_1_0_0 : ∀ a, (![0, 1, 0, 0] : Fin 4 → Nat) a + S1x1x64x64.size a ≤ S1x16x64x64.size a
  inb_S1024x1024_S64x64_128_128 : ∀ a, (![128, 128] : Fin 2 → Nat) a + S64x64.size a ≤ S1024x1024.size a
  inb_S1x1024_S1x64_0_128 : ∀ a, (![0, 128] : Fin 2 → Nat) a + S1x64.size a ≤ S1x1024.size a
  inb_S1x16x64x64_S1x1x64x64_0_2_0_0 : ∀ a, (![0, 2, 0, 0] : Fin 4 → Nat) a + S1x1x64x64.size a ≤ S1x16x64x64.size a
  inb_S1024x1024_S64x64_192_192 : ∀ a, (![192, 192] : Fin 2 → Nat) a + S64x64.size a ≤ S1024x1024.size a
  inb_S1x1024_S1x64_0_192 : ∀ a, (![0, 192] : Fin 2 → Nat) a + S1x64.size a ≤ S1x1024.size a
  inb_S1x16x64x64_S1x1x64x64_0_3_0_0 : ∀ a, (![0, 3, 0, 0] : Fin 4 → Nat) a + S1x1x64x64.size a ≤ S1x16x64x64.size a
  inb_S1024x1024_S64x64_256_256 : ∀ a, (![256, 256] : Fin 2 → Nat) a + S64x64.size a ≤ S1024x1024.size a
  inb_S1x1024_S1x64_0_256 : ∀ a, (![0, 256] : Fin 2 → Nat) a + S1x64.size a ≤ S1x1024.size a
  inb_S1x16x64x64_S1x1x64x64_0_4_0_0 : ∀ a, (![0, 4, 0, 0] : Fin 4 → Nat) a + S1x1x64x64.size a ≤ S1x16x64x64.size a
  inb_S1024x1024_S64x64_320_320 : ∀ a, (![320, 320] : Fin 2 → Nat) a + S64x64.size a ≤ S1024x1024.size a
  inb_S1x1024_S1x64_0_320 : ∀ a, (![0, 320] : Fin 2 → Nat) a + S1x64.size a ≤ S1x1024.size a
  inb_S1x16x64x64_S1x1x64x64_0_5_0_0 : ∀ a, (![0, 5, 0, 0] : Fin 4 → Nat) a + S1x1x64x64.size a ≤ S1x16x64x64.size a
  inb_S1024x1024_S64x64_384_384 : ∀ a, (![384, 384] : Fin 2 → Nat) a + S64x64.size a ≤ S1024x1024.size a
  inb_S1x1024_S1x64_0_384 : ∀ a, (![0, 384] : Fin 2 → Nat) a + S1x64.size a ≤ S1x1024.size a
  inb_S1x16x64x64_S1x1x64x64_0_6_0_0 : ∀ a, (![0, 6, 0, 0] : Fin 4 → Nat) a + S1x1x64x64.size a ≤ S1x16x64x64.size a
  inb_S1024x1024_S64x64_448_448 : ∀ a, (![448, 448] : Fin 2 → Nat) a + S64x64.size a ≤ S1024x1024.size a
  inb_S1x1024_S1x64_0_448 : ∀ a, (![0, 448] : Fin 2 → Nat) a + S1x64.size a ≤ S1x1024.size a
  inb_S1x16x64x64_S1x1x64x64_0_7_0_0 : ∀ a, (![0, 7, 0, 0] : Fin 4 → Nat) a + S1x1x64x64.size a ≤ S1x16x64x64.size a
  inb_S1024x1024_S64x64_512_512 : ∀ a, (![512, 512] : Fin 2 → Nat) a + S64x64.size a ≤ S1024x1024.size a
  inb_S1x1024_S1x64_0_512 : ∀ a, (![0, 512] : Fin 2 → Nat) a + S1x64.size a ≤ S1x1024.size a
  inb_S1x16x64x64_S1x1x64x64_0_8_0_0 : ∀ a, (![0, 8, 0, 0] : Fin 4 → Nat) a + S1x1x64x64.size a ≤ S1x16x64x64.size a
  inb_S1024x1024_S64x64_576_576 : ∀ a, (![576, 576] : Fin 2 → Nat) a + S64x64.size a ≤ S1024x1024.size a
  inb_S1x1024_S1x64_0_576 : ∀ a, (![0, 576] : Fin 2 → Nat) a + S1x64.size a ≤ S1x1024.size a
  inb_S1x16x64x64_S1x1x64x64_0_9_0_0 : ∀ a, (![0, 9, 0, 0] : Fin 4 → Nat) a + S1x1x64x64.size a ≤ S1x16x64x64.size a
  inb_S1024x1024_S64x64_640_640 : ∀ a, (![640, 640] : Fin 2 → Nat) a + S64x64.size a ≤ S1024x1024.size a
  inb_S1x1024_S1x64_0_640 : ∀ a, (![0, 640] : Fin 2 → Nat) a + S1x64.size a ≤ S1x1024.size a
  inb_S1x16x64x64_S1x1x64x64_0_10_0_0 : ∀ a, (![0, 10, 0, 0] : Fin 4 → Nat) a + S1x1x64x64.size a ≤ S1x16x64x64.size a
  inb_S1024x1024_S64x64_704_704 : ∀ a, (![704, 704] : Fin 2 → Nat) a + S64x64.size a ≤ S1024x1024.size a
  inb_S1x1024_S1x64_0_704 : ∀ a, (![0, 704] : Fin 2 → Nat) a + S1x64.size a ≤ S1x1024.size a
  inb_S1x16x64x64_S1x1x64x64_0_11_0_0 : ∀ a, (![0, 11, 0, 0] : Fin 4 → Nat) a + S1x1x64x64.size a ≤ S1x16x64x64.size a
  inb_S1024x1024_S64x64_768_768 : ∀ a, (![768, 768] : Fin 2 → Nat) a + S64x64.size a ≤ S1024x1024.size a
  inb_S1x1024_S1x64_0_768 : ∀ a, (![0, 768] : Fin 2 → Nat) a + S1x64.size a ≤ S1x1024.size a
  inb_S1x16x64x64_S1x1x64x64_0_12_0_0 : ∀ a, (![0, 12, 0, 0] : Fin 4 → Nat) a + S1x1x64x64.size a ≤ S1x16x64x64.size a
  inb_S1024x1024_S64x64_832_832 : ∀ a, (![832, 832] : Fin 2 → Nat) a + S64x64.size a ≤ S1024x1024.size a
  inb_S1x1024_S1x64_0_832 : ∀ a, (![0, 832] : Fin 2 → Nat) a + S1x64.size a ≤ S1x1024.size a
  inb_S1x16x64x64_S1x1x64x64_0_13_0_0 : ∀ a, (![0, 13, 0, 0] : Fin 4 → Nat) a + S1x1x64x64.size a ≤ S1x16x64x64.size a
  inb_S1024x1024_S64x64_896_896 : ∀ a, (![896, 896] : Fin 2 → Nat) a + S64x64.size a ≤ S1024x1024.size a
  inb_S1x1024_S1x64_0_896 : ∀ a, (![0, 896] : Fin 2 → Nat) a + S1x64.size a ≤ S1x1024.size a
  inb_S1x16x64x64_S1x1x64x64_0_14_0_0 : ∀ a, (![0, 14, 0, 0] : Fin 4 → Nat) a + S1x1x64x64.size a ≤ S1x16x64x64.size a
  inb_S1024x1024_S64x64_960_960 : ∀ a, (![960, 960] : Fin 2 → Nat) a + S64x64.size a ≤ S1024x1024.size a
  inb_S1x1024_S1x64_0_960 : ∀ a, (![0, 960] : Fin 2 → Nat) a + S1x64.size a ≤ S1x1024.size a
  inb_S1x16x64x64_S1x1x64x64_0_15_0_0 : ∀ a, (![0, 15, 0, 0] : Fin 4 → Nat) a + S1x1x64x64.size a ≤ S1x16x64x64.size a
  slices_S512x1024_o0_0_S512x64 : S512x1024.Slices ![0, 0] S512x64
  reduces_S512x64_S512 : S512x64.Reduces [1] S512
  shapeCasts_S512_S512x1 : S512.ShapeCasts S512x1
  broadcasts_S512x1_S512x64 : S512x1.Broadcasts S512x64
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  packedbf16_S512x1024_S512x64_0_0 : (Rect.unit (s := S512x1024) ![0, 0] S512x64.size inb_S512x1024_S512x64_0_0).PackedRows (EltTy.packing .bf16)
  slices_S512x1024_o0_64_S512x64 : S512x1024.Slices ![0, 64] S512x64
  inb_S512x1024_S512x64_0_64 : ∀ a, (![0, 64] : Fin 2 → Nat) a + S512x64.size a ≤ S512x1024.size a
  packedbf16_S512x1024_S512x64_0_64 : (Rect.unit (s := S512x1024) ![0, 64] S512x64.size inb_S512x1024_S512x64_0_64).PackedRows (EltTy.packing .bf16)
  slices_S512x1024_o0_128_S512x64 : S512x1024.Slices ![0, 128] S512x64
  inb_S512x1024_S512x64_0_128 : ∀ a, (![0, 128] : Fin 2 → Nat) a + S512x64.size a ≤ S512x1024.size a
  packedbf16_S512x1024_S512x64_0_128 : (Rect.unit (s := S512x1024) ![0, 128] S512x64.size inb_S512x1024_S512x64_0_128).PackedRows (EltTy.packing .bf16)
  slices_S512x1024_o0_192_S512x64 : S512x1024.Slices ![0, 192] S512x64
  inb_S512x1024_S512x64_0_192 : ∀ a, (![0, 192] : Fin 2 → Nat) a + S512x64.size a ≤ S512x1024.size a
  packedbf16_S512x1024_S512x64_0_192 : (Rect.unit (s := S512x1024) ![0, 192] S512x64.size inb_S512x1024_S512x64_0_192).PackedRows (EltTy.packing .bf16)
  slices_S512x1024_o0_256_S512x64 : S512x1024.Slices ![0, 256] S512x64
  inb_S512x1024_S512x64_0_256 : ∀ a, (![0, 256] : Fin 2 → Nat) a + S512x64.size a ≤ S512x1024.size a
  packedbf16_S512x1024_S512x64_0_256 : (Rect.unit (s := S512x1024) ![0, 256] S512x64.size inb_S512x1024_S512x64_0_256).PackedRows (EltTy.packing .bf16)
  slices_S512x1024_o0_320_S512x64 : S512x1024.Slices ![0, 320] S512x64
  inb_S512x1024_S512x64_0_320 : ∀ a, (![0, 320] : Fin 2 → Nat) a + S512x64.size a ≤ S512x1024.size a
  packedbf16_S512x1024_S512x64_0_320 : (Rect.unit (s := S512x1024) ![0, 320] S512x64.size inb_S512x1024_S512x64_0_320).PackedRows (EltTy.packing .bf16)
  slices_S512x1024_o0_384_S512x64 : S512x1024.Slices ![0, 384] S512x64
  inb_S512x1024_S512x64_0_384 : ∀ a, (![0, 384] : Fin 2 → Nat) a + S512x64.size a ≤ S512x1024.size a
  packedbf16_S512x1024_S512x64_0_384 : (Rect.unit (s := S512x1024) ![0, 384] S512x64.size inb_S512x1024_S512x64_0_384).PackedRows (EltTy.packing .bf16)
  slices_S512x1024_o0_448_S512x64 : S512x1024.Slices ![0, 448] S512x64
  inb_S512x1024_S512x64_0_448 : ∀ a, (![0, 448] : Fin 2 → Nat) a + S512x64.size a ≤ S512x1024.size a
  packedbf16_S512x1024_S512x64_0_448 : (Rect.unit (s := S512x1024) ![0, 448] S512x64.size inb_S512x1024_S512x64_0_448).PackedRows (EltTy.packing .bf16)
  slices_S512x1024_o0_512_S512x64 : S512x1024.Slices ![0, 512] S512x64
  inb_S512x1024_S512x64_0_512 : ∀ a, (![0, 512] : Fin 2 → Nat) a + S512x64.size a ≤ S512x1024.size a
  packedbf16_S512x1024_S512x64_0_512 : (Rect.unit (s := S512x1024) ![0, 512] S512x64.size inb_S512x1024_S512x64_0_512).PackedRows (EltTy.packing .bf16)
  slices_S512x1024_o0_576_S512x64 : S512x1024.Slices ![0, 576] S512x64
  inb_S512x1024_S512x64_0_576 : ∀ a, (![0, 576] : Fin 2 → Nat) a + S512x64.size a ≤ S512x1024.size a
  packedbf16_S512x1024_S512x64_0_576 : (Rect.unit (s := S512x1024) ![0, 576] S512x64.size inb_S512x1024_S512x64_0_576).PackedRows (EltTy.packing .bf16)
  slices_S512x1024_o0_640_S512x64 : S512x1024.Slices ![0, 640] S512x64
  inb_S512x1024_S512x64_0_640 : ∀ a, (![0, 640] : Fin 2 → Nat) a + S512x64.size a ≤ S512x1024.size a
  packedbf16_S512x1024_S512x64_0_640 : (Rect.unit (s := S512x1024) ![0, 640] S512x64.size inb_S512x1024_S512x64_0_640).PackedRows (EltTy.packing .bf16)
  slices_S512x1024_o0_704_S512x64 : S512x1024.Slices ![0, 704] S512x64
  inb_S512x1024_S512x64_0_704 : ∀ a, (![0, 704] : Fin 2 → Nat) a + S512x64.size a ≤ S512x1024.size a
  packedbf16_S512x1024_S512x64_0_704 : (Rect.unit (s := S512x1024) ![0, 704] S512x64.size inb_S512x1024_S512x64_0_704).PackedRows (EltTy.packing .bf16)
  slices_S512x1024_o0_768_S512x64 : S512x1024.Slices ![0, 768] S512x64
  inb_S512x1024_S512x64_0_768 : ∀ a, (![0, 768] : Fin 2 → Nat) a + S512x64.size a ≤ S512x1024.size a
  packedbf16_S512x1024_S512x64_0_768 : (Rect.unit (s := S512x1024) ![0, 768] S512x64.size inb_S512x1024_S512x64_0_768).PackedRows (EltTy.packing .bf16)
  slices_S512x1024_o0_832_S512x64 : S512x1024.Slices ![0, 832] S512x64
  inb_S512x1024_S512x64_0_832 : ∀ a, (![0, 832] : Fin 2 → Nat) a + S512x64.size a ≤ S512x1024.size a
  packedbf16_S512x1024_S512x64_0_832 : (Rect.unit (s := S512x1024) ![0, 832] S512x64.size inb_S512x1024_S512x64_0_832).PackedRows (EltTy.packing .bf16)
  slices_S512x1024_o0_896_S512x64 : S512x1024.Slices ![0, 896] S512x64
  inb_S512x1024_S512x64_0_896 : ∀ a, (![0, 896] : Fin 2 → Nat) a + S512x64.size a ≤ S512x1024.size a
  packedbf16_S512x1024_S512x64_0_896 : (Rect.unit (s := S512x1024) ![0, 896] S512x64.size inb_S512x1024_S512x64_0_896).PackedRows (EltTy.packing .bf16)
  slices_S512x1024_o0_960_S512x64 : S512x1024.Slices ![0, 960] S512x64
  inb_S512x1024_S512x64_0_960 : ∀ a, (![0, 960] : Fin 2 → Nat) a + S512x64.size a ≤ S512x1024.size a
  packedbf16_S512x1024_S512x64_0_960 : (Rect.unit (s := S512x1024) ![0, 960] S512x64.size inb_S512x1024_S512x64_0_960).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S512x64_S64x64_S512x64_1_1_0_0_n_n_wf : DotDims.WF S512x64 S64x64 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x64x64.size a ≤ S4x16x64x64.size a
  hwx0_3 : ∀ i : grid0.Coords, EltTy.bits .f32 = 32 ∨ (Rect.block (s := S4x16x64x64) S1x16x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64x64.size a ≤ S4x16x64x64.size a
  hwx1_2 : ∀ i : grid1.Coords, EltTy.bits .f32 = 32 ∨ (Rect.block (s := S4x16x64x64) S1x16x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x4096x1024.size a
  hwx1_5 : ∀ i : grid1.Coords, EltTy.bits .f32 = 32 ∨ (Rect.block (s := S4x4096x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x16x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x16x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S4x4096x3072 : Shape := ⟨3, ![4, 4096, 3072]⟩
abbrev S4x4096x3x16x64 : Shape := ⟨5, ![4, 4096, 3, 16, 64]⟩
abbrev S3x4x16x4096x64 : Shape := ⟨5, ![3, 4, 16, 4096, 64]⟩
abbrev S1x4x16x4096x64 : Shape := ⟨5, ![1, 4, 16, 4096, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x1x64 : Shape := ⟨4, ![4, 16, 1, 64]⟩
abbrev S4x16x64x64 : Shape := ⟨4, ![4, 16, 64, 64]⟩
abbrev S4x4096x16x64 : Shape := ⟨4, ![4, 4096, 16, 64]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x4096x3072, .f32⟩
  | .hbm, ⟨5, _⟩ => ⟨S4x4096x3x16x64, .f32⟩
  | .hbm, ⟨6, _⟩ => ⟨S3x4x16x4096x64, .f32⟩
  | .hbm, ⟨7, _⟩ => ⟨S1x4x16x4096x64, .f32⟩
  | .hbm, ⟨8, _⟩ => ⟨S4x16x4096x64, .f32⟩
  | .hbm, ⟨9, _⟩ => ⟨S1x4x16x4096x64, .f32⟩
  | .hbm, ⟨10, _⟩ => ⟨S4x16x4096x64, .f32⟩
  | .hbm, ⟨11, _⟩ => ⟨S1x4x16x4096x64, .f32⟩
  | .hbm, ⟨12, _⟩ => ⟨S4x16x4096x64, .f32⟩
  | .hbm, ⟨13, _⟩ => ⟨S_, .f32⟩
  | .hbm, ⟨14, _⟩ => ⟨S4x16x4096, .f32⟩
  | .hbm, ⟨15, _⟩ => ⟨S_, .f32⟩
  | .hbm, ⟨16, _⟩ => ⟨S4x16x4096, .f32⟩
  | .hbm, ⟨17, _⟩ => ⟨S4x16x4096, .f32⟩
  | .hbm, ⟨18, _⟩ => ⟨S4x16x4096x1, .f32⟩
  | .hbm, ⟨19, _⟩ => ⟨S4x16x4096x64, .f32⟩
  | .hbm, ⟨20, _⟩ => ⟨S4x16x4096x64, .f32⟩
  | .hbm, ⟨21, _⟩ => ⟨S4x16x4096x64, .f32⟩
  | .hbm, ⟨22, _⟩ => ⟨S_, .f32⟩
  | .hbm, ⟨23, _⟩ => ⟨S4x16x4096, .f32⟩
  | .hbm, ⟨24, _⟩ => ⟨S4x16x4096x1, .f32⟩
  | .hbm, ⟨25, _⟩ => ⟨S4x16x4096x64, .f32⟩
  | .hbm, ⟨26, _⟩ => ⟨S4x16x4096x64, .f32⟩
  | .hbm, ⟨27, _⟩ => ⟨S_, .f32⟩
  | .hbm, ⟨28, _⟩ => ⟨S4x16x64, .f32⟩
  | .hbm, ⟨29, _⟩ => ⟨S_, .f32⟩
  | .hbm, ⟨30, _⟩ => ⟨S4x16x64, .f32⟩
  | .hbm, ⟨31, _⟩ => ⟨S4x16x64, .f32⟩
  | .hbm, ⟨32, _⟩ => ⟨S4x16x1x64, .f32⟩
  | .hbm, ⟨33, _⟩ => ⟨S4x16x4096x64, .f32⟩
  | .hbm, ⟨34, _⟩ => ⟨S4x16x4096x64, .f32⟩
  | .hbm, ⟨35, _⟩ => ⟨S4x16x4096x64, .f32⟩
  | .hbm, ⟨36, _⟩ => ⟨S_, .f32⟩
  | .hbm, ⟨37, _⟩ => ⟨S4x16x64, .f32⟩
  | .hbm, ⟨38, _⟩ => ⟨S4x16x1x64, .f32⟩
  | .hbm, ⟨39, _⟩ => ⟨S4x16x4096x64, .f32⟩
  | .hbm, ⟨40, _⟩ => ⟨S4x16x4096x64, .f32⟩
  | .hbm, ⟨41, _⟩ => ⟨S4x16x64x64, .f32⟩
  | .hbm, ⟨42, _⟩ => ⟨S4x16x4096x64, .f32⟩
  | .hbm, ⟨43, _⟩ => ⟨S4x4096x16x64, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  shapeCasts_S4x4096x3072_S4x4096x3x16x64 : S4x4096x3072.ShapeCasts S4x4096x3x16x64
  transposes_S4x4096x3x16x64_S3x4x16x4096x64_2_0_3_1_4 : S4x4096x3x16x64.Transposes [2, 0, 3, 1, 4] S3x4x16x4096x64
  slices_S3x4x16x4096x64_S1x4x16x4096x64_0_0_0_0_0 : S3x4x16x4096x64.Slices ![0, 0, 0, 0, 0] S1x4x16x4096x64
  shapeCasts_S1x4x16x4096x64_S4x16x4096x64 : S1x4x16x4096x64.ShapeCasts S4x16x4096x64
  slices_S3x4x16x4096x64_S1x4x16x4096x64_1_0_0_0_0 : S3x4x16x4096x64.Slices ![1, 0, 0, 0, 0] S1x4x16x4096x64
  slices_S3x4x16x4096x64_S1x4x16x4096x64_2_0_0_0_0 : S3x4x16x4096x64.Slices ![2, 0, 0, 0, 0] S1x4x16x4096x64
  reducesTo_S4x16x4096x64_S4x16x4096_d3 : S4x16x4096x64.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x4096x64_S4x16x64_d2 : S4x16x4096x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x4096x64_0_1_2_3 : S4x16x1x64.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.BitsShared.lean ====
/-
  What the two grids of this program share: the blocks of the windows at a grid point, the two branch conditions of
  the first grid's body in closed form over the 32 grid points, where its output window is live, and the buffers a
  body is handed.
-/
import proofs.«161321_j2207613190677_2_alg».proof.Proof.Gen.Kernel.Launch
import proofs.«161321_j2207613190677_2_alg».proof.Proof.Gen.Kernel.Skeleton
import proofs.«161321_j2207613190677_2_alg».proof.Proof.Gen.Kernel.Points
import proofs.«161321_j2207613190677_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the contents of the core's buffers when a grid is entered: every statement about one grid is made at such a
-- parameter, and the run instantiates it grid by grid
variable (V : (c : Dev nD) → (b : Ref sig .tc) → Buf (Elt F) ((c : Thread nD τ).loc b))

/-! ## The first grid (the context sums): blocks of its windows -/

/-- Window `w`'s block at grid point `t`, cut out of its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block of the entry contents at every grid point, whether the
    block was fetched at that point or kept from the point before (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block of the entry contents at every grid point, whether the
    block was fetched at that point or kept from the point before (the block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block of the entry contents at every grid point, whether the
    block was fetched at that point or kept from the point before (the block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second grid (queries, attention, projection): blocks of its windows -/

/-- Window `w`'s block at grid point `t`, cut out of its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block of the entry contents at every grid point, whether the
    block was fetched at that point or kept from the point before (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branches of the first grid's body

The 32 grid points are (batch, tile) pairs in row-major order, eight sequence tiles per batch element. The running
maximum, the running sum and the running (C, C) accumulator are reset at a batch element's first tile, and the
per-head quotients are written out at its last tile. -/

/-- "This is the first sequence tile of its batch element": the body's first branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence tile of its batch element": the body's second branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the context window is live: only at a batch element's last tile -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

theorem liveAt1 : ∀ (w : Fin cfg1.W) (t : Fin cfg1.N), cfg1.idle w (grid1.coords t) = false := by decide +kernel

/-! ## The buffers a body is called with -/

abbrev VO0_3 : View sig .tc .vmem S1x16x64x64 .f32 := (Memref.whole cc0_stg3_0 : Memref sig .tc .vmem S1x16x64x64 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64x64 .f32 := win0_3.stage (cfg0.slots t 3)
abbrev hs0_3 (t : Fin cfg0.N) : (ms0_3 t).IsWhole := hstage0_3 ((cfg0.slots t 3).cast nbuf0_3)
/-- The running maximum, the running sum and the running accumulator: whole buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1024x1024 .f32 := Memref.whole cc0_scratch2
abbrev VS0_0 : View sig .tc .vmem S1x1024 .f32 := scM0_0.view
abbrev VS0_1 : View sig .tc .vmem S1x1024 .f32 := scM0_1.view
abbrev VS0_2 : View sig .tc .vmem S1024x1024 .f32 := scM0_2.view

abbrev VO1_5 : View sig .tc .vmem S1x512x1024 .f32 := (Memref.whole cc1_stg5_0 : Memref sig .tc .vmem S1x512x1024 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The (tile, C) attention rows gathered head by head before the one projection product. -/
abbrev scM1_0 : Memref sig .tc .vmem S512x1024 .bf16 := Memref.whole cc1_scratch0

/-! ## What a grid's invariant holds besides the windows -/

/-- The scoped buffers the first grid never touches (they belong to the second grid), each at some contents. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The first grid's invariant when nothing is claimed of the three running buffers: each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ idle0 c) ∗ (∃ r, prngReg c r)) := by
  unfold Pipeline.ΦA idle0; rw [scopedRest0_eq]; simp only [scM0_0, scM0_1, scM0_2, owns_whole]; try rfl

/-- The second grid's invariant: the scoped buffers it never touches (the first grid's), each at some contents, then
    the gathered-rows buffer at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Gen

end
-- ==== Proof.BitsRun0A.lean ====
/-
  The first grid's body run at a first tile.
-/
import proofs.«161321_j2207613190677_2_alg».proof.Proof.BitsShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a batch element's FIRST sequence tile (the three running buffers are reset, then updated; they may hold anything before): run on whole buffers, it ends holding the three inputs as they were and each
    running buffer with a list of written pieces; the lists are found by running the body's memory operations in order. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨[], ?_, ?_, ?_, fun xi3 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.BitsRun0B.lean ====
/-
  The first grid's body run at a middle tile.
-/
import proofs.«161321_j2207613190677_2_alg».proof.Proof.BitsRun0A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a middle sequence tile (the running buffers are updated from what the tile before left; the context window is not touched): run on whole buffers, it ends holding the three inputs as they were and each
    running buffer with a list of written pieces; the lists are found by running the body's memory operations in order. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨[], ?_, ?_, ?_, fun xi3 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.BitsRun0C.lean ====
/-
  The first grid's body run at a last tile.
-/
import proofs.«161321_j2207613190677_2_alg».proof.Proof.BitsRun0B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a batch element's LAST sequence tile (the running buffers are updated, then the sixteen per-head quotient blocks are written to the context window): run on whole buffers, it ends holding the three inputs as they were and each
    running buffer with a list of written pieces; the lists are found by running the body's memory operations in order. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨?_, ?_, ?_, ?_, fun E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Gen

end
-- ==== Proof.BitsFrame0.lean ====
/-
  The first grid (the per-batch context sums) as a whole: what its body leaves at each of the 32 grid points — the
  running maximum, running sum and running (C, C) accumulator after every sequence tile, and the context window's
  sixteen head blocks at a batch element's last tile —, by recursion over the points; the grid's invariant; and the
  body's obligation at any point.
-/
import proofs.«161321_j2207613190677_2_alg».proof.Proof.BitsRun0C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves of the context window's buffer at such a tile: nothing is written (the window is idle there, and this value is never consulted). -/
def out0_A_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x16x64x64 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- The pieces written into running buffer 0 cover it, -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1x1024.size (by sl_kernel_rfl) y

/-- so what the buffer holds afterwards is those pieces read back. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.1)

/-- The pieces written into running buffer 1 cover it, -/
theorem scover0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1024.size (by sl_kernel_rfl) y

/-- so what the buffer holds afterwards is those pieces read back. -/
def sout0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.1)

/-- The pieces written into running buffer 2 cover it, -/
theorem scover0_A_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1024.size (by sl_kernel_rfl) y

/-- so what the buffer holds afterwards is those pieces read back. -/
def sout0_A_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1024x1024 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.2.1)

/-- What the body leaves of the context window's buffer at such a tile: nothing is written (the window is idle there, and this value is never consulted). -/
def out0_B_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x16x64x64 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1 xs2).1)

/-- The pieces written into running buffer 0 cover it, -/
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.1 S1x1024.size (by sl_kernel_rfl) y

/-- so what the buffer holds afterwards is those pieces read back. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1 xs2).2.1)

/-- The pieces written into running buffer 1 cover it, -/
theorem scover0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.1 S1x1024.size (by sl_kernel_rfl) y

/-- so what the buffer holds afterwards is those pieces read back. -/
def sout0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1 xs2).2.2.1)

/-- The pieces written into running buffer 2 cover it, -/
theorem scover0_B_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.2.1 S1024x1024.size (by sl_kernel_rfl) y

/-- so what the buffer holds afterwards is those pieces read back. -/
def sout0_B_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1024x1024 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).2.2.2.1)

/-- What the body writes into the context window's buffer at a last tile: its sixteen head blocks, which tile the buffer. -/
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x16x64x64 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x16x64x64.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x1x64x64.size (by sl_kernel_rfl) y

/-- The pieces written into running buffer 0 cover it, -/
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S1x1024.size (by sl_kernel_rfl) y

/-- so what the buffer holds afterwards is those pieces read back. -/
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1 xs2).2.1)

/-- The pieces written into running buffer 1 cover it, -/
theorem scover0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.1 S1x1024.size (by sl_kernel_rfl) y

/-- so what the buffer holds afterwards is those pieces read back. -/
def sout0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1 xs2).2.2.1)

/-- The pieces written into running buffer 2 cover it, -/
theorem scover0_C_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.2.1 S1024x1024.size (by sl_kernel_rfl) y

/-- so what the buffer holds afterwards is those pieces read back. -/
def sout0_C_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1024x1024 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.2.2.1)

section Entry
variable (V : (c : Dev nD) → (b : Ref sig .tc) → Buf (Elt F) ((c : Thread nD τ).loc b))

/-! ## What the context window's buffer and the three running buffers hold after each grid point -/

/-- After a first tile: the reset-and-update run on the point's blocks. -/
def caseA0 (c : Dev nD) (t : Fin cfg0.N) (h0 : t.val % 8 = 0) (h1 : ¬t.val % 8 = 7) : Vec F S1x16x64x64 .f32 × Vec F S1x1024 .f32 × Vec F S1x1024 .f32 × Vec F S1024x1024 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t))
/-- After a middle tile: the update run on the point's blocks and on what the tile before left (`p`). -/
def caseB0 (c : Dev nD) (t : Fin cfg0.N) (h0 : ¬t.val % 8 = 0) (h1 : ¬t.val % 8 = 7) (p : Vec F S1x1024 .f32 × Vec F S1x1024 .f32 × Vec F S1024x1024 .f32) : Vec F S1x16x64x64 .f32 × Vec F S1x1024 .f32 × Vec F S1x1024 .f32 × Vec F S1024x1024 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2)
/-- After a last tile: the update-and-divide run on the point's blocks and on what the tile before left (`p`). -/
def caseC0 (c : Dev nD) (t : Fin cfg0.N) (h0 : ¬t.val % 8 = 0) (h1 : t.val % 8 = 7) (p : Vec F S1x1024 .f32 × Vec F S1x1024 .f32 × Vec F S1024x1024 .f32) : Vec F S1x16x64x64 .f32 × Vec F S1x1024 .f32 × Vec F S1x1024 .f32 × Vec F S1024x1024 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2)

/-- THE RECURSION over the grid points in order: the context window's buffer and the running maximum, sum and
    accumulator after the body at position `n` — the branch the position selects, run on the point's blocks and, past a
    first tile, on the running buffers as the point before left them. -/
def outsAt0 (c : Dev nD) : (n : ℕ) → n < cfg0.N → Vec F S1x16x64x64 .f32 × Vec F S1x1024 .f32 × Vec F S1x1024 .f32 × Vec F S1024x1024 .f32
  | 0, hn => caseA0 V c ⟨0, hn⟩ (Nat.zero_mod _) (by show ¬(0 % 8 = 7); decide)
  | n + 1, hn =>
    if h0 : (n + 1) % 8 = 0 then
      if h1 : (n + 1) % 8 = 7 then False.elim (by omega)
      else caseA0 V c ⟨n + 1, hn⟩ h0 h1
    else
      if h1 : (n + 1) % 8 = 7 then caseC0 V c ⟨n + 1, hn⟩ h0 h1 (outsAt0 c n (Nat.lt_of_succ_lt hn)).2
      else caseB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA0 V c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = caseB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The grid's invariant before position `n`: before the very first point the running buffers hold anything; afterwards
    each holds what the point before left in it. The second grid's buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ idle0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ idle0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2 ∗ idle0 c) ∗ (∃ r, prngReg c r)) := by
  cases n with
  | zero => exact absurd rfl hz
  | succ n => rfl

/-! ## The first grid's proof data -/

/-- The arrays as the grid finds them; after the body at point `t` each input buffer at its block, the context
    window's buffer and the invariant's running buffers at the recursion's values; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 16000000 in
/-- The body at any grid point. The point's position says which branch it takes; the inputs' buffers hold their blocks;
    the invariant hands over the running buffers at what the point before left (anything, at the very first point) and
    takes them back at this point's values; the context window's buffer is handed back untouched except at a last tile,
    where the sixteen head blocks cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold caseA0 sout0_A_0 sout0_A_1 sout0_A_2; (try dsimp only)
    by_cases hz : t.val = 0
    · rw [PhiS0_castSucc V c t, PhiS0_zero V c _ _ hz, PhiA0_eq]
      iintro ⟨⟨⟨HS0, HS1, HS2, Hidle⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC0 out0_C_3 sout0_C_0 sout0_C_1 sout0_C_2; (try dsimp only)
      rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB0 sout0_B_0 sout0_B_1 sout0_B_2; (try dsimp only)
      rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the grid is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the running buffers' values are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HS2, Hidle⟩, Hg⟩
  isplitl [HS0 HS1 HS2 Hidle]
  · isplitl [HS0]; · iexists _; iexact HS0
    isplitl [HS1]; · iexists _; iexact HS1
    isplitl [HS2]; · iexists _; iexact HS2
    iexact Hidle
  iexact Hg

end Entry

end Cert.Kernel.Gen

end
-- ==== Proof.BitsRun1.lean ====
/-
  The second grid's body run at a grid point.
-/
import proofs.«161321_j2207613190677_2_alg».proof.Proof.BitsShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The second grid's body (queries of a sequence tile, the sixteen per-head softmaxes and products with the context
    blocks gathered into the rows buffer, one projection product, the bias): run on whole buffers, it ends holding the
    five inputs as they were, the output block with a list of written pieces, and the rows buffer at some contents. The
    list is found by running the body's memory operations in order. -/
noncomputable def kernelRun1 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) :
    { L5 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1__output_kernel i arg2 harg2 arg3 harg3 arg4 harg4 arg5 harg5 arg6 harg6 arg7 harg7 arg8 harg8) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr
    swap; · iexact HS0
    ipureintro; rfl

end Cert.Kernel.Gen

end
-- ==== Proof.BitsFrame1.lean ====
/-
  The second grid (queries, per-head attention, projection) as a whole: what its body leaves in the output window at a
  grid point, the grid's proof data, and the body's obligation at any point. Nothing is carried from point to point.
-/
import proofs.«161321_j2207613190677_2_alg».proof.Proof.BitsRun1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body writes into the output block tile it (sixteen head slices are gathered first, then the whole
    (tile, C) projection is stored at once), -/
theorem cover1_5 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) (y : S1x512x1024.Idx) :
    ∃ pc ∈ (kernelRun1 c i arg2 harg2 arg3 harg3 arg4 harg4 arg5 harg5 arg6 harg6 arg7 harg7 arg8 harg8 x0 x1 x2 x3 x4).1, y ∈ pc.1.set :=
  View.cover_of_tiledL (kernelRun1 c i arg2 harg2 arg3 harg3 arg4 harg4 arg5 harg5 arg6 harg6 arg7 harg7 arg8 harg8 x0 x1 x2 x3 x4).1 S1x512x1024.size (by sl_kernel_rfl) y

/-- so the output window's buffer afterwards is those pieces read back. -/
def out1_5 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) : Vec F S1x512x1024 .f32 :=
  VO1_5.read (Elt F) (VO1_5.writes (Elt F) VO1_5.junk (kernelRun1 c i arg2 harg2 arg3 harg3 arg4 harg4 arg5 harg5 arg6 harg6 arg7 harg7 arg8 harg8 x0 x1 x2 x3 x4).1)

section Entry
variable (V : (c : Dev nD) → (b : Ref sig .tc) → Buf (Elt F) ((c : Thread nD τ).loc b))

/-- The second grid's proof data: the arrays as the grid finds them; after the body at point `t` each input buffer at
    its block and the output's at the body's result on the point's blocks; the invariant keeps nothing between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any grid point: the five inputs' buffers hold their blocks, the output's and the gathered-rows buffer
    hold anything; afterwards the inputs are as they were and the output's buffer is covered by the written pieces. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
      unfold Dat.leavesExact; rw [liveAt1 0 t], after1_0]
  rw [show (dat1 V c).leavesExact 1 t = owns (c : Thread nD τ) (ms1_1 t) fullShare ((dat1 V c).after 1 t) from by
      unfold Dat.leavesExact; rw [liveAt1 1 t], after1_1]
  rw [show (dat1 V c).leavesExact 2 t = owns (c : Thread nD τ) (ms1_2 t) fullShare ((dat1 V c).after 2 t) from by
      unfold Dat.leavesExact; rw [liveAt1 2 t], after1_2]
  rw [show (dat1 V c).leavesExact 3 t = owns (c : Thread nD τ) (ms1_3 t) fullShare ((dat1 V c).after 3 t) from by
      unfold Dat.leavesExact; rw [liveAt1 3 t], after1_3]
  rw [show (dat1 V c).leavesExact 4 t = owns (c : Thread nD τ) (ms1_4 t) fullShare ((dat1 V c).after 4 t) from by
      unfold Dat.leavesExact; rw [liveAt1 4 t], after1_4]
  rw [show (dat1 V c).leavesExact 5 t = owns (c : Thread nD τ) (ms1_5 t) fullShare ((dat1 V c).after 5 t) from by
      unfold Dat.leavesExact; rw [liveAt1 5 t], after1_5]
  unfold out1_5
  iintro ⟨⟨⟨Hi0, Hi1, Hi2, Hi3, Hi4, Hi5, Hi6, Hi7, Hi8, HS0⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [Hi0 Hi1 Hi2 Hi3 Hi4 Hi5 Hi6 Hi7 Hi8 HS0 Hg]
  · isplitl [Hi0 Hi1 Hi2 Hi3 Hi4 Hi5 Hi6 Hi7 Hi8 HS0]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Entry

end Cert.Kernel.Gen

end
-- ==== Proof.BitsWhole.lean ====
/-
  The program as a whole: the contents of the core's buffers between its three items (a host stretch and two grids),
  each grid as a segment entered from what the item before left, and the run from launch to return, with the argument
  arrays unchanged at the end.
-/
import proofs.«161321_j2207613190677_2_alg».proof.Proof.BitsFrame0
import proofs.«161321_j2207613190677_2_alg».proof.Proof.BitsFrame1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the core's buffers between the program's three items

The program is: a stretch of host operations (the weights transposed, sliced and re-formatted), the first grid, the
second grid. -/

/-- After the host stretch: what the first grid finds. -/
abbrev U1 (c : Dev nD) : Valuation τ sig (Elt F) := V1 m c
abbrev Ve1 : (c : Dev nD) → (b : Ref sig .tc) → Buf (Elt F) ((c : Thread nD τ).loc b) := fun c b => U1 m c b

/-- After the first grid: its arrays at what its write-backs leave, every other buffer as before. -/
def Wa (c : Dev nD) : Valuation τ sig (Elt F) :=
  Pipeline.withArrays spec0 c (U1 m c) fun w => (dat0 (Ve1 m) c).arrAt w cfg0.N
theorem Wa_arr (c : Dev nD) (w : Fin cfg0.W) :
    Wa m c (Proc.devRef .tc (Pipeline.arrRef spec0 w)) = (dat0 (Ve1 m) c).arrAt w cfg0.N := by
  unfold Wa; exact Pipeline.withArrays_arr spec0 launch0.win.arr_inj c _ _ w

/-- Only the context array changes. -/
def outsA : Outs (F := F) := fun _ r c => Wa m c (Proc.devRef .tc r)
abbrev U2 (c : Dev nD) : Valuation τ sig (Elt F) := V2 m (outsA m) c
abbrev Ve2 : (c : Dev nD) → (b : Ref sig .tc) → Buf (Elt F) ((c : Thread nD τ).loc b) := fun c b => U2 m c b

/-- After the second grid: its arrays at what its write-backs leave. -/
def Wb (c : Dev nD) : Valuation τ sig (Elt F) :=
  Pipeline.withArrays spec1 c (U2 m c) fun w => (dat1 (Ve2 m) c).arrAt w cfg1.N
theorem Wb_arr (c : Dev nD) (w : Fin cfg1.W) :
    Wb m c (Proc.devRef .tc (Pipeline.arrRef spec1 w)) = (dat1 (Ve2 m) c).arrAt w cfg1.N := by
  unfold Wb; exact Pipeline.withArrays_arr spec1 launch1.win.arr_inj c _ _ w

/-- What each grid leaves in the one array it may change: the context array after the first, the result after the second. -/
def outs : Outs (F := F) := fun J r c => match J with
  | 2 => Wa m c (Proc.devRef .tc r)
  | _ => Wb m c (Proc.devRef .tc r)
abbrev U3 (c : Dev nD) : Valuation τ sig (Elt F) := V3 m (outs m) c
abbrev Ve3 : (c : Dev nD) → (b : Ref sig .tc) → Buf (Elt F) ((c : Thread nD τ).loc b) := fun c b => U3 m c b

theorem U2_eq (c : Dev nD) : V2 m (outs m) c = U2 m c := rfl

/-- At the first grid's exit each of its arrays holds what the write-backs leave (the three inputs are as entered, the
    context array is the new one), -/
theorem hF0 (c : Dev nD) (w : Fin cfg0.W) : (dat0 (Ve1 m) c).arrAt w cfg0.N = Ve2 m c (Pipeline.arrRef spec0 w) :=
  match w with
  | ⟨0, _⟩ => ((dat0 (Ve1 m) c).arrAt_in 0 rfl _).trans ((A_eq0 (Ve1 m) c 0).trans (V2_of m (outsA m) c main_arg0 (by decide)).symm)
  | ⟨1, _⟩ => ((dat0 (Ve1 m) c).arrAt_in 1 rfl _).trans ((A_eq0 (Ve1 m) c 1).trans (V2_of m (outsA m) c main_v4 (by decide)).symm)
  | ⟨2, _⟩ => ((dat0 (Ve1 m) c).arrAt_in 2 rfl _).trans ((A_eq0 (Ve1 m) c 2).trans (V2_of m (outsA m) c main_v6 (by decide)).symm)
  | ⟨3, _⟩ => ((Wa_arr m c 3).symm.trans (by simp only [Ve2, U2, V2, outsA, Function.update_self]))
/-- and every other buffer what it held at entry. -/
theorem hrest0 (c : Dev nD) : ∀ b, b ∉ Finset.univ.image (Pipeline.arrRef spec0) → Ve2 m c b = Ve1 m c b :=
  fun b hb => V2_of m (outsA m) c b (fun h => hb (Finset.mem_image.mpr ⟨3, Finset.mem_univ _, (List.mem_singleton.mp h).symm⟩))

/-- The same at the second grid's exit: five inputs as entered, the result array new. -/
theorem hF1 (c : Dev nD) (w : Fin cfg1.W) : (dat1 (Ve2 m) c).arrAt w cfg1.N = Ve3 m c (Pipeline.arrRef spec1 w) :=
  match w with
  | ⟨0, _⟩ => ((dat1 (Ve2 m) c).arrAt_in 0 rfl _).trans ((A_eq1 (Ve2 m) c 0).trans (V3_of m (outs m) c main_arg0 (by decide)).symm)
  | ⟨1, _⟩ => ((dat1 (Ve2 m) c).arrAt_in 1 rfl _).trans ((A_eq1 (Ve2 m) c 1).trans (V3_of m (outs m) c main_v2 (by decide)).symm)
  | ⟨2, _⟩ => ((dat1 (Ve2 m) c).arrAt_in 2 rfl _).trans ((A_eq1 (Ve2 m) c 2).trans (V3_of m (outs m) c main_v10 (by decide)).symm)
  | ⟨3, _⟩ => ((dat1 (Ve2 m) c).arrAt_in 3 rfl _).trans ((A_eq1 (Ve2 m) c 3).trans (V3_of m (outs m) c main_v8 (by decide)).symm)
  | ⟨4, _⟩ => ((dat1 (Ve2 m) c).arrAt_in 4 rfl _).trans ((A_eq1 (Ve2 m) c 4).trans (V3_of m (outs m) c main_v9 (by decide)).symm)
  | ⟨5, _⟩ => ((Wb_arr m c 5).symm.trans (by simp only [Ve3, U3, V3, outs, Function.update_self]))
theorem hrest1 (c : Dev nD) : ∀ b, b ∉ Finset.univ.image (Pipeline.arrRef spec1) → Ve3 m c b = Ve2 m c b :=
  fun b hb => V3_of m (outs m) c b (fun h => hb (Finset.mem_image.mpr ⟨5, Finset.mem_univ _, (List.mem_singleton.mp h).symm⟩))

/-! ## The proof data of the two grids, and what rides beside the buffers -/

def pdats : (p : Fin 2) → (c : Dev nD) → Dat τ (Elt F) Unit ℕ (UR sig nD τ) ℕ (cfgs p) c
  | ⟨0, _⟩ => fun c => dat0 (Ve1 m) c
  | ⟨1, _⟩ => fun c => dat1 (Ve2 m) c

/-- No core owes another anything. -/
abbrev L : GSem nD τ sig → Finset Unit := fun _ => ∅
abbrev lv : GSem nD τ sig → Unit → ℕ := fun _ _ => 0
/-- Beside the buffers, through every item: the generator register at some state and nothing owed. -/
abbrev R (c : Dev nD) : sProp 𝕄 := iprop((∃ r, prngReg c r) ∗ ∃ W, owes (c : Thread nD τ) (0 : CellTallies nD τ sig Unit) W)

set_option backward.isDefEq.respectTransparency.types false in
/-- Grid 0 as a segment of the program: entered with every unscoped buffer at the contents before it, left with them
    at the contents after it. Its windows' arrays are split out of the unscoped buffers on entry and put back, at what
    the write-backs leave, on exit; the generator register goes into the grid's invariant and comes back; nothing is
    owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin0 (Ve1 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (Ve1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Grid 1 as a segment of the program: entered with every unscoped buffer at the contents before it, left with them
    at the contents after it. Its windows' arrays are split out of the unscoped buffers on entry and put back, at what
    the write-backs leave, on exit; the generator register goes into the grid's invariant and comes back; nothing is
    owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- From any memory with zero counters every weakly fair execution of the program terminates, nothing faulting, and the
    four argument arrays end as launched: the host stretch and the two grids in order, each entered with the buffers at
    the contents the item before it left. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond (F := F) m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Gen

end
-- ==== Proof.IdealShared.lean ====
/-
  What the two grids of this program share: the blocks of the windows at a grid point, the two branch conditions of
  the first grid's body in closed form over the 32 grid points, where its output window is live, and the buffers a
  body is handed.
-/
import proofs.«161321_j2207613190677_2_alg».proof.Proof.Gen.KernelIdeal.Launch
import proofs.«161321_j2207613190677_2_alg».proof.Proof.Gen.KernelIdeal.Skeleton
import proofs.«161321_j2207613190677_2_alg».proof.Proof.Gen.KernelIdeal.Points
import proofs.«161321_j2207613190677_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the contents of the core's buffers when a grid is entered: every statement about one grid is made at such a
-- parameter, and the run instantiates it grid by grid
variable (V : (c : Dev nD) → (b : Ref sig .tc) → Buf (Elt F) ((c : Thread nD τ).loc b))

/-! ## The first grid (the context sums): blocks of its windows -/

/-- Window `w`'s block at grid point `t`, cut out of its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block of the entry contents at every grid point, whether the
    block was fetched at that point or kept from the point before (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block of the entry contents at every grid point, whether the
    block was fetched at that point or kept from the point before (the block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block of the entry contents at every grid point, whether the
    block was fetched at that point or kept from the point before (the block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second grid (queries, attention, projection): blocks of its windows -/

/-- Window `w`'s block at grid point `t`, cut out of its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block of the entry contents at every grid point, whether the
    block was fetched at that point or kept from the point before (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block of the entry contents at every grid point, whether the
    block was fetched at that point or kept from the point before (the block index did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branches of the first grid's body

The 32 grid points are (batch, tile) pairs in row-major order, eight sequence tiles per batch element. The running
maximum, the running sum and the running (C, C) accumulator are reset at a batch element's first tile, and the
per-head quotients are written out at its last tile. -/

/-- "This is the first sequence tile of its batch element": the body's first branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence tile of its batch element": the body's second branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the context window is live: only at a batch element's last tile -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

theorem liveAt1 : ∀ (w : Fin cfg1.W) (t : Fin cfg1.N), cfg1.idle w (grid1.coords t) = false := by decide +kernel

/-! ## The buffers a body is called with -/

abbrev VO0_3 : View sig .tc .vmem S1x16x64x64 .f32 := (Memref.whole cc0_stg3_0 : Memref sig .tc .vmem S1x16x64x64 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64x64 .f32 := win0_3.stage (cfg0.slots t 3)
abbrev hs0_3 (t : Fin cfg0.N) : (ms0_3 t).IsWhole := hstage0_3 ((cfg0.slots t 3).cast nbuf0_3)
/-- The running maximum, the running sum and the running accumulator: whole buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1024x1024 .f32 := Memref.whole cc0_scratch2
abbrev VS0_0 : View sig .tc .vmem S1x1024 .f32 := scM0_0.view
abbrev VS0_1 : View sig .tc .vmem S1x1024 .f32 := scM0_1.view
abbrev VS0_2 : View sig .tc .vmem S1024x1024 .f32 := scM0_2.view

abbrev VO1_5 : View sig .tc .vmem S1x512x1024 .f32 := (Memref.whole cc1_stg5_0 : Memref sig .tc .vmem S1x512x1024 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The (tile, C) attention rows gathered head by head before the one projection product. -/
abbrev scM1_0 : Memref sig .tc .vmem S512x1024 .bf16 := Memref.whole cc1_scratch0

/-! ## What a grid's invariant holds besides the windows -/

/-- The scoped buffers the first grid never touches (they belong to the second grid), each at some contents. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The first grid's invariant when nothing is claimed of the three running buffers: each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ idle0 c) ∗ (∃ r, prngReg c r)) := by
  unfold Pipeline.ΦA idle0; rw [scopedRest0_eq]; simp only [scM0_0, scM0_1, scM0_2, owns_whole]; try rfl

/-- The second grid's invariant: the scoped buffers it never touches (the first grid's), each at some contents, then
    the gathered-rows buffer at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Gen

end
-- ==== Proof.IdealRun0A.lean ====
/-
  The first grid's body run at a first tile.
-/
import proofs.«161321_j2207613190677_2_alg».proof.Proof.IdealShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a batch element's FIRST sequence tile (the three running buffers are reset, then updated; they may hold anything before): run on whole buffers, it ends holding the three inputs as they were and each
    running buffer with a list of written pieces; the lists are found by running the body's memory operations in order. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨[], ?_, ?_, ?_, fun xi3 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.IdealRun0B.lean ====
/-
  The first grid's body run at a middle tile.
-/
import proofs.«161321_j2207613190677_2_alg».proof.Proof.IdealRun0A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a middle sequence tile (the running buffers are updated from what the tile before left; the context window is not touched): run on whole buffers, it ends holding the three inputs as they were and each
    running buffer with a list of written pieces; the lists are found by running the body's memory operations in order. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (xi3 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨[], ?_, ?_, ?_, fun xi3 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.IdealRun0C.lean ====
/-
  The first grid's body run at a last tile.
-/
import proofs.«161321_j2207613190677_2_alg».proof.Proof.IdealRun0B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid's body at a batch element's LAST sequence tile (the running buffers are updated, then the sixteen per-head quotient blocks are written to the context window): run on whole buffers, it ends holding the three inputs as they were and each
    running buffer with a list of written pieces; the lists are found by running the body's memory operations in order. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    Σ' (L3 : List (View.Piece (Elt F) S1x16x64x64 .f32)) (LS0 : List (View.Piece (Elt F) S1x1024 .f32)) (LS1 : List (View.Piece (Elt F) S1x1024 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8) K } := by
  refine ⟨?_, ?_, ?_, ?_, fun E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.IdealFrame0.lean ====
/-
  The first grid (the per-batch context sums) as a whole: what its body leaves at each of the 32 grid points — the
  running maximum, running sum and running (C, C) accumulator after every sequence tile, and the context window's
  sixteen head blocks at a batch element's last tile —, by recursion over the points; the grid's invariant; and the
  body's obligation at any point.
-/
import proofs.«161321_j2207613190677_2_alg».proof.Proof.IdealRun0C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves of the context window's buffer at such a tile: nothing is written (the window is idle there, and this value is never consulted). -/
def out0_A_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x16x64x64 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- The pieces written into running buffer 0 cover it, -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1x1024.size (by sl_kernel_rfl) y

/-- so what the buffer holds afterwards is those pieces read back. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.1)

/-- The pieces written into running buffer 1 cover it, -/
theorem scover0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1024.size (by sl_kernel_rfl) y

/-- so what the buffer holds afterwards is those pieces read back. -/
def sout0_A_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.1)

/-- The pieces written into running buffer 2 cover it, -/
theorem scover0_A_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1024.size (by sl_kernel_rfl) y

/-- so what the buffer holds afterwards is those pieces read back. -/
def sout0_A_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) : Vec F S1024x1024 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.2.1)

/-- What the body leaves of the context window's buffer at such a tile: nothing is written (the window is idle there, and this value is never consulted). -/
def out0_B_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x16x64x64 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1 xs2).1)

/-- The pieces written into running buffer 0 cover it, -/
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.1 S1x1024.size (by sl_kernel_rfl) y

/-- so what the buffer holds afterwards is those pieces read back. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1 xs2).2.1)

/-- The pieces written into running buffer 1 cover it, -/
theorem scover0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.1 S1x1024.size (by sl_kernel_rfl) y

/-- so what the buffer holds afterwards is those pieces read back. -/
def sout0_B_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1 xs2).2.2.1)

/-- The pieces written into running buffer 2 cover it, -/
theorem scover0_B_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1 xs2).2.2.2.1 S1024x1024.size (by sl_kernel_rfl) y

/-- so what the buffer holds afterwards is those pieces read back. -/
def sout0_B_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1024x1024 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).2.2.2.1)

/-- What the body writes into the context window's buffer at a last tile: its sixteen head blocks, which tile the buffer. -/
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x16x64x64 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x16x64x64.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x1x64x64.size (by sl_kernel_rfl) y

/-- The pieces written into running buffer 0 cover it, -/
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S1x1024.size (by sl_kernel_rfl) y

/-- so what the buffer holds afterwards is those pieces read back. -/
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1 xs2).2.1)

/-- The pieces written into running buffer 1 cover it, -/
theorem scover0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.1 S1x1024.size (by sl_kernel_rfl) y

/-- so what the buffer holds afterwards is those pieces read back. -/
def sout0_C_1 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1 xs2).2.2.1)

/-- The pieces written into running buffer 2 cover it, -/
theorem scover0_C_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.2.2.1 S1024x1024.size (by sl_kernel_rfl) y

/-- so what the buffer holds afterwards is those pieces read back. -/
def sout0_C_2 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) : Vec F S1024x1024 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.2.2.1)

section Entry
variable (V : (c : Dev nD) → (b : Ref sig .tc) → Buf (Elt F) ((c : Thread nD τ).loc b))

/-! ## What the context window's buffer and the three running buffers hold after each grid point -/

/-- After a first tile: the reset-and-update run on the point's blocks. -/
def caseA0 (c : Dev nD) (t : Fin cfg0.N) (h0 : t.val % 8 = 0) (h1 : ¬t.val % 8 = 7) : Vec F S1x16x64x64 .f32 × Vec F S1x1024 .f32 × Vec F S1x1024 .f32 × Vec F S1024x1024 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t))
/-- After a middle tile: the update run on the point's blocks and on what the tile before left (`p`). -/
def caseB0 (c : Dev nD) (t : Fin cfg0.N) (h0 : ¬t.val % 8 = 0) (h1 : ¬t.val % 8 = 7) (p : Vec F S1x1024 .f32 × Vec F S1x1024 .f32 × Vec F S1024x1024 .f32) : Vec F S1x16x64x64 .f32 × Vec F S1x1024 .f32 × Vec F S1x1024 .f32 × Vec F S1024x1024 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) p.1 p.2.1 p.2.2)
/-- After a last tile: the update-and-divide run on the point's blocks and on what the tile before left (`p`). -/
def caseC0 (c : Dev nD) (t : Fin cfg0.N) (h0 : ¬t.val % 8 = 0) (h1 : t.val % 8 = 7) (p : Vec F S1x1024 .f32 × Vec F S1x1024 .f32 × Vec F S1024x1024 .f32) : Vec F S1x16x64x64 .f32 × Vec F S1x1024 .f32 × Vec F S1x1024 .f32 × Vec F S1024x1024 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) p.1 p.2.1 p.2.2)

/-- THE RECURSION over the grid points in order: the context window's buffer and the running maximum, sum and
    accumulator after the body at position `n` — the branch the position selects, run on the point's blocks and, past a
    first tile, on the running buffers as the point before left them. -/
def outsAt0 (c : Dev nD) : (n : ℕ) → n < cfg0.N → Vec F S1x16x64x64 .f32 × Vec F S1x1024 .f32 × Vec F S1x1024 .f32 × Vec F S1024x1024 .f32
  | 0, hn => caseA0 V c ⟨0, hn⟩ (Nat.zero_mod _) (by show ¬(0 % 8 = 7); decide)
  | n + 1, hn =>
    if h0 : (n + 1) % 8 = 0 then
      if h1 : (n + 1) % 8 = 7 then False.elim (by omega)
      else caseA0 V c ⟨n + 1, hn⟩ h0 h1
    else
      if h1 : (n + 1) % 8 = 7 then caseC0 V c ⟨n + 1, hn⟩ h0 h1 (outsAt0 c n (Nat.lt_of_succ_lt hn)).2
      else caseB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA0 V c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = caseB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The grid's invariant before position `n`: before the very first point the running buffers hold anything; afterwards
    each holds what the point before left in it. The second grid's buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ idle0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ idle0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2 ∗ idle0 c) ∗ (∃ r, prngReg c r)) := by
  cases n with
  | zero => exact absurd rfl hz
  | succ n => rfl

/-! ## The first grid's proof data -/

/-- The arrays as the grid finds them; after the body at point `t` each input buffer at its block, the context
    window's buffer and the invariant's running buffers at the recursion's values; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 16000000 in
/-- The body at any grid point. The point's position says which branch it takes; the inputs' buffers hold their blocks;
    the invariant hands over the running buffers at what the point before left (anything, at the very first point) and
    takes them back at this point's values; the context window's buffer is handed back untouched except at a last tile,
    where the sixteen head blocks cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold caseA0 sout0_A_0 sout0_A_1 sout0_A_2; (try dsimp only)
    by_cases hz : t.val = 0
    · rw [PhiS0_castSucc V c t, PhiS0_zero V c _ _ hz, PhiA0_eq]
      iintro ⟨⟨⟨HS0, HS1, HS2, Hidle⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC0 out0_C_3 sout0_C_0 sout0_C_1 sout0_C_2; (try dsimp only)
      rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB0 sout0_B_0 sout0_B_1 sout0_B_2; (try dsimp only)
      rw [PhiS0_castSucc V c t, PhiS0_pos V c _ _ hz]
      iintro ⟨⟨⟨HS0, HS1, HS2, Hidle⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hidle Hg]
      · isplitl [HS0 HS1 HS2 Hidle]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _)
          iexact Hidle
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the grid is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the running buffers' values are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HS2, Hidle⟩, Hg⟩
  isplitl [HS0 HS1 HS2 Hidle]
  · isplitl [HS0]; · iexists _; iexact HS0
    isplitl [HS1]; · iexists _; iexact HS1
    isplitl [HS2]; · iexists _; iexact HS2
    iexact Hidle
  iexact Hg

end Entry

end Cert.KernelIdeal.Gen

end
-- ==== Proof.IdealRun1.lean ====
/-
  The second grid's body run at a grid point.
-/
import proofs.«161321_j2207613190677_2_alg».proof.Proof.IdealShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The second grid's body (queries of a sequence tile, the sixteen per-head softmaxes and products with the context
    blocks gathered into the rows buffer, one projection product, the bias): run on whole buffers, it ends holding the
    five inputs as they were, the output block with a list of written pieces, and the rows buffer at some contents. The
    list is found by running the body's memory operations in order. -/
noncomputable def kernelRun1 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) :
    { L5 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1__output_kernel i arg2 harg2 arg3 harg3 arg4 harg4 arg5 harg5 arg6 harg6 arg7 harg7 arg8 harg8) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr
    swap; · iexact HS0
    ipureintro; rfl

end Cert.KernelIdeal.Gen

end
-- ==== Proof.IdealFrame1.lean ====
/-
  The second grid (queries, per-head attention, projection) as a whole: what its body leaves in the output window at a
  grid point, the grid's proof data, and the body's obligation at any point. Nothing is carried from point to point.
-/
import proofs.«161321_j2207613190677_2_alg».proof.Proof.IdealRun1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body writes into the output block tile it (sixteen head slices are gathered first, then the whole
    (tile, C) projection is stored at once), -/
theorem cover1_5 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) (y : S1x512x1024.Idx) :
    ∃ pc ∈ (kernelRun1 c i arg2 harg2 arg3 harg3 arg4 harg4 arg5 harg5 arg6 harg6 arg7 harg7 arg8 harg8 x0 x1 x2 x3 x4).1, y ∈ pc.1.set :=
  View.cover_of_tiledL (kernelRun1 c i arg2 harg2 arg3 harg3 arg4 harg4 arg5 harg5 arg6 harg6 arg7 harg7 arg8 harg8 x0 x1 x2 x3 x4).1 S1x512x1024.size (by sl_kernel_rfl) y

/-- so the output window's buffer afterwards is those pieces read back. -/
def out1_5 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .f32) (x1 : Vec F S1024x1024 .bf16) (x2 : Vec F S1x16x64x64 .f32) (x3 : Vec F S1024x1024 .bf16) (x4 : Vec F S1x1024 .f32) : Vec F S1x512x1024 .f32 :=
  VO1_5.read (Elt F) (VO1_5.writes (Elt F) VO1_5.junk (kernelRun1 c i arg2 harg2 arg3 harg3 arg4 harg4 arg5 harg5 arg6 harg6 arg7 harg7 arg8 harg8 x0 x1 x2 x3 x4).1)

section Entry
variable (V : (c : Dev nD) → (b : Ref sig .tc) → Buf (Elt F) ((c : Thread nD τ).loc b))

/-- The second grid's proof data: the arrays as the grid finds them; after the body at point `t` each input buffer at
    its block and the output's at the body's result on the point's blocks; the invariant keeps nothing between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any grid point: the five inputs' buffers hold their blocks, the output's and the gathered-rows buffer
    hold anything; afterwards the inputs are as they were and the output's buffer is covered by the written pieces. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
      unfold Dat.leavesExact; rw [liveAt1 0 t], after1_0]
  rw [show (dat1 V c).leavesExact 1 t = owns (c : Thread nD τ) (ms1_1 t) fullShare ((dat1 V c).after 1 t) from by
      unfold Dat.leavesExact; rw [liveAt1 1 t], after1_1]
  rw [show (dat1 V c).leavesExact 2 t = owns (c : Thread nD τ) (ms1_2 t) fullShare ((dat1 V c).after 2 t) from by
      unfold Dat.leavesExact; rw [liveAt1 2 t], after1_2]
  rw [show (dat1 V c).leavesExact 3 t = owns (c : Thread nD τ) (ms1_3 t) fullShare ((dat1 V c).after 3 t) from by
      unfold Dat.leavesExact; rw [liveAt1 3 t], after1_3]
  rw [show (dat1 V c).leavesExact 4 t = owns (c : Thread nD τ) (ms1_4 t) fullShare ((dat1 V c).after 4 t) from by
      unfold Dat.leavesExact; rw [liveAt1 4 t], after1_4]
  rw [show (dat1 V c).leavesExact 5 t = owns (c : Thread nD τ) (ms1_5 t) fullShare ((dat1 V c).after 5 t) from by
      unfold Dat.leavesExact; rw [liveAt1 5 t], after1_5]
  unfold out1_5
  iintro ⟨⟨⟨Hi0, Hi1, Hi2, Hi3, Hi4, Hi5, Hi6, Hi7, Hi8, HS0⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [Hi0 Hi1 Hi2 Hi3 Hi4 Hi5 Hi6 Hi7 Hi8 HS0 Hg]
  · isplitl [Hi0 Hi1 Hi2 Hi3 Hi4 Hi5 Hi6 Hi7 Hi8 HS0]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Entry

end Cert.KernelIdeal.Gen

end
-- ==== Proof.IdealWhole.lean ====
/-
  The program as a whole: the contents of the core's buffers between its three items (a host stretch and two grids),
  each grid as a segment entered from what the item before left, and the run from launch to return, with the argument
  arrays unchanged at the end.
-/
import proofs.«161321_j2207613190677_2_alg».proof.Proof.IdealFrame0
import proofs.«161321_j2207613190677_2_alg».proof.Proof.IdealFrame1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the core's buffers between the program's three items

The program is: a stretch of host operations (the weights transposed, sliced and re-formatted), the first grid, the
second grid. -/

/-- After the host stretch: what the first grid finds. -/
abbrev U1 (c : Dev nD) : Valuation τ sig (Elt F) := V1 m c
abbrev Ve1 : (c : Dev nD) → (b : Ref sig .tc) → Buf (Elt F) ((c : Thread nD τ).loc b) := fun c b => U1 m c b

/-- After the first grid: its arrays at what its write-backs leave, every other buffer as before. -/
def Wa (c : Dev nD) : Valuation τ sig (Elt F) :=
  Pipeline.withArrays spec0 c (U1 m c) fun w => (dat0 (Ve1 m) c).arrAt w cfg0.N
theorem Wa_arr (c : Dev nD) (w : Fin cfg0.W) :
    Wa m c (Proc.devRef .tc (Pipeline.arrRef spec0 w)) = (dat0 (Ve1 m) c).arrAt w cfg0.N := by
  unfold Wa; exact Pipeline.withArrays_arr spec0 launch0.win.arr_inj c _ _ w

/-- Only the context array changes. -/
def outsA : Outs (F := F) := fun _ r c => Wa m c (Proc.devRef .tc r)
abbrev U2 (c : Dev nD) : Valuation τ sig (Elt F) := V2 m (outsA m) c
abbrev Ve2 : (c : Dev nD) → (b : Ref sig .tc) → Buf (Elt F) ((c : Thread nD τ).loc b) := fun c b => U2 m c b

/-- After the second grid: its arrays at what its write-backs leave. -/
def Wb (c : Dev nD) : Valuation τ sig (Elt F) :=
  Pipeline.withArrays spec1 c (U2 m c) fun w => (dat1 (Ve2 m) c).arrAt w cfg1.N
theorem Wb_arr (c : Dev nD) (w : Fin cfg1.W) :
    Wb m c (Proc.devRef .tc (Pipeline.arrRef spec1 w)) = (dat1 (Ve2 m) c).arrAt w cfg1.N := by
  unfold Wb; exact Pipeline.withArrays_arr spec1 launch1.win.arr_inj c _ _ w

/-- What each grid leaves in the one array it may change: the context array after the first, the result after the second. -/
def outs : Outs (F := F) := fun J r c => match J with
  | 2 => Wa m c (Proc.devRef .tc r)
  | _ => Wb m c (Proc.devRef .tc r)
abbrev U3 (c : Dev nD) : Valuation τ sig (Elt F) := V3 m (outs m) c
abbrev Ve3 : (c : Dev nD) → (b : Ref sig .tc) → Buf (Elt F) ((c : Thread nD τ).loc b) := fun c b => U3 m c b

theorem U2_eq (c : Dev nD) : V2 m (outs m) c = U2 m c := rfl

/-- At the first grid's exit each of its arrays holds what the write-backs leave (the three inputs are as entered, the
    context array is the new one), -/
theorem hF0 (c : Dev nD) (w : Fin cfg0.W) : (dat0 (Ve1 m) c).arrAt w cfg0.N = Ve2 m c (Pipeline.arrRef spec0 w) :=
  match w with
  | ⟨0, _⟩ => ((dat0 (Ve1 m) c).arrAt_in 0 rfl _).trans ((A_eq0 (Ve1 m) c 0).trans (V2_of m (outsA m) c main_arg0 (by decide)).symm)
  | ⟨1, _⟩ => ((dat0 (Ve1 m) c).arrAt_in 1 rfl _).trans ((A_eq0 (Ve1 m) c 1).trans (V2_of m (outsA m) c main_v4 (by decide)).symm)
  | ⟨2, _⟩ => ((dat0 (Ve1 m) c).arrAt_in 2 rfl _).trans ((A_eq0 (Ve1 m) c 2).trans (V2_of m (outsA m) c main_v6 (by decide)).symm)
  | ⟨3, _⟩ => ((Wa_arr m c 3).symm.trans (by simp only [Ve2, U2, V2, outsA, Function.update_self]))
/-- and every other buffer what it held at entry. -/
theorem hrest0 (c : Dev nD) : ∀ b, b ∉ Finset.univ.image (Pipeline.arrRef spec0) → Ve2 m c b = Ve1 m c b :=
  fun b hb => V2_of m (outsA m) c b (fun h => hb (Finset.mem_image.mpr ⟨3, Finset.mem_univ _, (List.mem_singleton.mp h).symm⟩))

/-- The same at the second grid's exit: five inputs as entered, the result array new. -/
theorem hF1 (c : Dev nD) (w : Fin cfg1.W) : (dat1 (Ve2 m) c).arrAt w cfg1.N = Ve3 m c (Pipeline.arrRef spec1 w) :=
  match w with
  | ⟨0, _⟩ => ((dat1 (Ve2 m) c).arrAt_in 0 rfl _).trans ((A_eq1 (Ve2 m) c 0).trans (V3_of m (outs m) c main_arg0 (by decide)).symm)
  | ⟨1, _⟩ => ((dat1 (Ve2 m) c).arrAt_in 1 rfl _).trans ((A_eq1 (Ve2 m) c 1).trans (V3_of m (outs m) c main_v2 (by decide)).symm)
  | ⟨2, _⟩ => ((dat1 (Ve2 m) c).arrAt_in 2 rfl _).trans ((A_eq1 (Ve2 m) c 2).trans (V3_of m (outs m) c main_v10 (by decide)).symm)
  | ⟨3, _⟩ => ((dat1 (Ve2 m) c).arrAt_in 3 rfl _).trans ((A_eq1 (Ve2 m) c 3).trans (V3_of m (outs m) c main_v8 (by decide)).symm)
  | ⟨4, _⟩ => ((dat1 (Ve2 m) c).arrAt_in 4 rfl _).trans ((A_eq1 (Ve2 m) c 4).trans (V3_of m (outs m) c main_v9 (by decide)).symm)
  | ⟨5, _⟩ => ((Wb_arr m c 5).symm.trans (by simp only [Ve3, U3, V3, outs, Function.update_self]))
theorem hrest1 (c : Dev nD) : ∀ b, b ∉ Finset.univ.image (Pipeline.arrRef spec1) → Ve3 m c b = Ve2 m c b :=
  fun b hb => V3_of m (outs m) c b (fun h => hb (Finset.mem_image.mpr ⟨5, Finset.mem_univ _, (List.mem_singleton.mp h).symm⟩))

/-! ## The proof data of the two grids, and what rides beside the buffers -/

def pdats : (p : Fin 2) → (c : Dev nD) → Dat τ (Elt F) Unit ℕ (UR sig nD τ) ℕ (cfgs p) c
  | ⟨0, _⟩ => fun c => dat0 (Ve1 m) c
  | ⟨1, _⟩ => fun c => dat1 (Ve2 m) c

/-- No core owes another anything. -/
abbrev L : GSem nD τ sig → Finset Unit := fun _ => ∅
abbrev lv : GSem nD τ sig → Unit → ℕ := fun _ _ => 0
/-- Beside the buffers, through every item: the generator register at some state and nothing owed. -/
abbrev R (c : Dev nD) : sProp 𝕄 := iprop((∃ r, prngReg c r) ∗ ∃ W, owes (c : Thread nD τ) (0 : CellTallies nD τ sig Unit) W)

set_option backward.isDefEq.respectTransparency.types false in
/-- Grid 0 as a segment of the program: entered with every unscoped buffer at the contents before it, left with them
    at the contents after it. Its windows' arrays are split out of the unscoped buffers on entry and put back, at what
    the write-backs leave, on exit; the generator register goes into the grid's invariant and comes back; nothing is
    owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin0 (Ve1 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (Ve1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Grid 1 as a segment of the program: entered with every unscoped buffer at the contents before it, left with them
    at the contents after it. Its windows' arrays are split out of the unscoped buffers on entry and put back, at what
    the write-backs leave, on exit; the generator register goes into the grid's invariant and comes back; nothing is
    owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- From any memory with zero counters every weakly fair execution of the program terminates, nothing faulting, and the
    four argument arrays end as launched: the host stretch and the two grids in order, each entered with the buffers at
    the contents the item before it left. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond (F := F) m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Gen

end
-- ==== Proof.IdealValueRun.lean ====
/-
  The idealized kernel's run with its RESULT read back: the result array ends at what the second grid's write-backs
  leave in it, and the four arguments end unchanged.
-/
import proofs.«161321_j2207613190677_2_alg».proof.Proof.IdealWhole

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section
variable (m : (ℓ : Loc nD τ sig) → Buf (Elt F) ℓ) (outs : Outs (F := F))

set_option backward.isDefEq.respectTransparency.types false in
/-- The run of the whole program from the two grids' records, with the RESULT array read back as well: as the
    conditional frame of the argument arrays, with one more buffer read off the last contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v11) = V3 m outs c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v11) = V3 m outs c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

end

variable (m : (ℓ : Loc nD τ sig) → Buf (Elt F) ℓ) (ρ : Dev nD → PrngReg)

set_option backward.isDefEq.respectTransparency.types false in
/-- From any memory with zero counters every weakly fair execution of the program terminates with the result array at the
    fold of the second grid's write-backs (its proof data's final array) and the arguments as launched. -/
theorem run_whole : θ_run defs (onTc (τ := τ) (main (F := F))) ⟨m, fun _ => 0, ρ⟩ (fun r => ∀ c : Dev nD,
      r.2.mem ((c.tc : Thread nD τ).loc main_v11) = (dat1 (Ve2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (hF1 m c 5).symm, (h c).2⟩)
    (run_cond (F := F) m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl))

end Cert.KernelIdeal.Gen

end
-- ==== Proof.IdealValue0a.lean ====
/-
  The first grid's body as three array functions — the new running maximum, the new running sum and the new running
  accumulator from a tile's blocks and the old running buffers — and each branch's result in those terms: a middle or last
  tile applies them to what the tile before left, a first tile to the reset values (bottom, zero, zero); a last tile
  also writes, for each head, the head's diagonal block of the new accumulator divided by the head's stretch of the
  new sum.
-/
import proofs.«161321_j2207613190677_2_alg».proof.Proof.IdealFrame0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The new running maximum: the old one against the tile's column maxima of the key scores. -/
def newM (x0 : Vec F S1x512x1024 .f32) (x1 : Vec F S1024x1024 .bf16) (s0 : Vec F S1x1024 .f32) : FVec F S1x1024 .f32 :=
  k0_pay2 (k0_pay27 x0 x1 s0)

/-- The new running sum: the old one rescaled, plus the tile's column sums of e^(score − new maximum). -/
def newL (x0 : Vec F S1x512x1024 .f32) (x1 : Vec F S1024x1024 .bf16) (s0 s1 : Vec F S1x1024 .f32) : FVec F S1x1024 .f32 :=
  k0_pay31 x0 x1 s0 s0 s1

/-- The new running accumulator: the old one rescaled column by column, plus (values)ᵀ · e^(scores − new maximum). -/
def newA (x0 : Vec F S1x512x1024 .f32) (x1 x2 : Vec F S1024x1024 .bf16) (s0 : Vec F S1x1024 .f32) (s2 : Vec F S1024x1024 .f32) :
    FVec F S1024x1024 .f32 :=
  k0_pay1 (k0_pay26 x0 x2) (k0_pay28 x0 x1 s0 s0) (k0_pay30 x0 x1 s0) s2

theorem sout0_A_0_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) :
    sout0_A_0 c i arg2 harg2 arg3 harg3 arg4 harg4 arg5 harg5 arg6 harg6 arg7 harg7 arg8 harg8 hc0 hc1 x0 x1 x2 = newM x0 x1 (k0_pay21 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz2]
  simp only [View.readAt_eq_ld, harg2.read_unread, harg3.read_unread, harg4.read_unread,
    View.ld_unit_zero (S := S1x512x1024) hz3, View.ld_unit_zero (S := S1024x1024) hz2, View.ld_unit_zero (S := S1x1024) hz2,
    View.readCov_unit_zero arg6.view hz2, View.readCov_unit_zero arg7.view hz2, View.readCov_unit_zero arg8.view hz2]
  rfl

theorem sout0_A_1_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) :
    sout0_A_1 c i arg2 harg2 arg3 harg3 arg4 harg4 arg5 harg5 arg6 harg6 arg7 harg7 arg8 harg8 hc0 hc1 x0 x1 x2 = newL x0 x1 (k0_pay21 (F := F)) (k0_pay22 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz2]
  simp only [View.readAt_eq_ld, harg2.read_unread, harg3.read_unread, harg4.read_unread,
    View.ld_unit_zero (S := S1x512x1024) hz3, View.ld_unit_zero (S := S1024x1024) hz2, View.ld_unit_zero (S := S1x1024) hz2,
    View.readCov_unit_zero arg6.view hz2, View.readCov_unit_zero arg7.view hz2, View.readCov_unit_zero arg8.view hz2]
  rfl

theorem sout0_A_2_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024x1024 .bf16) :
    sout0_A_2 c i arg2 harg2 arg3 harg3 arg4 harg4 arg5 harg5 arg6 harg6 arg7 harg7 arg8 harg8 hc0 hc1 x0 x1 x2 = newA x0 x1 x2 (k0_pay21 (F := F)) (k0_pay23 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz2]
  simp only [View.readAt_eq_ld, harg2.read_unread, harg3.read_unread, harg4.read_unread,
    View.ld_unit_zero (S := S1x512x1024) hz3, View.ld_unit_zero (S := S1024x1024) hz2, View.ld_unit_zero (S := S1x1024) hz2,
    View.readCov_unit_zero arg6.view hz2, View.readCov_unit_zero arg7.view hz2, View.readCov_unit_zero arg8.view hz2]
  rfl

theorem sout0_B_0_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_B_0 c i arg2 harg2 arg3 harg3 arg4 harg4 arg5 harg5 arg6 harg6 arg7 harg7 arg8 harg8 hc0 hc1 x0 x1 x2 xs0 xs1 xs2 = newM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

theorem sout0_B_1_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_B_1 c i arg2 harg2 arg3 harg3 arg4 harg4 arg5 harg5 arg6 harg6 arg7 harg7 arg8 harg8 hc0 hc1 x0 x1 x2 xs0 xs1 xs2 = newL x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

theorem sout0_B_2_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_B_2 c i arg2 harg2 arg3 harg3 arg4 harg4 arg5 harg5 arg6 harg6 arg7 harg7 arg8 harg8 hc0 hc1 x0 x1 x2 xs0 xs1 xs2 = newA x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

theorem sout0_C_0_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_C_0 c i arg2 harg2 arg3 harg3 arg4 harg4 arg5 harg5 arg6 harg6 arg7 harg7 arg8 harg8 hc0 hc1 x0 x1 x2 xs0 xs1 xs2 = newM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

theorem sout0_C_1_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_C_1 c i arg2 harg2 arg3 harg3 arg4 harg4 arg5 harg5 arg6 harg6 arg7 harg7 arg8 harg8 hc0 hc1 x0 x1 x2 xs0 xs1 xs2 = newL x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

theorem sout0_C_2_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024x1024 .bf16) (xs0 : Vec F S1x1024 .f32) (xs1 : Vec F S1x1024 .f32) (xs2 : Vec F S1024x1024 .f32) :
    sout0_C_2 c i arg2 harg2 arg3 harg3 arg4 harg4 arg5 harg5 arg6 harg6 arg7 harg7 arg8 harg8 hc0 hc1 x0 x1 x2 xs0 xs1 xs2 = newA x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2]
  rfl

end Cert.KernelIdeal.Gen

end
-- ==== Proof.AttnSpec.lean ====
/-
  The mathematics both programs compute, over the extended reals, entry by entry.

  `x` is the input (batch, sequence position, channel); `wqkv` stacks the query, key and value weights row-wise (3·1024 rows
  of 1024 channels); `wproj`, `bias` are the output projection. The 1024 channels of a projection are 16 heads of 64
  features. Queries are soft-maxed over the 64 features of their head, keys over the 4096 sequence positions; the
  context of a head is the (feature × feature) matrix  Σ_n softmax(K)[n,d] · V[n,e];  the attention row is
  softmax(Q)[n,·] times it; the result is the attention rows, heads side by side, times `wprojᵀ`, plus `bias`.
-/
import Idealize.ShloMosaic.PureOps.Ideal

noncomputable section

namespace Cert.AttnSpec

open Idealize.ShloMosaic

/-- The largest of a finite family, from the bottom element. -/
def fmax {ι : Type*} [Fintype ι] (f : ι → EReal) : EReal := Finset.univ.fold max ⊥ f

/-- The softmax weight of member `i` of a finite family: `e^(f i - max f) / Σ e^(f i' - max f)`. -/
def smax {ι : Type*} [Fintype ι] (f : ι → EReal) (i : ι) : EReal :=
  Ideal.div (Ideal.exp (f i - fmax f)) (∑ i', Ideal.exp (f i' - fmax f))

/-- Row `j` of part `s` (0 queries, 1 keys, 2 values) among the 3·1024 stacked weight rows. -/
def col (s : Fin 3) (j : Fin 1024) : Fin 3072 := ⟨1024 * s.val + j.val, by omega⟩

/-- Feature `d` of head `h` among the 1024 channels. -/
def hd (h : Fin 16) (d : Fin 64) : Fin 1024 := ⟨64 * h.val + d.val, by omega⟩

/-- The head and the feature of a channel. -/
def headOf (j : Fin 1024) : Fin 16 := ⟨j.val / 64, by omega⟩
def featOf (j : Fin 1024) : Fin 64 := ⟨j.val % 64, by omega⟩

theorem hd_headOf_featOf (j : Fin 1024) : hd (headOf j) (featOf j) = j :=
  Fin.ext (by simp only [hd, headOf, featOf]; omega)

variable (x : Fin 4 → Fin 4096 → Fin 1024 → EReal) (wqkv : Fin 3072 → Fin 1024 → EReal)
  (wproj : Fin 1024 → Fin 1024 → EReal) (bias : Fin 1024 → EReal)

/-- Part `s` of the stacked projection at (batch, position, channel). -/
def lin (s : Fin 3) (b : Fin 4) (n : Fin 4096) (j : Fin 1024) : EReal := ∑ c : Fin 1024, x b n c * wqkv (col s j) c

/-- The query of a position, soft-maxed over the 64 features of head `h`. -/
def qs (b : Fin 4) (h : Fin 16) (n : Fin 4096) (d : Fin 64) : EReal :=
  smax (fun d' : Fin 64 => lin x wqkv 0 b n (hd h d')) d

/-- The key feature `d` of head `h`, soft-maxed over the 4096 positions. -/
def ks (b : Fin 4) (h : Fin 16) (n : Fin 4096) (d : Fin 64) : EReal :=
  smax (fun n' : Fin 4096 => lin x wqkv 1 b n' (hd h d)) n

/-- The context matrix of a head: key feature `d` against value feature `e`. -/
def ctx (b : Fin 4) (h : Fin 16) (d e : Fin 64) : EReal :=
  ∑ n : Fin 4096, ks x wqkv b h n d * lin x wqkv 2 b n (hd h e)

/-- The attention row of a position in head `h`. -/
def attn (b : Fin 4) (n : Fin 4096) (h : Fin 16) (e : Fin 64) : EReal :=
  ∑ d : Fin 64, qs x wqkv b h n d * ctx x wqkv b h d e

/-- The result. -/
def out (b : Fin 4) (n : Fin 4096) (o : Fin 1024) : EReal :=
  (∑ j : Fin 1024, attn x wqkv b n (headOf j) (featOf j) * wproj o j) + bias o

end Cert.AttnSpec

end
-- ==== Proof.LibOnlineSoftmax.lean ====
/-
  The algebra of an online softmax, over the extended reals.

  A row of attention scores is processed block by block.  A score is a real number or the bottom
  element (a masked entry).  The running state keeps a running maximum `m`, a running sum `l` of
  `e^(s - m)` and a running weighted sum `acc` of `e^(s - m) · v`; when the maximum grows from `m`
  to `m'` both sums are rescaled by `e^(m - m')`.  With the WEIGHT of a score, `wt s = e^s` for a real
  score and `0` for a masked one, the state after any set of keys is

      l = W · e^(-m),   acc = A · e^(-m),    W = Σ wt s,   A = Σ wt s · v

  (and `l = acc = 0`, `W = A = 0` while every key seen so far is masked, `m = ⊥`), because
  `e^(s - m') = e^s · e^(-m')` and `e^(m - m') · e^(-m) = e^(-m')`.  Hence the quotient `acc / l` is
  `A / W`, whatever the blocking, and so is the two-pass softmax `Σ (e^(s - M) / Σ e^(s - M)) · v`.
-/
import Idealize.ShloMosaic.PureOps.Ideal

noncomputable section

namespace Cert.Lib.OnlineSoftmax

open Idealize.ShloMosaic

/-- The weight of a score: `e^x` of a real score `x`, `0` of a masked one. -/
def wt (x : EReal) : ℝ := (Ideal.exp x).toReal

@[simp] theorem wt_bot : wt ⊥ = 0 := by simp [wt]
@[simp] theorem wt_coe (x : ℝ) : wt (x : EReal) = Real.exp x := by simp [wt]

/-- The coercion of the reals into the extended reals commutes with finite sums. -/
theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- `e^(x - r) = wt x · e^(-r)` for a score `x` and a real `r`. -/
theorem exp_sub_coe {x : EReal} (hx : x ≠ ⊤) (r : ℝ) :
    Ideal.exp (x - (r : EReal)) = ((wt x * Real.exp (-r) : ℝ) : EReal) := by
  induction x using EReal.rec with
  | bot => simp
  | coe x => rw [← EReal.coe_sub, Ideal.exp_coe, wt_coe, sub_eq_add_neg, Real.exp_add]
  | top => exact absurd rfl hx

/-- The running maximum from `⊥` over all keys bounds every score. -/
theorem le_fold_max {κ : Type*} [Fintype κ] (f : κ → EReal) (u : κ) : f u ≤ Finset.univ.fold max ⊥ f :=
  (Finset.le_fold_max _).mpr (Or.inr ⟨u, Finset.mem_univ _, le_rfl⟩)

/-- Over a nonempty set of keys it is one of the scores. -/
theorem fold_max_attained {κ : Type*} [Fintype κ] [Nonempty κ] (f : κ → EReal) :
    ∃ u, f u = Finset.univ.fold max ⊥ f := by
  obtain ⟨u, -, hu⟩ := Finset.exists_max_image Finset.univ f Finset.univ_nonempty
  exact ⟨u, le_antisymm (le_fold_max f u)
    ((Finset.fold_max_le _).mpr ⟨bot_le, fun x _ => hu x (Finset.mem_univ _)⟩)⟩

/-- A score that is neither masked nor `⊤` is a real. -/
theorem exists_coe {x : EReal} (h1 : x ≠ ⊥) (h2 : x ≠ ⊤) : ∃ r : ℝ, x = (r : EReal) := by
  induction x using EReal.rec with
  | bot => exact absurd rfl h1
  | coe x => exact ⟨x, rfl⟩
  | top => exact absurd rfl h2

/-- The running state `(m, l, acc)` of an online softmax after keys whose weights sum to `W` and whose
    weighted values sum to `A`: nothing unmasked seen yet, or `l = W · e^(-m)` and `acc = A · e^(-m)`. -/
def Inv (m l acc : EReal) (W A : ℝ) : Prop :=
  (m = ⊥ ∧ l = 0 ∧ acc = 0 ∧ W = 0 ∧ A = 0) ∨
    ∃ r : ℝ, m = (r : EReal) ∧ l = ((W * Real.exp (-r) : ℝ) : EReal) ∧ acc = ((A * Real.exp (-r) : ℝ) : EReal)

/-- Before any key: maximum `⊥`, both sums zero. -/
theorem Inv.init : Inv ⊥ 0 0 0 0 := Or.inl ⟨rfl, rfl, rfl, rfl, rfl⟩

/-- What the invariant says in one form for both cases: the state's sums are reals, and the weight of the
    running maximum times each is the plain sum. -/
theorem Inv.reals {m l acc : EReal} {W A : ℝ} (h : Inv m l acc W A) :
    m ≠ ⊤ ∧ ∃ lr ar : ℝ, l = (lr : EReal) ∧ acc = (ar : EReal) ∧ wt m * lr = W ∧ wt m * ar = A := by
  rcases h with ⟨rfl, rfl, rfl, rfl, rfl⟩ | ⟨r, rfl, rfl, rfl⟩
  · exact ⟨by simp, 0, 0, by simp, by simp, by simp, by simp⟩
  · refine ⟨EReal.coe_ne_top r, _, _, rfl, rfl, ?_, ?_⟩
    · rw [wt_coe, mul_comm W, ← mul_assoc, ← Real.exp_add, add_neg_cancel, Real.exp_zero, one_mul]
    · rw [wt_coe, mul_comm A, ← mul_assoc, ← Real.exp_add, add_neg_cancel, Real.exp_zero, one_mul]

variable {ι : Type*} [Fintype ι]

/-- ONE BLOCK. From a state satisfying the invariant, a block of scores `s` (reals or masked) with values
    `v`, whose maximum is `mx` (an upper bound that is attained, or `⊥`): the new maximum `max m mx`, the
    old sums rescaled by `e^(m - m')` plus the block's `Σ e^(s - m')` and `Σ e^(s - m') · v`, satisfy the
    invariant for the weights and weighted values with the block's added. -/
theorem Inv.step {m l acc : EReal} {W A : ℝ} (h : Inv m l acc W A)
    (s : ι → EReal) (hs : ∀ c, s c ≠ ⊤) (v : ι → ℝ) (mx : EReal)
    (hub : ∀ c, s c ≤ mx) (hatt : mx = ⊥ ∨ ∃ c, s c = mx) :
    Inv (max m mx)
      (Ideal.exp (m - max m mx) * l + ∑ c, Ideal.exp (s c - max m mx))
      (Ideal.exp (m - max m mx) * acc + ∑ c, Ideal.exp (s c - max m mx) * (v c : EReal))
      (W + ∑ c, wt (s c)) (A + ∑ c, wt (s c) * v c) := by
  obtain ⟨hm, lr, ar, rfl, rfl, hW, hA⟩ := h.reals
  have hmx : mx ≠ ⊤ := by
    rcases hatt with rfl | ⟨c, rfl⟩
    · simp
    · exact hs c
  by_cases hbot : max m mx = ⊥
  · -- nothing unmasked yet, nothing unmasked in the block
    obtain ⟨rfl, rfl⟩ : m = ⊥ ∧ mx = ⊥ := max_eq_bot.mp hbot
    have hsb : ∀ c, s c = ⊥ := fun c => le_bot_iff.mp (hub c)
    left
    simp only [wt_bot, zero_mul] at hW hA
    refine ⟨by simp, ?_, ?_, ?_, ?_⟩
    · simp [hsb]
    · simp [hsb]
    · simp [hsb, ← hW]
    · simp [hsb, ← hA]
  · -- the new maximum is a real
    have htop : max m mx ≠ ⊤ := by
      rcases max_choice m mx with e | e <;> rw [e] <;> assumption
    obtain ⟨r', hr'⟩ := exists_coe hbot htop
    right
    refine ⟨r', hr', ?_, ?_⟩
    · rw [hr', exp_sub_coe hm]
      simp only [exp_sub_coe (hs _)]
      rw [← coe_sum, ← EReal.coe_mul, ← EReal.coe_add]
      congr 1
      rw [← Finset.sum_mul, ← hW]; ring
    · rw [hr', exp_sub_coe hm]
      simp only [exp_sub_coe (hs _), ← EReal.coe_mul]
      rw [← coe_sum, ← EReal.coe_add]
      congr 1
      rw [← hA, add_mul, Finset.sum_mul]
      congr 1
      · ring
      · exact Finset.sum_congr rfl fun c _ => by ring

/-- THE QUOTIENT. Once some key is unmasked (`0 < W`), `acc / l` is `A / W`. -/
theorem Inv.out {m l acc : EReal} {W A : ℝ} (h : Inv m l acc W A) (hW : 0 < W) :
    Ideal.div acc l = ((A / W : ℝ) : EReal) := by
  rcases h with ⟨-, -, -, rfl, -⟩ | ⟨r, -, rfl, rfl⟩
  · exact absurd hW (lt_irrefl _)
  · have he : Real.exp (-r) ≠ 0 := (Real.exp_pos _).ne'
    rw [Ideal.div_coe (mul_ne_zero hW.ne' he), ← EReal.coe_mul]
    congr 1
    field_simp

/-- THE TWO-PASS SOFTMAX. Scores `S` (reals or masked) over all keys, their maximum `M` attained and not
    masked: `Σ (e^(S - M) / Σ e^(S - M)) · v = A / W`. -/
theorem two_pass {κ : Type*} [Fintype κ] (S : κ → EReal) (hS : ∀ u, S u ≠ ⊤) (v : κ → ℝ) (M : EReal)
    (hatt : ∃ u, S u = M) (hM : M ≠ ⊥) :
    ∑ u, Ideal.div (Ideal.exp (S u - M)) (∑ u', Ideal.exp (S u' - M)) * (v u : EReal)
      = (((∑ u, wt (S u) * v u) / (∑ u, wt (S u)) : ℝ) : EReal) := by
  obtain ⟨u₀, hu₀⟩ := hatt
  obtain ⟨r, rfl⟩ := exists_coe hM (hu₀ ▸ hS u₀)
  have he : Real.exp (-r) ≠ 0 := (Real.exp_pos _).ne'
  have hWpos : 0 < ∑ u, wt (S u) := by
    refine Finset.sum_pos' (fun u _ => ?_) ⟨u₀, Finset.mem_univ _, ?_⟩
    · unfold wt; exact EReal.toReal_nonneg (by
        induction S u using EReal.rec with
        | bot => simp
        | coe x => simpa using (Real.exp_pos x).le
        | top => simp)
    · rw [hu₀, wt_coe]; exact Real.exp_pos r
  simp only [exp_sub_coe (hS _)]
  rw [← coe_sum, ← Finset.sum_mul]
  simp only [Ideal.div_coe (mul_ne_zero hWpos.ne' he), ← EReal.coe_mul]
  rw [← coe_sum]
  congr 1
  rw [Finset.sum_div]
  exact Finset.sum_congr rfl fun u _ => by field_simp

end Cert.Lib.OnlineSoftmax

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.LibOnlineTiles.lean ====
/-
  An online softmax over a row of scores taken in consecutive tiles of `n` keys.

  The scores of one query row are a sequence `S k` of real numbers and the value of key `k` at one feature a real
  `v k`. After `j` tiles the keys seen are `0, …, n·j - 1`; their total weight and weighted value are the
  partial sums

      W j = ∑ k < n·j, e^(S k),        A j = ∑ k < n·j, e^(S k) · v k.

  The running state `(m, l, acc)` of the online softmax satisfies, after `j` tiles, the invariant of the
  single-block algebra for `W j` and `A j` (`l = W j · e^(-m)`, `acc = A j · e^(-m)`): it holds before any tile,
  one more tile keeps it (the block's scores are keys `n·j, …, n·j + n - 1`), and after all `K` tiles the
  quotient `acc / l` is `(∑ k < N, e^(S k) · v k) / (∑ k < N, e^(S k))` with `N = n·K` — the softmax of the whole
  row contracted with the values, whatever the tiling.
-/
import proofs.«161321_j2207613190677_2_alg».proof.Proof.LibOnlineSoftmax
import proofs.«161321_j2207613190677_2_alg».proof.Proof.LibBlockAcc

noncomputable section

open scoped BigOperators

namespace Cert.OnlineTiles

open Idealize.ShloMosaic Cert.Lib.OnlineSoftmax BlockAcc

variable (n : ℕ) (S : ℕ → EReal) (v : ℕ → ℝ)

/-- The total weight of the first `j` tiles. -/
def W (j : ℕ) : ℝ := partialSum n (fun k => wt (S k)) j

/-- The weighted value of the first `j` tiles. -/
def A (j : ℕ) : ℝ := partialSum n (fun k => wt (S k) * v k) j

/-- Before any tile: maximum `⊥`, both sums zero, and nothing seen. -/
theorem inv_zero : Inv ⊥ 0 0 (W n S 0) (A n S v 0) := by
  unfold W A
  rw [partialSum_zero, partialSum_zero]
  exact Inv.init

/-- One more tile. From a state satisfying the invariant after `j` tiles, the tile of keys `n·j + q`, `q < n`,
    leaves the new maximum, the rescaled sum plus the tile's weights, and the rescaled weighted sum plus the tile's
    weighted values — a state satisfying the invariant after `j + 1` tiles. -/
theorem inv_succ [NeZero n] {m l acc : EReal} (j : ℕ) (h : Inv m l acc (W n S j) (A n S v j)) (hS : ∀ k, S k ≠ ⊤) :
    Inv (max m ((Finset.univ : Finset (Fin n)).fold max ⊥ (fun q => S (n * j + q.val))))
      (Ideal.exp (m - max m ((Finset.univ : Finset (Fin n)).fold max ⊥ (fun q => S (n * j + q.val)))) * l
        + ∑ q : Fin n, Ideal.exp (S (n * j + q.val) - max m ((Finset.univ : Finset (Fin n)).fold max ⊥ (fun q => S (n * j + q.val)))))
      (Ideal.exp (m - max m ((Finset.univ : Finset (Fin n)).fold max ⊥ (fun q => S (n * j + q.val)))) * acc
        + ∑ q : Fin n, Ideal.exp (S (n * j + q.val) - max m ((Finset.univ : Finset (Fin n)).fold max ⊥ (fun q => S (n * j + q.val))))
            * ((v (n * j + q.val) : ℝ) : EReal))
      (W n S (j + 1)) (A n S v (j + 1)) := by
  haveI : Nonempty (Fin n) := ⟨⟨0, Nat.pos_of_ne_zero (NeZero.ne n)⟩⟩
  unfold W A at h ⊢
  rw [partialSum_succ, partialSum_succ]
  exact h.step (fun q : Fin n => S (n * j + q.val)) (fun q => hS _) (fun q => v (n * j + q.val)) _
    (fun q => le_fold_max (fun q : Fin n => S (n * j + q.val)) q)
    (Or.inr (fold_max_attained (fun q : Fin n => S (n * j + q.val))))

/-- After all `K` tiles of a row of real scores the quotient of the two running sums is the weighted mean of
    the values over the whole row. -/
theorem out_all {m l acc : EReal} (K N : ℕ) (hN : N = n * K) (hpos : 0 < N)
    (h : Inv m l acc (W n S K) (A n S v K)) (hS : ∀ k, ∃ r : ℝ, S k = (r : EReal)) :
    Ideal.div acc l = (((∑ k : Fin N, wt (S k.val) * v k.val) / (∑ k : Fin N, wt (S k.val)) : ℝ) : EReal) := by
  unfold W A at h
  rw [partialSum_all n K N hN, partialSum_all n K N hN] at h
  refine h.out ?_
  haveI : Nonempty (Fin N) := ⟨⟨0, hpos⟩⟩
  refine Finset.sum_pos (fun k _ => ?_) Finset.univ_nonempty
  obtain ⟨r, hr⟩ := hS k.val
  rw [hr, wt_coe]
  exact Real.exp_pos r

end Cert.OnlineTiles

end
-- ==== Proof.CtxTiles.lean ====
/-
  One key feature and one value feature of one head along the 4096 sequence positions, taken in eight tiles of 512:
  the running maximum, the running sum of e^(key - max) and the running sum of value · e^(key - max), each rescaled by
  e^(old max - new max) when a tile raises the maximum. After the last tile the quotient of the two sums is the
  softmax-weighted sum of the values over the whole sequence, whatever the tiling.
-/
import proofs.«161321_j2207613190677_2_alg».proof.Proof.AttnSpec
import proofs.«161321_j2207613190677_2_alg».proof.Proof.LibOnlineTiles

noncomputable section

namespace Cert.CtxTiles

open Idealize.ShloMosaic Cert.Lib.OnlineSoftmax

variable (Kc Vc : ℕ → EReal)

/-- The largest key of tile `j`. -/
def tmax (j : ℕ) : EReal := (Finset.univ : Finset (Fin 512)).fold max ⊥ (fun r => Kc (512 * j + r.val))

/-- One tile: from the running (maximum, sum, weighted sum) to the next. -/
def step (s : EReal × EReal × EReal) (j : ℕ) : EReal × EReal × EReal :=
  (max s.1 (tmax Kc j),
   s.2.1 * Ideal.exp (s.1 - max s.1 (tmax Kc j)) + ∑ r : Fin 512, Ideal.exp (Kc (512 * j + r.val) - max s.1 (tmax Kc j)),
   s.2.2 * Ideal.exp (s.1 - max s.1 (tmax Kc j)) + ∑ r : Fin 512, Vc (512 * j + r.val) * Ideal.exp (Kc (512 * j + r.val) - max s.1 (tmax Kc j)))

/-- The running state after tiles `0, …, j`, from the reset state (⊥, 0, 0). -/
def st : ℕ → EReal × EReal × EReal
  | 0 => step Kc Vc (⊥, 0, 0) 0
  | j + 1 => step Kc Vc (st j) (j + 1)

open Cert.OnlineTiles

/-- The running sum of a tile step with the rescaling factor written first, the order in which the
    one-block algebra states it (the product of two extended reals commutes). -/
theorem step_sum (s : EReal × EReal × EReal) (j : ℕ) :
    (step Kc Vc s j).2.1
      = Ideal.exp (s.1 - max s.1 (tmax Kc j)) * s.2.1
        + ∑ r : Fin 512, Ideal.exp (Kc (512 * j + r.val) - max s.1 (tmax Kc j)) := by
  show s.2.1 * Ideal.exp (s.1 - max s.1 (tmax Kc j)) + _ = _
  rw [mul_comm s.2.1]

/-- The running weighted sum of a tile step in the same order, each value `Vc k` written as the real `v k` it is:
    `acc · e^(m - m') + Σ V · e^(K - m') = e^(m - m') · acc + Σ e^(K - m') · v`. -/
theorem step_wsum (v : ℕ → ℝ) (hv : ∀ k, Vc k = ((v k : ℝ) : EReal)) (s : EReal × EReal × EReal) (j : ℕ) :
    (step Kc Vc s j).2.2
      = Ideal.exp (s.1 - max s.1 (tmax Kc j)) * s.2.2
        + ∑ r : Fin 512, Ideal.exp (Kc (512 * j + r.val) - max s.1 (tmax Kc j)) * ((v (512 * j + r.val) : ℝ) : EReal) := by
  show s.2.2 * Ideal.exp (s.1 - max s.1 (tmax Kc j)) + _ = _
  rw [mul_comm s.2.2]
  congr 1
  exact Finset.sum_congr rfl fun r _ => by rw [hv, mul_comm]

/-- ONE TILE keeps the invariant. If before tile `j` the state is `l = W j · e^(-m)`, `acc = A j · e^(-m)` for the
    weights `W j = Σ_{k < 512 j} e^(K k)` and weighted values `A j = Σ_{k < 512 j} e^(K k) · v k` of the keys seen so far,
    then after it the state is the same with `j + 1`: the tile's keys are `512 j, …, 512 j + 511` and `tmax Kc j` is
    their maximum from `⊥`, which is exactly the block the one-tile lemma takes. -/
theorem step_inv (v : ℕ → ℝ) (hv : ∀ k, Vc k = ((v k : ℝ) : EReal)) (hK : ∀ k, Kc k ≠ ⊤)
    (s : EReal × EReal × EReal) (j : ℕ) (h : Inv s.1 s.2.1 s.2.2 (W 512 Kc j) (A 512 Kc v j)) :
    Inv (step Kc Vc s j).1 (step Kc Vc s j).2.1 (step Kc Vc s j).2.2 (W 512 Kc (j + 1)) (A 512 Kc v (j + 1)) := by
  rw [step_sum, step_wsum Kc Vc v hv]
  exact inv_succ 512 Kc v j h hK

/-- After tiles `0, …, j` the state satisfies the invariant for the first `512 (j + 1)` keys: the reset state
    `(⊥, 0, 0)` satisfies it for no keys, and every tile keeps it. -/
theorem st_inv (v : ℕ → ℝ) (hv : ∀ k, Vc k = ((v k : ℝ) : EReal)) (hK : ∀ k, Kc k ≠ ⊤) (j : ℕ) :
    Inv (st Kc Vc j).1 (st Kc Vc j).2.1 (st Kc Vc j).2.2 (W 512 Kc (j + 1)) (A 512 Kc v (j + 1)) := by
  induction j with
  | zero => exact step_inv Kc Vc v hv hK (⊥, 0, 0) 0 (inv_zero 512 Kc v)
  | succ j ih => exact step_inv Kc Vc v hv hK (st Kc Vc j) (j + 1) ih

/-- THE SPECIFICATION SIDE. With real keys the maximum `M` over the 4096 positions is one of the keys, so it is a real,
    and `e^(K n - M) = e^(K n) · e^(-M)`: the factor `e^(-M)` cancels in every softmax weight, and the softmax
    contracted with the values is `(Σ e^(K k) · v k) / (Σ e^(K k))`. -/
theorem spec_eq (v : ℕ → ℝ) (hK : ∀ k, ∃ r : ℝ, Kc k = (r : EReal)) :
    ∑ n : Fin 4096, Cert.AttnSpec.smax (fun n' : Fin 4096 => Kc n'.val) n * ((v n.val : ℝ) : EReal)
      = (((∑ k : Fin 4096, wt (Kc k.val) * v k.val) / (∑ k : Fin 4096, wt (Kc k.val)) : ℝ) : EReal) := by
  haveI : Nonempty (Fin 4096) := ⟨⟨0, by norm_num⟩⟩
  -- the maximum is attained at some position u₀, where the key is a real: it is not ⊥
  obtain ⟨u₀, hu₀⟩ := fold_max_attained (fun n' : Fin 4096 => Kc n'.val)
  have hM : Cert.AttnSpec.fmax (fun n' : Fin 4096 => Kc n'.val) ≠ ⊥ := by
    obtain ⟨r, hr⟩ := hK u₀.val
    unfold Cert.AttnSpec.fmax
    rw [← hu₀]
    show Kc u₀.val ≠ ⊥
    rw [hr]
    exact EReal.coe_ne_bot r
  have hKt : ∀ u : Fin 4096, Kc u.val ≠ ⊤ := fun u => by
    obtain ⟨r, hr⟩ := hK u.val
    rw [hr]
    exact EReal.coe_ne_top r
  unfold Cert.AttnSpec.smax
  exact two_pass (fun u : Fin 4096 => Kc u.val) hKt (fun u => v u.val)
    (Cert.AttnSpec.fmax (fun n' : Fin 4096 => Kc n'.val)) ⟨u₀, hu₀⟩ hM

/-- After the eighth tile the quotient is the softmax over all 4096 positions contracted with the values. -/
theorem quotient_eq (hK : ∀ k, ∃ r : ℝ, Kc k = (r : EReal)) (hV : ∀ k, ∃ r : ℝ, Vc k = (r : EReal)) :
    Ideal.div (st Kc Vc 7).2.2 (st Kc Vc 7).2.1
      = ∑ n : Fin 4096, Cert.AttnSpec.smax (fun n' : Fin 4096 => Kc n'.val) n * Vc n.val := by
  -- name the real behind every value
  choose v hv using hV
  have hKt : ∀ k, Kc k ≠ ⊤ := fun k => by
    obtain ⟨r, hr⟩ := hK k
    rw [hr]
    exact EReal.coe_ne_top r
  -- the tiled side: eight tiles of 512 cover the 4096 keys, so acc / l = A / W over all of them
  rw [out_all 512 Kc v 8 4096 (by norm_num) (by norm_num) (st_inv Kc Vc v hv hKt 7) hK]
  -- the two-pass side is the same quotient of real sums
  rw [← spec_eq Kc v hK]
  exact Finset.sum_congr rfl fun n _ => by rw [hv]

end Cert.CtxTiles

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibDotTN.lean ====
/-
  A matrix product with the LEFT operand transposed, read entry by entry over the extended reals: both operands
  contract their FIRST axis, so entry (a, b) of Aᵀ · B is the sum over the shared row index c of A[c, a] · B[c, b]. The
  accumulator is the zero array.
-/
import Idealize.ShloMosaic.Lib.ValueIdx
import Idealize.ShloMosaic.PureOps.Ideal.Laws

noncomputable section

open scoped BigOperators

namespace Cert.Lib.DotTN

open Idealize.ShloMosaic Idealize.ShloMosaic.ValueIdx

/-- Aᵀ · B into zero, at (a, b): the sum over the contraction coordinate c of A[c, a] · B[c, b]. The one-axis contraction
    index is re-indexed by its coordinate; the left operand is read at (c, a), the right at (c, b). -/
theorem matmul_tn_apply {m n k : Nat} {φ₁ φ₂ : FTy}
    (w : DotDims.WF ⟨2, ![k, m]⟩ ⟨2, ![k, n]⟩ ⟨2, ![m, n]⟩ [0] [0] [1] [1] [] [])
    (prec : Option ContractPrecision)
    (A : FVec Ideal ⟨2, ![k, m]⟩ φ₁) (B : FVec Ideal ⟨2, ![k, n]⟩ φ₂) (a : Fin m) (b : Fin n) :
    matmul (⟨[0], [0], [1], [1], [], [], w⟩ : DotDims _ _ _) prec A B (constant (F := Ideal) _ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib.DotTN

end
-- ==== Proof.IdealValue0b.lean ====
/-
  The first grid's three update functions read entry by entry over the extended reals. With  K[r, j] = Σ_c x[r, c] · wk[c, j]
  the tile's key scores and  V[r, j]  its values likewise: the new maximum of column d is the old one against the
  largest K[r, d] of the tile; the new sum is the old one times e^(old max − new max) plus Σ_r e^(K[r, d] − new max); the
  new accumulator at (e, d) is the old one times the same factor plus Σ_r V[r, e] · e^(K[r, d] − new max). Together they
  are ONE step of the tiled running softmax on the column pair (d, e).
-/
import proofs.«161321_j2207613190677_2_alg».proof.Proof.IdealValue0a
import proofs.«161321_j2207613190677_2_alg».proof.Proof.CtxTiles
import proofs.«161321_j2207613190677_2_alg».proof.Proof.LibPlainDot
import proofs.«161321_j2207613190677_2_alg».proof.Proof.LibDotTN
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Entries

variable (x0 : Vec Ideal S1x512x1024 .f32) (x1 x2 : Vec Ideal S1024x1024 .bf16) (s0 s1 : Vec Ideal S1x1024 .f32)
  (s2 : Vec Ideal S1024x1024 .f32)

/-- Row `r` of the tile against column `j` of a weight matrix. -/
def rowDot (w : Vec Ideal S1024x1024 .bf16) (r : Fin 512) (j : Fin 1024) : EReal :=
  ∑ cc : Fin 1024, x0 (ix3 (0 : Fin 1) r cc) * w (ix2 cc j)

theorem isPlain_proj : Cert.PlainDot.IsPlain dot_S512x1024_S1024x1024_S512x1024_1_0_0_1_n_n := ⟨rfl, rfl, rfl, rfl, rfl, rfl⟩

/-- The tile's projection (rows times a weight matrix into zero) at (r, j). -/
theorem proj_apply (w : Vec Ideal S1024x1024 .bf16) (r : Fin 512) (j : Fin 1024) :
    k0_pay25 (F := Ideal) x0 w (ix2 r j) = rowDot x0 w r j := by
  unfold k0_pay25 k0_pay24 rowDot
  dsimp only
  refine (Ideal.matmul_constant_zero_apply _ none _ _ (ix2 r j)).trans ?_
  refine (Cert.PlainDot.sum_contr _ isPlain_proj _ _ r j).trans ?_
  refine Finset.sum_congr rfl fun cc _ => ?_
  rw [shapeCast_self]
  exact congrArg (· * w (ix2 cc j)) (shapeCast_1ab_ab_apply x0 _ r cc)

theorem projV_apply (r : Fin 512) (j : Fin 1024) : k0_pay26 (F := Ideal) x0 x2 (ix2 r j) = rowDot x0 x2 r j :=
  proj_apply x0 x2 r j

/-- The index a column reduction reads: row `r` of column `j`. -/
theorem lift_col (h : S512x1024.Reduces [0] S1024) (j : Fin 1024) (r : Fin 512) : h.lift (ix1 j) r = ix2 r j := by
  funext a; apply Fin.ext
  match a with
  | ⟨0, _⟩ => rfl
  | ⟨1, _⟩ => rfl

theorem ofBits_neg_inf : Ideal.ofBits .f32 0xFF800000#32 = (⊥ : EReal) := by simp [Ideal.ofBits, Ideal.ieee]

/-- THE NEW MAXIMUM at column `d`. -/
theorem newM_apply (d : Fin 1024) :
    newM (F := Ideal) x0 x1 s0 (ix2 (0 : Fin 1) d)
      = max (s0 (ix2 (0 : Fin 1) d)) ((Finset.univ : Finset (Fin 512)).fold max ⊥ (fun r => rowDot x0 x1 r d)) := by
  unfold newM k0_pay2 k0_pay27
  dsimp only
  rw [shapeCast_self]
  show max (s0 (ix2 (0 : Fin 1) d)) (shapeCast S1x1024 _ _ (ix2 (0 : Fin 1) d)) = _
  rw [shapeCast_a_1a_apply]
  refine congrArg (max _) ((Ideal.multiReduction_maximumf_single _ _ _ _ _ (ix1 d)).trans ?_)
  show (Finset.univ : Finset (Fin 512)).fold max (Ideal.ofBits .f32 0xFF800000#32) _ = _
  rw [ofBits_neg_inf]
  refine congrArg (fun f => (Finset.univ : Finset (Fin 512)).fold max ⊥ f) (funext fun r => ?_)
  exact (congrArg (k0_pay25 (F := Ideal) x0 x1) (lift_col reduces_S512x1024_S1024 d r)).trans (proj_apply x0 x1 r d)

/-- The tile's shifted exponentials at (r, d). -/
theorem expK_apply (r : Fin 512) (d : Fin 1024) :
    k0_pay29 (F := Ideal) x0 x1 s0 (ix2 r d) = Ideal.exp (rowDot x0 x1 r d - newM (F := Ideal) x0 x1 s0 (ix2 (0 : Fin 1) d)) := by
  unfold k0_pay29
  show Ideal.exp (k0_pay25 (F := Ideal) x0 x1 (ix2 r d) - broadcastTo S512x1024 (k0_pay27 (F := Ideal) x0 x1 s0) _ (ix2 r d)) = _
  rw [proj_apply, broadcastTo_1b_ab_apply]
  unfold newM k0_pay2
  rw [shapeCast_self]

/-- The rescaling factor at column `d`. -/
theorem corr_apply (d : Fin 1024) :
    k0_pay28 (F := Ideal) x0 x1 s0 s0 (ix2 (0 : Fin 1) d)
      = Ideal.exp (s0 (ix2 (0 : Fin 1) d) - newM (F := Ideal) x0 x1 s0 (ix2 (0 : Fin 1) d)) := by
  unfold k0_pay28 newM k0_pay2
  rw [shapeCast_self]
  rfl

/-- THE NEW SUM at column `d`. -/
theorem newL_apply (d : Fin 1024) :
    newL (F := Ideal) x0 x1 s0 s1 (ix2 (0 : Fin 1) d)
      = s1 (ix2 (0 : Fin 1) d) * Ideal.exp (s0 (ix2 (0 : Fin 1) d) - newM (F := Ideal) x0 x1 s0 (ix2 (0 : Fin 1) d))
        + ∑ r : Fin 512, Ideal.exp (rowDot x0 x1 r d - newM (F := Ideal) x0 x1 s0 (ix2 (0 : Fin 1) d)) := by
  unfold newL k0_pay31
  dsimp only
  rw [shapeCast_self]
  show s1 (ix2 (0 : Fin 1) d) * k0_pay28 (F := Ideal) x0 x1 s0 s0 (ix2 (0 : Fin 1) d) + shapeCast S1x1024 _ _ (ix2 (0 : Fin 1) d) = _
  rw [corr_apply, shapeCast_a_1a_apply]
  refine congrArg (_ + ·) ((Ideal.multiReduction_add_single _ _ _ _ _ (ix1 d)).trans (Finset.sum_congr rfl fun r _ => ?_))
  exact (congrArg (k0_pay29 (F := Ideal) x0 x1 s0) (lift_col reduces_S512x1024_S1024 d r)).trans (expK_apply x0 x1 s0 r d)

/-- THE NEW ACCUMULATOR at (value column `e`, key column `d`). -/
theorem newA_apply (e d : Fin 1024) :
    newA (F := Ideal) x0 x1 x2 s0 s2 (ix2 e d)
      = s2 (ix2 e d) * Ideal.exp (s0 (ix2 (0 : Fin 1) d) - newM (F := Ideal) x0 x1 s0 (ix2 (0 : Fin 1) d))
        + ∑ r : Fin 512, rowDot x0 x2 r e * Ideal.exp (rowDot x0 x1 r d - newM (F := Ideal) x0 x1 s0 (ix2 (0 : Fin 1) d)) := by
  unfold newA k0_pay1 k0_pay30
  dsimp only
  rw [shapeCast_self]
  show s2 (ix2 e d) * broadcastTo S1024x1024 (k0_pay28 (F := Ideal) x0 x1 s0 s0) _ (ix2 e d)
      + matmul (F := Ideal) dot_S512x1024_S512x1024_S1024x1024_0_0_1_1_n_n none _ _ _ (ix2 e d) = _
  rw [broadcastTo_1b_ab_apply, corr_apply]
  congr 1
  refine (Cert.Lib.DotTN.matmul_tn_apply dot_S512x1024_S512x1024_S1024x1024_0_0_1_1_n_n_wf none _ _ e d).trans ?_
  refine Finset.sum_congr rfl fun r _ => ?_
  show k0_pay26 (F := Ideal) x0 x2 (ix2 r e) * k0_pay29 (F := Ideal) x0 x1 s0 (ix2 r d) = _
  rw [projV_apply, expK_apply]

/-- ONE STEP of the tiled running softmax: for key scores `Kc` and values `Vc` along the sequence that agree, on tile
    `j`, with this tile's rows at columns `d` and `e`, the three updates at those columns are `CtxTiles.step`. -/
theorem step_apply (Kc Vc : ℕ → EReal) (j : ℕ) (e d : Fin 1024)
    (hK : ∀ r : Fin 512, Kc (512 * j + r.val) = rowDot x0 x1 r d) (hV : ∀ r : Fin 512, Vc (512 * j + r.val) = rowDot x0 x2 r e) :
    (newM (F := Ideal) x0 x1 s0 (ix2 (0 : Fin 1) d), newL (F := Ideal) x0 x1 s0 s1 (ix2 (0 : Fin 1) d), newA (F := Ideal) x0 x1 x2 s0 s2 (ix2 e d))
      = Cert.CtxTiles.step Kc Vc (s0 (ix2 (0 : Fin 1) d), s1 (ix2 (0 : Fin 1) d), s2 (ix2 e d)) j := by
  have hm : newM (F := Ideal) x0 x1 s0 (ix2 (0 : Fin 1) d) = max (s0 (ix2 (0 : Fin 1) d)) (Cert.CtxTiles.tmax Kc j) := by
    rw [newM_apply]; unfold Cert.CtxTiles.tmax; simp only [hK]
  unfold Cert.CtxTiles.step
  dsimp only
  rw [newL_apply, newA_apply, hm]
  simp only [hK, hV]

end Entries

end Cert.KernelIdeal.Gen

end
-- ==== Proof.IdealValue0c.lean ====
/-
  The first grid point by point. At grid point t = 8·b + j the body sees rows 512·j … 512·j + 511 of batch element b and
  the whole key and value weight matrices, so its three updates at key column d and value column e are one step of the
  tiled running softmax of the sequences  K_b[·, d]  and  V_b[·, e]; a first tile steps from the reset state. By
  induction along the grid, after point t the running maximum and sum at column d and the running accumulator at (e, d)
  are the state of that running softmax after tiles 0 … j.
-/
import proofs.«161321_j2207613190677_2_alg».proof.Proof.IdealValue0b

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Points

variable (V : (c : Dev nD) → (b : Ref sig .tc) → Buf (Elt Ideal) ((c : Thread nD τ).loc b)) (c : Dev nD)

/-- The three arrays the first grid reads, as functions into the extended reals: the input, the key weights, the value weights. -/
abbrev Xin : S4x4096x1024.Idx → EReal := V c main_arg0
abbrev Wkey : S1024x1024.Idx → EReal := V c main_v4
abbrev Wval : S1024x1024.Idx → EReal := V c main_v6

/-- The key scores of batch element `b` at key column `d`, along the sequence (zero past its end). -/
def Kseq (b : Fin 4) (d : Fin 1024) : ℕ → EReal := fun k =>
  if h : k < 4096 then ∑ cc : Fin 1024, Xin V c (ix3 b ⟨k, h⟩ cc) * Wkey V c (ix2 cc d) else 0

/-- The values of batch element `b` at value column `e`, along the sequence. -/
def Vseq (b : Fin 4) (e : Fin 1024) : ℕ → EReal := fun k =>
  if h : k < 4096 then ∑ cc : Fin 1024, Xin V c (ix3 b ⟨k, h⟩ cc) * Wval V c (ix2 cc e) else 0

/-- The batch element of a grid point. -/
def batchOf (n : ℕ) (hn : n < cfg0.N) : Fin 4 := ⟨n / 8, by have : cfg0.N = 32 := N_0; omega⟩

/-! ## Which blocks a grid point sees -/

theorem idx0_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)

theorem xblk_apply (t : Fin cfg0.N) (r : Fin 512) (cc : Fin 1024) :
    iblk0 V c 0 t (ix3 (0 : Fin 1) r cc)
      = Xin V c (ix3 (batchOf t.val t.isLt) ⟨512 * (t.val % 8) + r.val, by omega⟩ cc) := by
  obtain ⟨e0, e1, e2⟩ := idx0_0 t
  show V c main_arg0 (((cfg0.win 0).blk t).view.emb (ix3 (0 : Fin 1) r cc)) = _
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * cc.val = cc.val; omega

theorem wkblk_apply (t : Fin cfg0.N) (cc d : Fin 1024) :
    iblk0 V c 1 t (ix2 cc d) = Wkey V c (ix2 cc d) := by
  obtain ⟨e0, e1⟩ := idx0_1 t
  show V c main_v4 (((cfg0.win 1).blk t).view.emb (ix2 cc d)) = _
  refine congrArg _ (funext fun a => Fin.ext ?_)
  match a with
  | ⟨0, _⟩ => show win0_1.index t (0 : Fin 2) * 1024 + 1 * cc.val = cc.val; omega
  | ⟨1, _⟩ => show win0_1.index t (1 : Fin 2) * 1024 + 1 * d.val = d.val; omega

theorem wvblk_apply (t : Fin cfg0.N) (cc e : Fin 1024) :
    iblk0 V c 2 t (ix2 cc e) = Wval V c (ix2 cc e) := by
  obtain ⟨e0, e1⟩ := idx0_2 t
  show V c main_v6 (((cfg0.win 2).blk t).view.emb (ix2 cc e)) = _
  refine congrArg _ (funext fun a => Fin.ext ?_)
  match a with
  | ⟨0, _⟩ => show win0_2.index t (0 : Fin 2) * 1024 + 1 * cc.val = cc.val; omega
  | ⟨1, _⟩ => show win0_2.index t (1 : Fin 2) * 1024 + 1 * e.val = e.val; omega

/-- The tile's key scores are the sequence's, 512·j rows on. -/
theorem hK_at (t : Fin cfg0.N) (d : Fin 1024) (r : Fin 512) :
    Kseq V c (batchOf t.val t.isLt) d (512 * (t.val % 8) + r.val) = rowDot (iblk0 V c 0 t) (iblk0 V c 1 t) r d := by
  unfold Kseq rowDot
  rw [dif_pos (by omega : 512 * (t.val % 8) + r.val < 4096)]
  exact Finset.sum_congr rfl fun cc _ => by rw [xblk_apply, wkblk_apply]

theorem hV_at (t : Fin cfg0.N) (e : Fin 1024) (r : Fin 512) :
    Vseq V c (batchOf t.val t.isLt) e (512 * (t.val % 8) + r.val) = rowDot (iblk0 V c 0 t) (iblk0 V c 2 t) r e := by
  unfold Vseq rowDot
  rw [dif_pos (by omega : 512 * (t.val % 8) + r.val < 4096)]
  exact Finset.sum_congr rfl fun cc _ => by rw [xblk_apply, wvblk_apply]

/-! ## The reset values -/

theorem pay21_apply (i : S1x1024.Idx) : k0_pay21 (F := Ideal) i = (⊥ : EReal) := by
  unfold k0_pay21; rw [shapeCast_self]; exact ofBits_neg_inf
theorem pay22_apply (i : S1x1024.Idx) : k0_pay22 (F := Ideal) i = (0 : EReal) := by
  unfold k0_pay22; rw [shapeCast_self]; exact Ideal.ofBits_zero_f32
theorem pay23_apply (i : S1024x1024.Idx) : k0_pay23 (F := Ideal) i = (0 : EReal) := by
  unfold k0_pay23; rw [shapeCast_self]; exact Ideal.ofBits_zero_f32

/-! ## One grid point -/

/-- After a first tile the state is the running softmax's after tile 0. -/
theorem caseA_state (t : Fin cfg0.N) (h0 : t.val % 8 = 0) (h1 : ¬t.val % 8 = 7) (e d : Fin 1024) :
    ((caseA0 V c t h0 h1).2.1 (ix2 (0 : Fin 1) d), (caseA0 V c t h0 h1).2.2.1 (ix2 (0 : Fin 1) d), (caseA0 V c t h0 h1).2.2.2 (ix2 e d))
      = Cert.CtxTiles.st (Kseq V c (batchOf t.val t.isLt) d) (Vseq V c (batchOf t.val t.isLt) e) (t.val % 8) := by
  unfold caseA0
  dsimp only
  rw [sout0_A_0_eq, sout0_A_1_eq, sout0_A_2_eq]
  refine (step_apply (iblk0 V c 0 t) (iblk0 V c 1 t) (iblk0 V c 2 t) (k0_pay21 (F := Ideal)) (k0_pay22 (F := Ideal)) (k0_pay23 (F := Ideal))
    (Kseq V c (batchOf t.val t.isLt) d) (Vseq V c (batchOf t.val t.isLt) e) (t.val % 8) e d (hK_at V c t d) (hV_at V c t e)).trans ?_
  rw [pay21_apply, pay22_apply, pay23_apply, h0]
  rfl

/-- After a later tile: one step from what the tile before left. -/
theorem caseB_state (t : Fin cfg0.N) (h0 : ¬t.val % 8 = 0) (h1 : ¬t.val % 8 = 7)
    (p : Vec Ideal S1x1024 .f32 × Vec Ideal S1x1024 .f32 × Vec Ideal S1024x1024 .f32) (e d : Fin 1024) (k : ℕ) (hk : t.val % 8 = k + 1)
    (hp : (p.1 (ix2 (0 : Fin 1) d), p.2.1 (ix2 (0 : Fin 1) d), p.2.2 (ix2 e d))
      = Cert.CtxTiles.st (Kseq V c (batchOf t.val t.isLt) d) (Vseq V c (batchOf t.val t.isLt) e) k) :
    ((caseB0 V c t h0 h1 p).2.1 (ix2 (0 : Fin 1) d), (caseB0 V c t h0 h1 p).2.2.1 (ix2 (0 : Fin 1) d), (caseB0 V c t h0 h1 p).2.2.2 (ix2 e d))
      = Cert.CtxTiles.st (Kseq V c (batchOf t.val t.isLt) d) (Vseq V c (batchOf t.val t.isLt) e) (t.val % 8) := by
  unfold caseB0
  dsimp only
  rw [sout0_B_0_eq, sout0_B_1_eq, sout0_B_2_eq]
  refine (step_apply (iblk0 V c 0 t) (iblk0 V c 1 t) (iblk0 V c 2 t) p.1 p.2.1 p.2.2
    (Kseq V c (batchOf t.val t.isLt) d) (Vseq V c (batchOf t.val t.isLt) e) (t.val % 8) e d (hK_at V c t d) (hV_at V c t e)).trans ?_
  rw [hp, hk]
  rfl

theorem caseC_state (t : Fin cfg0.N) (h0 : ¬t.val % 8 = 0) (h1 : t.val % 8 = 7)
    (p : Vec Ideal S1x1024 .f32 × Vec Ideal S1x1024 .f32 × Vec Ideal S1024x1024 .f32) (e d : Fin 1024) (k : ℕ) (hk : t.val % 8 = k + 1)
    (hp : (p.1 (ix2 (0 : Fin 1) d), p.2.1 (ix2 (0 : Fin 1) d), p.2.2 (ix2 e d))
      = Cert.CtxTiles.st (Kseq V c (batchOf t.val t.isLt) d) (Vseq V c (batchOf t.val t.isLt) e) k) :
    ((caseC0 V c t h0 h1 p).2.1 (ix2 (0 : Fin 1) d), (caseC0 V c t h0 h1 p).2.2.1 (ix2 (0 : Fin 1) d), (caseC0 V c t h0 h1 p).2.2.2 (ix2 e d))
      = Cert.CtxTiles.st (Kseq V c (batchOf t.val t.isLt) d) (Vseq V c (batchOf t.val t.isLt) e) (t.val % 8) := by
  unfold caseC0
  dsimp only
  rw [sout0_C_0_eq, sout0_C_1_eq, sout0_C_2_eq]
  refine (step_apply (iblk0 V c 0 t) (iblk0 V c 1 t) (iblk0 V c 2 t) p.1 p.2.1 p.2.2
    (Kseq V c (batchOf t.val t.isLt) d) (Vseq V c (batchOf t.val t.isLt) e) (t.val % 8) e d (hK_at V c t d) (hV_at V c t e)).trans ?_
  rw [hp, hk]
  rfl

/-! ## Along the grid -/

/-- THE INVARIANT along the grid: after grid point `n` the running buffers, at key column `d` and value column `e`, hold the
    running softmax's state after tiles 0 … n mod 8 of batch element n / 8. -/
theorem state_eq : ∀ (n : ℕ) (hn : n < cfg0.N) (e d : Fin 1024),
    ((outsAt0 V c n hn).2.1 (ix2 (0 : Fin 1) d), (outsAt0 V c n hn).2.2.1 (ix2 (0 : Fin 1) d), (outsAt0 V c n hn).2.2.2 (ix2 e d))
      = Cert.CtxTiles.st (Kseq V c (batchOf n hn) d) (Vseq V c (batchOf n hn) e) (n % 8)
  | 0, hn, e, d => caseA_state V c ⟨0, hn⟩ (Nat.zero_mod _) (by show ¬(0 % 8 = 7); decide) e d
  | n + 1, hn, e, d => by
    by_cases h0 : (n + 1) % 8 = 0
    · have h1 : ¬(n + 1) % 8 = 7 := by omega
      rw [show outsAt0 V c (n + 1) hn = caseA0 V c ⟨n + 1, hn⟩ h0 h1 from (dif_pos h0).trans (dif_neg h1)]
      exact caseA_state V c ⟨n + 1, hn⟩ h0 h1 e d
    · have ih := state_eq n (Nat.lt_of_succ_lt hn) e d
      have hb : batchOf n (Nat.lt_of_succ_lt hn) = batchOf (n + 1) hn := Fin.ext (by show n / 8 = (n + 1) / 8; omega)
      have hk : (n + 1) % 8 = n % 8 + 1 := by omega
      rw [hb] at ih
      by_cases h1 : (n + 1) % 8 = 7
      · rw [show outsAt0 V c (n + 1) hn = caseC0 V c ⟨n + 1, hn⟩ h0 h1 (outsAt0 V c n (Nat.lt_of_succ_lt hn)).2 from (dif_neg h0).trans (dif_pos h1)]
        exact caseC_state V c ⟨n + 1, hn⟩ h0 h1 _ e d (n % 8) hk ih
      · rw [show outsAt0 V c (n + 1) hn = caseB0 V c ⟨n + 1, hn⟩ h0 h1 (outsAt0 V c n (Nat.lt_of_succ_lt hn)).2 from (dif_neg h0).trans (dif_neg h1)]
        exact caseB_state V c ⟨n + 1, hn⟩ h0 h1 _ e d (n % 8) hk ih

end Points

end Cert.KernelIdeal.Gen

end
-- ==== Proof.IdealValue0d.lean ====
/-
  What the first grid's body leaves in the context block at a batch element's last tile: for each of the sixteen
  heads, the head's 64 × 64 diagonal block of the new running accumulator, each column divided by the head's entry of
  the new running sum for that column. Entry (0, h, e, d) of the block is accumulator entry (64h + e, 64h + d) over sum
  entry 64h + d.
-/
import proofs.«161321_j2207613190677_2_alg».proof.Proof.IdealValue0a
import proofs.«161321_j2207613190677_2_alg».proof.Proof.AttnSpec
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One whole-buffer store read back through a sub-rectangle -/

/-- A buffer written by ONE store that covers it, then loaded through a rectangle `r`, reads the stored array at
    `r`'s indices. -/
theorem readCov_whole_store {Val : EltTy → Type} [∀ e, Nonempty (Val e)] {sig : RefSig} {κ : Kind} {sp : Space} {S : Shape}
    {e : EltTy} (v : View sig κ sp S e) {off : Fin S.rank → Nat} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero hz inb y⟩),
    View.canon_unit_zero hz]

/-! ## The quotient a head's block holds -/

/-- Entry (0, h, e, d) of the context block: accumulator entry (64h + e, 64h + d) over sum entry 64h + d. -/
def quotAt (A : S1024x1024.Idx → EReal) (Lr : S1x1024.Idx → EReal) (y : S1x16x64x64.Idx) : EReal :=
  Ideal.div (A (ix2 (Cert.AttnSpec.hd (y 1) (y 2)) (Cert.AttnSpec.hd (y 1) (y 3))))
    (Lr (ix2 (0 : Fin 1) (Cert.AttnSpec.hd (y 1) (y 3))))

/-- Head `h`'s stored block, entry by entry: the accumulator's diagonal block at offset 64h, each column divided by the
    sum's entry of that column, is `quotAt` at the place the block is stored, (0, h, ·, ·). The offsets enter as
    numbers `oh = h` and `oa = 64h`, so that one statement serves all sixteen heads. -/
theorem head_block (A : S1024x1024.Idx → EReal) (Lr : S1x1024.Idx → EReal) (h : Fin 16) (oh oa : Nat)
    (hoh : oh = h.val) (hoa : oa = 64 * h.val)
    (inbO : ∀ a, (![0, oh, 0, 0] : Fin 4 → Nat) a + (![1, 1, 64, 64] : Fin 4 → Nat) a ≤ S1x16x64x64.size a)
    (inbA : ∀ a, (![oa, oa] : Fin 2 → Nat) a + (![64, 64] : Fin 2 → Nat) a ≤ S1024x1024.size a)
    (inbL : ∀ a, (![0, oa] : Fin 2 → Nat) a + (![1, 64] : Fin 2 → Nat) a ≤ S1x1024.size a)
    (x : S1x1x64x64.Idx) :
    shapeCast S1x1x64x64
        (divf (F := Ideal) (φ := .f32) (View.ld (Val := Elt Ideal) (e' := .f32) A (Rect.unit ![oa, oa] ![64, 64] inbA))
          (broadcastTo S64x64 (View.ld (Val := Elt Ideal) (e' := .f32) Lr (Rect.unit ![0, oa] ![1, 64] inbL)) broadcasts_S1x64_S64x64))
        shapeCasts_S64x64_S1x1x64x64 x
      = quotAt A Lr ((Rect.unit (s := S1x16x64x64) ![0, oh, 0, 0] ![1, 1, 64, 64] inbO).emb x) := by
  obtain ⟨a, b, e, d, rfl⟩ : ∃ (a b : Fin 1) (e d : Fin 64), x = ix4 a b e d := ⟨x 0, x 1, x 2, x 3, eq_ix4 x⟩
  have ha := a.isLt; have hb := b.isLt; have he := e.isLt; have hd := d.isLt; have hh := h.isLt
  -- the cast [64, 64] → [1, 1, 64, 64] reads (e, d); the row broadcast reads the sum's one row at d
  rw [shapeCast_apply _ shapeCasts_S64x64_S1x1x64x64 (ix4 a b e d) (ix2 e d) (by
    rw [Shape.rowMajor_val_two, Shape.rowMajor_val_four]
    show e.val * 64 + d.val = ((a.val * 1 + b.val) * 64 + e.val) * 64 + d.val; omega)]
  rw [divf_apply, broadcastTo_1b_ab_apply]
  -- where the loads and the store sit
  have eA : (Rect.unit (s := S1024x1024) ![oa, oa] ![64, 64] inbA).idx (ix2 e d) = ix2 (Cert.AttnSpec.hd h e) (Cert.AttnSpec.hd h d) := by
    funext c; apply Fin.ext
    match c with
    | ⟨0, _⟩ => show oa + 1 * e.val = 64 * h.val + e.val; omega
    | ⟨1, _⟩ => show oa + 1 * d.val = 64 * h.val + d.val; omega
  have eL : (Rect.unit (s := S1x1024) ![0, oa] ![1, 64] inbL).idx (ix2 (0 : Fin 1) d) = ix2 (0 : Fin 1) (Cert.AttnSpec.hd h d) := by
    funext c; apply Fin.ext
    match c with
    | ⟨0, _⟩ => rfl
    | ⟨1, _⟩ => show oa + 1 * d.val = 64 * h.val + d.val; omega
  have eO : (Rect.unit (s := S1x16x64x64) ![0, oh, 0, 0] ![1, 1, 64, 64] inbO).emb (ix4 a b e d) = ix4 (0 : Fin 1) h e d := by
    funext c; apply Fin.ext
    match c with
    | ⟨0, _⟩ => show 0 + 1 * a.val = 0; omega
    | ⟨1, _⟩ => show oh + 1 * b.val = h.val; omega
    | ⟨2, _⟩ => show 0 + 1 * e.val = e.val; omega
    | ⟨3, _⟩ => show 0 + 1 * d.val = d.val; omega
  rw [eO]
  show Ideal.div (A ((Rect.unit (s := S1024x1024) ![oa, oa] ![64, 64] inbA).idx (ix2 e d)))
      (Lr ((Rect.unit (s := S1x1024) ![0, oa] ![1, 64] inbL).idx (ix2 (0 : Fin 1) d))) = _
  rw [eA, eL]
  rfl

/-! ## The context block a last tile writes -/

/-- At a batch element's last tile the body writes, into place (0, h, e, d) of the context block, the new accumulator's
    entry (64h + e, 64h + d) divided by the new sum's entry 64h + d. The sixteen stores tile the block, each store's
    payload is `quotAt` on its rectangle, so the block read back is `quotAt` everywhere. -/
theorem out0_C_3_apply (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x16x64x64 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond0_0 i) (hc1 : cond0_1 i)
    (x0 : Vec Ideal S1x512x1024 .f32) (x1 : Vec Ideal S1024x1024 .bf16) (x2 : Vec Ideal S1024x1024 .bf16) (xs0 : Vec Ideal S1x1024 .f32) (xs1 : Vec Ideal S1x1024 .f32) (xs2 : Vec Ideal S1024x1024 .f32) (h : Fin 16) (e d : Fin 64) :
    out0_C_3 (F := Ideal) c i arg2 harg2 arg3 harg3 arg4 harg4 arg5 harg5 arg6 harg6 arg7 harg7 arg8 harg8 hc0 hc1 x0 x1 x2 xs0 xs1 xs2 (ix4 (0 : Fin 1) h e d)
      = Ideal.div (newA (F := Ideal) x0 x1 x2 xs0 xs2 (ix2 (Cert.AttnSpec.hd h e) (Cert.AttnSpec.hd h d)))
          (newL (F := Ideal) x0 x1 xs0 xs1 (ix2 (0 : Fin 1) (Cert.AttnSpec.hd h d))) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  refine (View.canon_apply_of_pieces (quotAt (newA (F := Ideal) x0 x1 x2 xs0 xs2) (newL (F := Ideal) x0 x1 xs0 xs1)) _ ?_ _
    (cover0_C_3 c i arg2 harg2 arg3 harg3 arg4 harg4 arg5 harg5 arg6 harg6 arg7 harg7 arg8 harg8 hc0 hc1 x0 x1 x2 xs0 xs1 xs2 _)).trans rfl
  -- the sixteen stores, found by running the body: each reads the accumulator and the sum just stored
  unfold kernelRun0_C
  dsimp only
  sl_unfold_words
  simp only [View.readAt_eq_ld, harg2.read_unread, harg3.read_unread, harg4.read_unread, harg6.read_unread, harg7.read_unread, harg8.read_unread,
    View.ld_unit_zero (S := S1x512x1024) hz3, View.ld_unit_zero (S := S1024x1024) hz2, View.ld_unit_zero (S := S1x1024) hz2,
    readCov_whole_store arg8.view hz2, readCov_whole_store arg7.view hz2]
  intro p hp
  simp only [List.mem_cons, List.not_mem_nil, or_false] at hp
  -- head by head, last stored first: head h's block sits at (0, h, 0, 0) and reads the offsets 64h
  rcases hp with rfl | rfl | rfl | rfl | rfl | rfl | rfl | rfl | rfl | rfl | rfl | rfl | rfl | rfl | rfl | rfl
  · exact head_block _ _ 15 15 960 rfl rfl inb_S1x16x64x64_S1x1x64x64_0_15_0_0 inb_S1024x1024_S64x64_960_960 inb_S1x1024_S1x64_0_960
  · exact head_block _ _ 14 14 896 rfl rfl inb_S1x16x64x64_S1x1x64x64_0_14_0_0 inb_S1024x1024_S64x64_896_896 inb_S1x1024_S1x64_0_896
  · exact head_block _ _ 13 13 832 rfl rfl inb_S1x16x64x64_S1x1x64x64_0_13_0_0 inb_S1024x1024_S64x64_832_832 inb_S1x1024_S1x64_0_832
  · exact head_block _ _ 12 12 768 rfl rfl inb_S1x16x64x64_S1x1x64x64_0_12_0_0 inb_S1024x1024_S64x64_768_768 inb_S1x1024_S1x64_0_768
  · exact head_block _ _ 11 11 704 rfl rfl inb_S1x16x64x64_S1x1x64x64_0_11_0_0 inb_S1024x1024_S64x64_704_704 inb_S1x1024_S1x64_0_704
  · exact head_block _ _ 10 10 640 rfl rfl inb_S1x16x64x64_S1x1x64x64_0_10_0_0 inb_S1024x1024_S64x64_640_640 inb_S1x1024_S1x64_0_640
  · exact head_block _ _ 9 9 576 rfl rfl inb_S1x16x64x64_S1x1x64x64_0_9_0_0 inb_S1024x1024_S64x64_576_576 inb_S1x1024_S1x64_0_576
  · exact head_block _ _ 8 8 512 rfl rfl inb_S1x16x64x64_S1x1x64x64_0_8_0_0 inb_S1024x1024_S64x64_512_512 inb_S1x1024_S1x64_0_512
  · exact head_block _ _ 7 7 448 rfl rfl inb_S1x16x64x64_S1x1x64x64_0_7_0_0 inb_S1024x1024_S64x64_448_448 inb_S1x1024_S1x64_0_448
  · exact head_block _ _ 6 6 384 rfl rfl inb_S1x16x64x64_S1x1x64x64_0_6_0_0 inb_S1024x1024_S64x64_384_384 inb_S1x1024_S1x64_0_384
  · exact head_block _ _ 5 5 320 rfl rfl inb_S1x16x64x64_S1x1x64x64_0_5_0_0 inb_S1024x1024_S64x64_320_320 inb_S1x1024_S1x64_0_320
  · exact head_block _ _ 4 4 256 rfl rfl inb_S1x16x64x64_S1x1x64x64_0_4_0_0 inb_S1024x1024_S64x64_256_256 inb_S1x1024_S1x64_0_256
  · exact head_block _ _ 3 3 192 rfl rfl inb_S1x16x64x64_S1x1x64x64_0_3_0_0 inb_S1024x1024_S64x64_192_192 inb_S1x1024_S1x64_0_192
  · exact head_block _ _ 2 2 128 rfl rfl inb_S1x16x64x64_S1x1x64x64_0_2_0_0 inb_S1024x1024_S64x64_128_128 inb_S1x1024_S1x64_0_128
  · exact head_block _ _ 1 1 64 rfl rfl inb_S1x16x64x64_S1x1x64x64_0_1_0_0 inb_S1024x1024_S64x64_64_64 inb_S1x1024_S1x64_0_64
  · exact head_block _ _ 0 0 0 rfl rfl inb_S1x16x64x64_S1x1x64x64_0_0_0_0 inb_S1024x1024_S64x64_0_0 inb_S1x1024_S1x64_0_0

end Cert.KernelIdeal.Gen

end
-- ==== Proof.IdealValue0e.lean ====
/-
  The context array after the first grid. Its (1,16,64,64) block of batch element b is written at the last tile of b:
  head h, value feature e, key feature d gets the quotient (running accumulator at (64h+e, 64h+d)) / (running sum at
  64h+d) after all eight tiles. The sixteen·four blocks cover the array.
-/
import proofs.«161321_j2207613190677_2_alg».proof.Proof.IdealValue0c
import proofs.«161321_j2207613190677_2_alg».proof.Proof.IdealValue0d

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.AttnSpec

section Final

variable (V : (c : Dev nD) → (b : Ref sig .tc) → Buf (Elt Ideal) ((c : Thread nD τ).loc b)) (c : Dev nD)

/-- What the context array ends holding, at (batch, head, value feature, key feature). -/
def ctxG : S4x16x64x64.Idx → EReal := fun i =>
  Ideal.div (Cert.CtxTiles.st (Kseq V c (i 0) (hd (i 1) (i 3))) (Vseq V c (i 0) (hd (i 1) (i 2))) 7).2.2
    (Cert.CtxTiles.st (Kseq V c (i 0) (hd (i 1) (i 3))) (Vseq V c (i 0) (hd (i 1) (i 2))) 7).2.1

theorem idx0_3 : ∀ t : Fin cfg0.N, win0_3.index t (0 : Fin 4) = t.val / 8 ∧ win0_3.index t (1 : Fin 4) = 0
    ∧ win0_3.index t (2 : Fin 4) = 0 ∧ win0_3.index t (3 : Fin 4) = 0 :=
  (by decide +kernel : ∀ t : Fin grid0.N, _)

/-- At a last tile the new sum and the new accumulator are the running softmax's after all eight tiles. -/
theorem lastState (t : Fin cfg0.N) (h0 : ¬t.val % 8 = 0) (h7 : t.val % 8 = 7) (e' d' : Fin 1024) :
    (newL (F := Ideal) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (ix2 (0 : Fin 1) d'),
      newA (F := Ideal) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.2 (ix2 e' d'))
      = ((Cert.CtxTiles.st (Kseq V c (batchOf t.val t.isLt) d') (Vseq V c (batchOf t.val t.isLt) e') 7).2.1,
         (Cert.CtxTiles.st (Kseq V c (batchOf t.val t.isLt) d') (Vseq V c (batchOf t.val t.isLt) e') 7).2.2) := by
  have s := state_eq V c t.val t.isLt e' d'
  rw [outsAt0_C V c t h0 h7] at s
  unfold caseC0 at s
  dsimp only at s
  rw [sout0_C_1_eq, sout0_C_2_eq, h7] at s
  exact congrArg (fun q : EReal × EReal × EReal => (q.2.1, q.2.2)) s

set_option maxHeartbeats 1600000 in
/-- What a last tile writes back is its batch element's block of `ctxG`. -/
theorem flushed3_eq (t : Fin cfg0.N) (hf : (cfg0.win 3).flush t = true) :
    (dat0 V c).flushed 3 t = ((cfg0.win 3).blk t).view.read (Elt Ideal) (ctxG V c) := by
  have h7 : t.val % 8 = 7 := (flush0_3 t).mp hf
  have h0 : ¬t.val % 8 = 0 := by omega
  obtain ⟨e0, e1, e2, e3⟩ := idx0_3 t
  show (cfg0.win 3).cut (grid0.coords t) ((dat0 V c).after 3 t) = _
  rw [after0_3, outsAt0_C V c t h0 h7]
  unfold caseC0
  dsimp only
  funext y
  obtain ⟨u, h, e, d, rfl⟩ : ∃ (u : Fin 1) (h : Fin 16) (e d : Fin 64), y = ix4 u h e d := ⟨y 0, y 1, y 2, y 3, eq_ix4 y⟩
  obtain rfl : u = 0 := Subsingleton.elim _ _
  have hs := lastState V c t h0 h7 (hd h e) (hd h d)
  refine (out0_C_3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h7) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 h e d).trans ?_
  rw [(Prod.mk.inj hs).2, (Prod.mk.inj hs).1]
  show _ = ctxG V c (((cfg0.win 3).blk t).view.emb (ix4 (0 : Fin 1) h e d))
  have hemb : ((cfg0.win 3).blk t).view.emb (ix4 (0 : Fin 1) h e d) = ix4 (batchOf t.val t.isLt) h e d := by
    funext a; apply Fin.ext
    match a with
    | ⟨0, _⟩ => show win0_3.index t (0 : Fin 4) * 1 + 1 * 0 = t.val / 8; omega
    | ⟨1, _⟩ => show win0_3.index t (1 : Fin 4) * 16 + 1 * h.val = h.val; omega
    | ⟨2, _⟩ => show win0_3.index t (2 : Fin 4) * 64 + 1 * e.val = e.val; omega
    | ⟨3, _⟩ => show win0_3.index t (3 : Fin 4) * 64 + 1 * d.val = d.val; omega
  rw [hemb]
  rfl

theorem mem_blk3 (t : Fin cfg0.N) (i : S4x16x64x64.Idx) :
    i ∈ ((cfg0.win 3).blk t).view.set ↔ ∀ a : Fin 4, win0_3.index t a * S1x16x64x64.size a ≤ (i a).val ∧ (i a).val < win0_3.index t a * S1x16x64x64.size a + S1x16x64x64.size a := by
  show i ∈ ((View.whole main_v10).slice (win0_3.rect t)).set ↔ _
  rw [View.set_slice_whole, Rect.mem_set_unit]
  exact Iff.rfl

/-- Every entry of the context array lies in the block its batch element's last tile writes back. -/
theorem cover3 (i : S4x16x64x64.Idx) : ∃ t : Fin cfg0.N, (cfg0.win 3).flush t = true ∧ i ∈ ((cfg0.win 3).blk t).view.set := by
  have hN : cfg0.N = 32 := N_0
  have hN' : grid0.N = 32 := N_0
  have hi0 : (i 0).val < 4 := (i 0).isLt
  have hi1 : (i 1).val < 16 := (i 1).isLt
  have hi2 : (i 2).val < 64 := (i 2).isLt
  have hi3 : (i 3).val < 64 := (i 3).isLt
  refine ⟨⟨8 * (i 0).val + 7, by omega⟩, (flush0_3 _).mpr (by show (8 * (i 0).val + 7) % 8 = 7; omega), ?_⟩
  rw [mem_blk3]
  obtain ⟨e0, e1, e2, e3⟩ := idx0_3 ⟨8 * (i 0).val + 7, by omega⟩
  have e0' : win0_3.index ⟨8 * (i 0).val + 7, by omega⟩ (0 : Fin 4) = (i 0).val := by rw [e0]; show (8 * (i 0).val + 7) / 8 = _; omega
  intro a
  match a with
  | ⟨0, _⟩ => show win0_3.index _ (0 : Fin 4) * 1 ≤ (i 0).val ∧ (i 0).val < win0_3.index _ (0 : Fin 4) * 1 + 1; omega
  | ⟨1, _⟩ => show win0_3.index _ (1 : Fin 4) * 16 ≤ (i 1).val ∧ (i 1).val < win0_3.index _ (1 : Fin 4) * 16 + 16; omega
  | ⟨2, _⟩ => show win0_3.index _ (2 : Fin 4) * 64 ≤ (i 2).val ∧ (i 2).val < win0_3.index _ (2 : Fin 4) * 64 + 64; omega
  | ⟨3, _⟩ => show win0_3.index _ (3 : Fin 4) * 64 ≤ (i 3).val ∧ (i 3).val < win0_3.index _ (3 : Fin 4) * 64 + 64; omega

/-- THE CONTEXT ARRAY after the first grid. -/
theorem ctx_final : (dat0 V c).arrAt 3 cfg0.N = ctxG V c :=
  (dat0 V c).arrAt_eq_of_cover 3 (ctxG V c) (fun t hf => flushed3_eq V c t hf) (cover3)

end Final

end Cert.KernelIdeal.Gen

end
-- ==== Proof.KerSpec.lean ====
/-
  What the second grid computes from the arrays it finds, entry by entry over the extended reals: the queries of a
  position (input row times the query weights), soft-maxed within each head, times that head's context block (read
  with its two feature axes in the stored order: value feature first), the sixteen heads side by side, times the
  projection weights, plus the bias row.
-/
import proofs.«161321_j2207613190677_2_alg».proof.Proof.AttnSpec
import Idealize.ShloMosaic.Lib.ValueIdx

noncomputable section

namespace Cert.KerSpec

open Idealize.ShloMosaic Idealize.ShloMosaic.ValueIdx Cert.AttnSpec

variable (x : (⟨3, ![4, 4096, 1024]⟩ : Shape).Idx → EReal) (wq : (⟨2, ![1024, 1024]⟩ : Shape).Idx → EReal)
  (ctxA : (⟨4, ![4, 16, 64, 64]⟩ : Shape).Idx → EReal) (wp : (⟨2, ![1024, 1024]⟩ : Shape).Idx → EReal)
  (bias : (⟨2, ![1, 1024]⟩ : Shape).Idx → EReal)

/-- The query of position `n` of batch element `b` at channel `j`: the input row against column `j` of the weights. -/
def Qk (b : Fin 4) (n : Fin 4096) (j : Fin 1024) : EReal := ∑ c : Fin 1024, x (ix3 b n c) * wq (ix2 c j)

/-- The attention row at channel `j` (head `headOf j`, value feature `featOf j`): the head's soft-maxed query against
    the context block's row of that value feature. -/
def attnK (b : Fin 4) (n : Fin 4096) (j : Fin 1024) : EReal :=
  ∑ d : Fin 64, smax (fun d' : Fin 64 => Qk x wq b n (hd (headOf j) d')) d * ctxA (ix4 b (headOf j) (featOf j) d)

/-- The result at (batch, position, output channel). -/
def outK (b : Fin 4) (n : Fin 4096) (o : Fin 1024) : EReal :=
  (∑ j : Fin 1024, attnK x wq ctxA b n j * wp (ix2 j o)) + bias (ix2 (0 : Fin 1) o)

end Cert.KerSpec

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«161321_j2207613190677_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.LibRowSoftmax.lean ====
/-
  The shifted softmax along the rows of an `[A, B]` array on the extended reals, optionally after one entry per row is
  overwritten — for any sizes.

  A row is a family `x : Fin B → EReal`; a row's label is a 32-bit word `g`.

  * `marked v g x` is the row with the entry of the labelled column replaced by `v`: column `k` is the labelled one
    when the word of `k` is `g`.
  * `softmax m₀ y` is the softmax of a row `y` in the shifted form: with `M` the maximum of the row (the fold of
    `max` over the columns, started from `m₀`), entry `q` is `exp (y q − M) / ∑ k, exp (y k − M)`.
  * `ofRows v m₀ x g` is the whole array: entry `(r, q)` is `softmax m₀ (marked v (g r) (row r of x)) q`.
  * `max_rowMax`: a maximum started from `m₀` is at least `m₀` (a second `max` with `m₀` changes nothing).
  * `softmax_block_apply` reads a tiled unit's spelling of the softmax of a block at an entry: the row maximum and
    the row sum are reductions kept as a column `[A, 1]` and spread back along the rows.

  Nothing here needs the entries to be finite.
-/
import proofs.«161321_j2207613190677_2_alg».proof.Proof.LibRowLayer

noncomputable section

open scoped BigOperators

namespace Cert.RowSoftmax

open Idealize.ShloMosaic Idealize.ShloMosaic.ValueIdx Cert.RowLayer

variable {B : ℕ}

/-- The row `x` with the entry of the column whose word is `g` replaced by `v`. -/
def marked (v : EReal) (g : BitVec 32) (x : Fin B → EReal) : Fin B → EReal :=
  fun k => if BitVec.ofNat 32 k.val = g then v else x k

/-- The maximum of a row, started from `m₀`. -/
def rowMax (m₀ : EReal) (y : Fin B → EReal) : EReal := (Finset.univ : Finset (Fin B)).fold max m₀ y

/-- The shifted softmax of a row. -/
def softmax (m₀ : EReal) (y : Fin B → EReal) (q : Fin B) : EReal :=
  Ideal.div (Ideal.exp (y q - rowMax m₀ y)) (∑ k : Fin B, Ideal.exp (y k - rowMax m₀ y))

/-- The whole result: entry `(r, q)` is the softmax of row `r`, marked at the column its label `g r` names, at `q`. -/
def ofRows {A : ℕ} (v m₀ : EReal) (x : (⟨2, ![A, B]⟩ : Shape).Idx → EReal) (g : (⟨1, ![A]⟩ : Shape).Idx → BitVec 32) :
    (⟨2, ![A, B]⟩ : Shape).Idx → EReal :=
  fun i => softmax m₀ (marked v (g (ix1 (i 0))) (fun k => x (ix2 (i 0) k))) (i 1)

/-- A maximum started from `m₀` is at least `m₀`, so taking the maximum with `m₀` once more changes nothing. -/
theorem max_rowMax (m₀ : EReal) (y : Fin B → EReal) : max m₀ (rowMax m₀ y) = rowMax m₀ y :=
  max_eq_right ((Finset.le_fold_max m₀).2 (Or.inl le_rfl))

/-- THE TILED UNIT'S SOFTMAX OF A BLOCK `a : [A, B]`, read at `(p, q)`: the exponentials of the entries less the row
    maximum, divided by their row sum — both reductions kept as a column `[A, 1]` and spread back along the rows. -/
theorem softmax_block_apply {A : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    divf (exp (subf a (broadcastTo ⟨2, ![A, B]⟩ (shapeCast ⟨2, ![A, 1]⟩ (multiReduction .maximumf [1] ⟨1, ![A]⟩ a accM h hφ hM) hc) hb)))
        (broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb) (ix2 p q)
      = softmax (Ideal.ofBits .f32 accM) (fun k => a (ix2 p k)) q := by
  have hm : ∀ c : Fin B,
      broadcastTo ⟨2, ![A, B]⟩ (shapeCast ⟨2, ![A, 1]⟩ (multiReduction .maximumf [1] ⟨1, ![A]⟩ a accM h hφ hM) hc) hb (ix2 p c)
        = rowMax (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb (ix2 p q)
        = ∑ k : Fin B, Ideal.exp (a (ix2 p k) - rowMax (Ideal.ofBits .f32 accM) (fun k => a (ix2 p k))) :=
    (broadcastTo_a1_ab_apply _ hb p q).trans
      ((shapeCast_a_a1_apply _ hc p 0).trans ((rowSum_apply _ accA h hφ hA p).trans
        (Finset.sum_congr rfl fun k _ => congrArg (fun m => Ideal.exp (a (ix2 p k) - m)) (hm k))))
  show Ideal.div (Ideal.exp (a (ix2 p q) - _)) _ = _
  rw [hm q, hs]
  rfl

end Cert.RowSoftmax

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.IdealValue1a.lean ====
/-
  The second grid's body, entry by entry over the extended reals: the three kinds of value it computes from the blocks
  it is handed, each read at one entry.

  * the queries of the tile: the input block (its leading unit axis dropped) times the query weights into zero — a
    plain matrix product;
  * one head's attention rows: the 64 columns of the head's queries soft-maxed along each row (the row maximum is a
    reduction from -inf, taken once more against -inf, kept as a column and spread back; the exponentials' row sum
    likewise), then multiplied by the head's context block with BOTH operands contracted on their second axis;
  * the projection: the gathered rows times the projection weights into zero, plus the bias row spread over the rows,
    given back its leading unit axis.

  Every change of float format is the identity on extended reals.
-/
import proofs.«161321_j2207613190677_2_alg».proof.Proof.Gen.KernelIdeal.Skeleton
import proofs.«161321_j2207613190677_2_alg».proof.Proof.AttnSpec
import proofs.«161321_j2207613190677_2_alg».proof.Proof.LibRowSoftmax
import proofs.«161321_j2207613190677_2_alg».proof.Proof.LibIndexReads
import proofs.«161321_j2207613190677_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Value1

open Idealize.ShloMosaic Idealize.ShloMosaic.ValueIdx
open Cert.KernelIdeal Cert.KernelIdeal.Gen Cert.AttnSpec
open Cert.RowLayer Cert.RowSoftmax

/-! ## The word of -inf, and a row's largest entry -/

/-- The word of -inf is the bottom element of the extended reals. -/
theorem ofBits_negInf : Ideal.ofBits .f32 0xFF800000#32 = (⊥ : EReal) := by simp [Ideal.ofBits, Ideal.ieee]

/-- A row's maximum taken from -inf, and then once more against -inf, is the largest entry of the row: a fold of
    `max` that starts at the bottom element is already at least the bottom element. -/
theorem rowMax_floor {B : ℕ} (y : Fin B → EReal) :
    max (Ideal.ofBits .f32 0xFF800000#32) (rowMax (Ideal.ofBits .f32 0xFF800000#32) y) = fmax y := by
  rw [max_rowMax, ofBits_negInf]; rfl

/-! ## The softmax along the rows when the row maximum is taken once more against a splat -/

/-- The tiled unit's softmax of a block `a : [A, B]` read at `(p, q)`, spelt with one more `maximumf`: the row maximum
    (a reduction from the accumulator's value) is compared with a splat of `m₁` before it is kept as a column `[A, 1]`
    and spread back along the rows. With `M = max m₁ (row maximum)` the entry is
    `exp (a (p, q) − M) / ∑ k, exp (a (p, k) − M)`. -/
theorem softmax_floor_block_apply {A B : ℕ} (a : FVec Ideal ⟨2, ![A, B]⟩ .f32) (accM accA : BitVec (FTy.bits .f32))
    (m₁ : Ideal .f32) (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    divf (exp (subf a (broadcastTo ⟨2, ![A, B]⟩ (shapeCast ⟨2, ![A, 1]⟩
          (maximumf (broadcast ⟨1, ![A]⟩ m₁) (multiReduction .maximumf [1] ⟨1, ![A]⟩ a accM h hφ hM)) hc) hb)))
        (broadcastTo ⟨2, ![A, B]⟩ (shapeCast ⟨2, ![A, 1]⟩ (multiReduction .add [1] ⟨1, ![A]⟩
          (exp (subf a (broadcastTo ⟨2, ![A, B]⟩ (shapeCast ⟨2, ![A, 1]⟩
            (maximumf (broadcast ⟨1, ![A]⟩ m₁) (multiReduction .maximumf [1] ⟨1, ![A]⟩ a accM h hφ hM)) hc) hb)))
          accA h hφ hA) hc) hb) (ix2 p q)
      = Ideal.div (Ideal.exp (a (ix2 p q) - max m₁ (rowMax (Ideal.ofBits .f32 accM) (fun k => a (ix2 p k)))))
          (∑ k : Fin B, Ideal.exp (a (ix2 p k) - max m₁ (rowMax (Ideal.ofBits .f32 accM) (fun k => a (ix2 p k))))) := by
  -- the spread-back column of maxima reads, anywhere in row p, the row's (floored) maximum
  have hm : ∀ c : Fin B,
      broadcastTo ⟨2, ![A, B]⟩ (shapeCast ⟨2, ![A, 1]⟩
          (maximumf (broadcast ⟨1, ![A]⟩ m₁) (multiReduction .maximumf [1] ⟨1, ![A]⟩ a accM h hφ hM)) hc) hb (ix2 p c)
        = max m₁ (rowMax (Ideal.ofBits .f32 accM) (fun k => a (ix2 p k))) := fun c =>
    (broadcastTo_a1_ab_apply _ hb p c).trans ((shapeCast_a_a1_apply _ hc p 0).trans
      (congrArg (max m₁) (rowMax_apply a accM h hφ hM p)))
  -- the spread-back column of sums reads the row's sum of exponentials
  have hs : broadcastTo ⟨2, ![A, B]⟩ (shapeCast ⟨2, ![A, 1]⟩ (multiReduction .add [1] ⟨1, ![A]⟩
          (exp (subf a (broadcastTo ⟨2, ![A, B]⟩ (shapeCast ⟨2, ![A, 1]⟩
            (maximumf (broadcast ⟨1, ![A]⟩ m₁) (multiReduction .maximumf [1] ⟨1, ![A]⟩ a accM h hφ hM)) hc) hb)))
          accA h hφ hA) hc) hb (ix2 p q)
        = ∑ k : Fin B, Ideal.exp (a (ix2 p k) - max m₁ (rowMax (Ideal.ofBits .f32 accM) (fun k => a (ix2 p k)))) :=
    (broadcastTo_a1_ab_apply _ hb p q).trans
      ((shapeCast_a_a1_apply _ hc p 0).trans ((rowSum_apply _ accA h hφ hA p).trans
        (Finset.sum_congr rfl fun k _ => congrArg (fun m => Ideal.exp (a (ix2 p k) - m)) (hm k))))
  show Ideal.div (Ideal.exp (a (ix2 p q) - _)) _ = _
  rw [hm q, hs]

/-! ## The queries of the tile -/

/-- THE QUERY of row `r` of the tile at channel `j`: the input block's row (the block's leading unit axis dropped)
    against column `j` of the query weights. -/
theorem query_apply (x0 : S1x512x1024.Idx → EReal) (x1 : S1024x1024.Idx → EReal) (r : Fin 512) (j : Fin 1024) :
    k1_pay2 (F := Ideal) x0 x1 (ix2 r j) = ∑ c : Fin 1024, x0 (ix3 (0 : Fin 1) r c) * x1 (ix2 c j) := by
  unfold k1_pay2
  -- a plain product into zero: the sum over the shared coordinate
  refine (Ideal.matmul_constant_zero_apply dot_S512x1024_S1024x1024_S512x1024_1_0_0_1_n_n none _ _ (ix2 r j)).trans ?_
  refine (Cert.PlainDot.sum_contr dot_S512x1024_S1024x1024_S512x1024_1_0_0_1_n_n ⟨rfl, rfl, rfl, rfl, rfl, rfl⟩ _ _ r j).trans ?_
  refine Finset.sum_congr rfl fun c _ => ?_
  refine congrArg₂ (· * ·) ?_ ?_
  · -- the block viewed as [512, 1024] reads (0, r, c)
    exact shapeCast_1ab_ab_apply x0 _ r c
  · -- the weights' view change keeps the shape
    exact congrFun (shapeCast_self x1 _) (ix2 c j)

/-! ## One head -/

/-- ONE HEAD'S ATTENTION ROWS at row `r` and value feature `e`: the row of the head's queries soft-maxed over its 64
    entries, against row `e` of the head's context block — both operands of the product are contracted on their
    second axis, so the context block is read with the value feature first. -/
theorem head_apply (q : FVec Ideal S512x64 .f32) (cb : S1x1x64x64.Idx → EReal) (r : Fin 512) (e : Fin 64) :
    k1_pay16 (F := Ideal) q cb (ix2 r e)
      = ∑ d : Fin 64, smax (fun d' : Fin 64 => q (ix2 r d')) d * cb (ix4 (0 : Fin 1) (0 : Fin 1) e d) := by
  unfold k1_pay16
  dsimp only
  -- the last view change keeps the shape, and the format change before it is the identity: the stored entry is the
  -- product's
  refine (congrFun (shapeCast_self _ _) (ix2 r e)).trans ?_
  refine (Cert.Lib.IndexReads.matmul_nt_apply dot_S512x64_S64x64_S512x64_1_1_0_0_n_n_wf none _ _ r e).trans ?_
  refine Finset.sum_congr rfl fun d _ => ?_
  refine congrArg₂ (· * ·) ?_ ?_
  · -- the left operand at (r, d): the softmax of row r, whose maximum from -inf is floored by -inf once more
    refine (softmax_floor_block_apply q _ _ _ _ _ _ _ _ _ r d).trans ?_
    show Ideal.div (Ideal.exp (q (ix2 r d)
          - max (Ideal.ofBits .f32 0xFF800000#32) (rowMax (Ideal.ofBits .f32 0xFF800000#32) (fun k : Fin 64 => q (ix2 r k)))))
        (∑ k : Fin 64, Ideal.exp (q (ix2 r k)
          - max (Ideal.ofBits .f32 0xFF800000#32) (rowMax (Ideal.ofBits .f32 0xFF800000#32) (fun k : Fin 64 => q (ix2 r k))))) = _
    rw [rowMax_floor]
    rfl
  · -- the right operand at (e, d): the [1, 1, 64, 64] block viewed as [64, 64] has the same row-major position
    exact shapeCast_apply cb _ (ix2 e d) (ix4 (0 : Fin 1) (0 : Fin 1) e d) (by
      rw [Shape.rowMajor_val_four, Shape.rowMajor_val_two]
      show ((0 * 1 + 0) * 64 + e.val) * 64 + d.val = e.val * 64 + d.val
      omega)

/-! ## The projection -/

/-- THE STORED RESULT at row `r` of the tile and output channel `o`: the gathered rows against column `o` of the
    projection weights, plus the bias row's entry `o` (the row is spread over all 512 rows); the leading unit axis the
    block is given back does not move the entry. -/
theorem proj_apply (s : S512x1024.Idx → EReal) (w : S1024x1024.Idx → EReal) (b : S1x1024.Idx → EReal)
    (u : Fin 1) (r : Fin 512) (o : Fin 1024) :
    k1_pay1 (F := Ideal) (k1_pay30 (F := Ideal) s w) (k1_pay31 (F := Ideal) b) (ix3 u r o)
      = (∑ j : Fin 1024, s (ix2 r j) * w (ix2 j o)) + b (ix2 (0 : Fin 1) o) := by
  unfold k1_pay1 k1_pay30 k1_pay31
  dsimp only
  refine (shapeCast_ab_1ab_apply _ _ u r o).trans ?_
  show _ + _ = _
  refine congrArg₂ (· + ·) ?_ ?_
  · -- a plain product into zero
    refine (Ideal.matmul_constant_zero_apply dot_S512x1024_S1024x1024_S512x1024_1_0_0_1_n_n none _ _ (ix2 r o)).trans ?_
    refine (Cert.PlainDot.sum_contr dot_S512x1024_S1024x1024_S512x1024_1_0_0_1_n_n ⟨rfl, rfl, rfl, rfl, rfl, rfl⟩ _ _ r o).trans ?_
    exact Finset.sum_congr rfl fun j _ => congrArg (s (ix2 r j) * ·) (congrFun (shapeCast_self w _) (ix2 j o))
  · -- the bias row spread over the rows
    exact (broadcastTo_1b_ab_apply _ _ r o).trans (congrFun (shapeCast_self b _) (ix2 (0 : Fin 1) o))

end Cert.KernelIdeal.Value1

end
-- ==== Proof.IdealValue1b.lean ====
/-
  What the second grid leaves in its output array: the mathematics of the specification, entry by entry.

  * The body's result on a grid point's blocks, in closed form: the sixteen pieces the body gathers into the rows
    buffer are, each, one head's attention rows (the body spells the sixteen in six ways, all of one form); read back
    whole they are the attention rows of the tile, channel by channel; the stored block is their projection plus bias.
  * What a point writes back is the block, at that point, of ONE function of the five arrays the grid finds: a block's
    coordinate is always (block index) × (block size) + (coordinate inside the block), and the printed index maps put
    the input tile and the output tile at (batch, tile, 0), the context block at (batch, 0, 0, 0), the weights and the
    bias at the origin.
  * Every index of the output array lies in the block of the point (batch, position / 512), and every point writes
    back: the array ends holding that function.
-/
import proofs.«161321_j2207613190677_2_alg».proof.Proof.IdealFrame1
import proofs.«161321_j2207613190677_2_alg».proof.Proof.KerSpec
import proofs.«161321_j2207613190677_2_alg».proof.Proof.IdealValue1a
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators

namespace Cert.KernelIdeal.Value1

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.AttnSpec

/-! ## The body's result on a point's blocks, in closed form -/

section Block
variable (x0 : S1x512x1024.Idx → EReal) (x1 : S1024x1024.Idx → EReal) (x2 : S1x16x64x64.Idx → EReal)
  (x3 : S1024x1024.Idx → EReal) (x4 : S1x1024.Idx → EReal)

/-- The query of row `r` of the tile at channel `j`. -/
def Qb (r : Fin 512) (j : Fin 1024) : EReal := ∑ c : Fin 1024, x0 (ix3 (0 : Fin 1) r c) * x1 (ix2 c j)

/-- The attention row `r` of the tile at channel `j`: the soft-maxed queries of the channel's head against the row of
    the head's context block that the channel's value feature names. -/
def attnB (r : Fin 512) (j : Fin 1024) : EReal :=
  ∑ d : Fin 64, smax (fun d' : Fin 64 => Qb x0 x1 r (hd (headOf j) d')) d * x2 (ix4 (0 : Fin 1) (headOf j) (featOf j) d)

/-- The (tile, C) rows buffer once the sixteen heads are gathered. -/
def rowsB : S512x1024.Idx → EReal := fun y => attnB x0 x1 x2 (y 0) (y 1)

/-- The block the body stores: the rows projected, plus the bias. -/
def outB : S1x512x1024.Idx → EReal :=
  fun y => (∑ j : Fin 1024, attnB x0 x1 x2 (y 1) j * x3 (ix2 j (y 2))) + x4 (ix2 (0 : Fin 1) (y 2))

end Block

/-! ### The sixteen heads are one computation

The body's text is cut by position into parts, and a head's computation is named where a part ends: so the sixteen
stored pieces are spelt in six ways. Each is, by unfolding the names, the soft-maxed 64-column slice of the queries
times the head's context block. -/

section Spellings
variable {F : FTy → Type} [FloatOps F] (v0 : Vec F S1x512x1024 .f32) (v3 : Vec F S1024x1024 .bf16)
  (Q : FVec F S512x1024 .f32) (c : Vec F S1x1x64x64 .f32)

theorem head0_eq (hs : S512x1024.Slices ![0, 0] S512x64) :
    k1_pay3 v0 v3 c = k1_pay16 (extractStridedSlice S512x64 ![0, 0] (k1_pay2 v0 v3) hs) c := rfl
theorem head1_eq (hs : S512x1024.Slices ![0, 64] S512x64) :
    k1_pay6 (k1_pay4 v0 v3) (k1_pay5 v0 v3) c = k1_pay16 (extractStridedSlice S512x64 ![0, 64] (k1_pay2 v0 v3) hs) c := rfl
theorem head2_eq (hs : S512x1024.Slices ![0, 128] S512x64) :
    k1_pay7 Q c = k1_pay16 (extractStridedSlice S512x64 ![0, 128] Q hs) c := rfl
theorem head3_eq (hs : S512x1024.Slices ![0, 192] S512x64) :
    k1_pay9 (k1_pay8 Q) c = k1_pay16 (extractStridedSlice S512x64 ![0, 192] Q hs) c := rfl
theorem head4_eq (hs : S512x1024.Slices ![0, 256] S512x64) :
    k1_pay10 Q c = k1_pay16 (extractStridedSlice S512x64 ![0, 256] Q hs) c := rfl
theorem head5_eq (hs : S512x1024.Slices ![0, 320] S512x64) :
    k1_pay13 (k1_pay11 Q) (k1_pay12 Q) c = k1_pay16 (extractStridedSlice S512x64 ![0, 320] Q hs) c := rfl
theorem head6_eq (hs : S512x1024.Slices ![0, 384] S512x64) :
    k1_pay14 Q c = k1_pay16 (extractStridedSlice S512x64 ![0, 384] Q hs) c := rfl
theorem head7_eq (hs : S512x1024.Slices ![0, 448] S512x64) :
    k1_pay16 (k1_pay15 Q) c = k1_pay16 (extractStridedSlice S512x64 ![0, 448] Q hs) c := rfl
theorem head8_eq (hs : S512x1024.Slices ![0, 512] S512x64) :
    k1_pay18 (k1_pay17 Q c) = k1_pay16 (extractStridedSlice S512x64 ![0, 512] Q hs) c := rfl
theorem head9_eq (hs : S512x1024.Slices ![0, 576] S512x64) :
    k1_pay19 Q c = k1_pay16 (extractStridedSlice S512x64 ![0, 576] Q hs) c := rfl
theorem head10_eq (hs : S512x1024.Slices ![0, 640] S512x64) :
    k1_pay21 (k1_pay20 Q c) = k1_pay16 (extractStridedSlice S512x64 ![0, 640] Q hs) c := rfl
theorem head11_eq (hs : S512x1024.Slices ![0, 704] S512x64) :
    k1_pay22 Q c = k1_pay16 (extractStridedSlice S512x64 ![0, 704] Q hs) c := rfl
theorem head12_eq (hs : S512x1024.Slices ![0, 768] S512x64) :
    k1_pay25 (k1_pay23 c) (k1_pay24 Q) = k1_pay16 (extractStridedSlice S512x64 ![0, 768] Q hs) c := rfl
theorem head13_eq (hs : S512x1024.Slices ![0, 832] S512x64) :
    k1_pay26 Q c = k1_pay16 (extractStridedSlice S512x64 ![0, 832] Q hs) c := rfl
theorem head14_eq (hs : S512x1024.Slices ![0, 896] S512x64) :
    k1_pay28 (k1_pay27 Q) c = k1_pay16 (extractStridedSlice S512x64 ![0, 896] Q hs) c := rfl
theorem head15_eq (hs : S512x1024.Slices ![0, 960] S512x64) :
    k1_pay29 Q c = k1_pay16 (extractStridedSlice S512x64 ![0, 960] Q hs) c := rfl

end Spellings

/-! ### One gathered piece -/

/-- The context block a head loads — the unit rectangle at (0, h, 0, 0) of the (1, 16, 64, 64) block — reads, at
    (0, 0, e, d), the block's entry (0, h, e, d). -/
theorem ctx_block_apply (x2 : S1x16x64x64.Idx → EReal) (h : ℕ) (hh : h < 16)
    (inb : ∀ a, (![0, h, 0, 0] : Fin 4 → ℕ) a + S1x1x64x64.size a ≤ S1x16x64x64.size a) (e d : Fin 64) :
    View.ld (Val := Elt Ideal) (e' := EltTy.f32) x2 (Rect.unit (s := S1x16x64x64) ![0, h, 0, 0] S1x1x64x64.size inb) (ix4 (0 : Fin 1) (0 : Fin 1) e d)
      = x2 (ix4 (0 : Fin 1) (⟨h, hh⟩ : Fin 16) e d) := by
  refine congrArg x2 (funext fun a => Fin.ext ?_)
  match a with
  | ⟨0, _⟩ => rfl
  | ⟨1, _⟩ => show h + 1 * 0 = h; omega
  | ⟨2, _⟩ => show 0 + 1 * e.val = e.val; omega
  | ⟨3, _⟩ => show 0 + 1 * d.val = d.val; omega

/-- THE PIECE OF HEAD `h`, stored at columns [64h, 64h + 64) of the rows buffer, holds the attention rows there: at
    the piece's entry (r, e) the buffer's index is (r, 64h + e), whose head is `h` and whose value feature is `e`; the
    slice of the queries the head soft-maxes is the queries at the head's 64 channels. -/
theorem head_piece (x0 : S1x512x1024.Idx → EReal) (x1 : S1024x1024.Idx → EReal) (x2 : S1x16x64x64.Idx → EReal)
    (h off : ℕ) (hoff : off = 64 * h) (hh : h < 16) (hs : S512x1024.Slices ![0, off] S512x64)
    (inb : ∀ a, (![0, off] : Fin 2 → ℕ) a + S512x64.size a ≤ S512x1024.size a)
    (cb : S1x1x64x64.Idx → EReal)
    (hcb : ∀ e d : Fin 64, cb (ix4 (0 : Fin 1) (0 : Fin 1) e d) = x2 (ix4 (0 : Fin 1) (⟨h, hh⟩ : Fin 16) e d))
    (x : S512x64.Idx) :
    k1_pay16 (F := Ideal) (extractStridedSlice S512x64 ![0, off] (k1_pay2 (F := Ideal) x0 x1) hs) cb x
      = rowsB x0 x1 x2 ((Rect.unit (s := S512x1024) ![0, off] S512x64.size inb).emb x) := by
  obtain ⟨r, e, rfl⟩ : ∃ (r : Fin 512) (e : Fin 64), x = ix2 r e := ⟨x 0, x 1, eq_ix2 x⟩
  refine (head_apply _ cb r e).trans ?_
  -- the buffer's index under the piece's entry (r, e): row r, channel 64h + e — head h, value feature e
  have h0 : (Rect.unit (s := S512x1024) ![0, off] S512x64.size inb).emb (ix2 r e) 0 = r :=
    Fin.ext (by show 0 + 1 * r.val = r.val; omega)
  have h1 : headOf ((Rect.unit (s := S512x1024) ![0, off] S512x64.size inb).emb (ix2 r e) 1) = (⟨h, hh⟩ : Fin 16) :=
    Fin.ext (by show (off + 1 * e.val) / 64 = h; have := e.isLt; omega)
  have h2 : featOf ((Rect.unit (s := S512x1024) ![0, off] S512x64.size inb).emb (ix2 r e) 1) = e :=
    Fin.ext (by show (off + 1 * e.val) % 64 = e.val; have := e.isLt; omega)
  show _ = ∑ d : Fin 64, smax (fun d' : Fin 64 => Qb x0 x1 _ (hd (headOf _) d')) d * x2 (ix4 (0 : Fin 1) (headOf _) (featOf _) d)
  rw [h0, h1, h2]
  refine Finset.sum_congr rfl fun d _ => ?_
  refine congrArg₂ (· * ·) (congrArg (fun f => smax f d) (funext fun d' => ?_)) (hcb e d)
  -- the slice's entry (r, d') is the query at channel 64h + d'
  refine (extractStridedSlice_apply _ _ hs (ix2 r d') (ix2 r (hd ⟨h, hh⟩ d')) fun a => ?_).trans (query_apply x0 x1 r _)
  match a with
  | ⟨0, _⟩ => show r.val = 0 + r.val; omega
  | ⟨1, _⟩ => show 64 * h + d'.val = off + d'.val; omega

/-! ### The rows buffer read back, and the stored block -/

/-- A whole-buffer load after writes that cover the buffer, every one of which holds the values of ONE function `G` on its
    rectangle, reads `G`. -/
theorem readCov_whole_of_pieces {sig : RefSig} {κ : Kind} {sp : Space} {S : Shape} {e : EltTy} {Val : EltTy → Type}
    [∀ e, Nonempty (Val e)] (v : View sig κ sp S e) (G : S.Idx → Val e) (L : List (View.Piece Val S e))
    {off : Fin S.rank → ℕ} (hz : off = fun _ => 0) (inb : ∀ a, off a + S.size a ≤ S.size a)
    (hcov : ∀ y, ∃ p ∈ L, y ∈ p.1.set) (hL : ∀ p ∈ L, ∀ x : p.1.shape.Idx, p.2 x = G (p.1.emb x)) :
    v.readCov L (Rect.unit off S.size inb).toLoadRect = G := by
  rw [View.readCov_eq_canon_ld _ _ _ hcov, View.ld_unit_zero hz]
  exact funext fun y => View.canon_apply_of_pieces G L hL y (hcov y)

theorem hz2 : (![0, 0] : Fin 2 → ℕ) = fun _ => 0 := funext fun a => by fin_cases a <;> rfl
theorem hz3 : (![0, 0, 0] : Fin 3 → ℕ) = fun _ => 0 := funext fun a => by fin_cases a <;> rfl

set_option maxHeartbeats 4000000 in
/-- THE BODY'S RESULT ON A POINT'S BLOCKS. The one store into the output block covers it, so the block holds the stored
    value: the projection of the rows buffer read back whole; the buffer was covered by the sixteen heads' pieces, each
    the attention rows on its 64 columns. -/
theorem block_value (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x16x64x64 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : S1x512x1024.Idx → EReal) (x1 : S1024x1024.Idx → EReal) (x2 : S1x16x64x64.Idx → EReal)
    (x3 : S1024x1024.Idx → EReal) (x4 : S1x1024.Idx → EReal) :
    out1_5 (F := Ideal) c i arg2 harg2 arg3 harg3 arg4 harg4 arg5 harg5 arg6 harg6 arg7 harg7 arg8 harg8 x0 x1 x2 x3 x4 = outB x0 x1 x2 x3 x4 := by
  unfold out1_5
  rw [View.read_writes_eq_canon _ _ _ (cover1_5 (F := Ideal) c i arg2 harg2 arg3 harg3 arg4 harg4 arg5 harg5 arg6 harg6 arg7 harg7 arg8 harg8 x0 x1 x2 x3 x4)]
  unfold kernelRun1; dsimp only; sl_unfold_words
  rw [View.canon_unit_zero hz3]
  -- every load of an input reads the whole staging buffer, or (the context blocks) one head's block of it
  simp only [View.readAt_eq_ld, harg2.read_unread, harg3.read_unread, harg4.read_unread, harg5.read_unread,
    harg6.read_unread, View.ld_unit_zero (S := S1x512x1024) hz3, View.ld_unit_zero (S := S1024x1024) hz2,
    View.ld_unit_zero (S := S1x1024) hz2]
  -- the rows buffer read back whole: the sixteen pieces tile it, and each holds the attention rows on its columns
  refine (congrArg (fun s => k1_pay1 (F := Ideal) (k1_pay30 (F := Ideal) s x3) (k1_pay31 (F := Ideal) x4))
    (readCov_whole_of_pieces arg8.view (rowsB x0 x1 x2) _ hz2 _
      (View.cover_of_tiledL _ S512x64.size (by sl_kernel_rfl)) ?pieces)).trans ?_
  case pieces =>
    intro p hp x
    simp only [List.mem_cons, List.mem_singleton, List.not_mem_nil, or_false] at hp
    rcases hp with rfl | rfl | rfl | rfl | rfl | rfl | rfl | rfl | rfl | rfl | rfl | rfl | rfl | rfl | rfl | rfl
    · refine (congrFun (head15_eq _ _ slices_S512x1024_o0_960_S512x64) x).trans ?_
      exact head_piece x0 x1 x2 15 960 rfl (by omega) slices_S512x1024_o0_960_S512x64 inb_S512x1024_S512x64_0_960 _
        (ctx_block_apply x2 15 (by omega) inb_S1x16x64x64_S1x1x64x64_0_15_0_0) x
    · refine (congrFun (head14_eq _ _ slices_S512x1024_o0_896_S512x64) x).trans ?_
      exact head_piece x0 x1 x2 14 896 rfl (by omega) slices_S512x1024_o0_896_S512x64 inb_S512x1024_S512x64_0_896 _
        (ctx_block_apply x2 14 (by omega) inb_S1x16x64x64_S1x1x64x64_0_14_0_0) x
    · refine (congrFun (head13_eq _ _ slices_S512x1024_o0_832_S512x64) x).trans ?_
      exact head_piece x0 x1 x2 13 832 rfl (by omega) slices_S512x1024_o0_832_S512x64 inb_S512x1024_S512x64_0_832 _
        (ctx_block_apply x2 13 (by omega) inb_S1x16x64x64_S1x1x64x64_0_13_0_0) x
    · refine (congrFun (head12_eq _ _ slices_S512x1024_o0_768_S512x64) x).trans ?_
      exact head_piece x0 x1 x2 12 768 rfl (by omega) slices_S512x1024_o0_768_S512x64 inb_S512x1024_S512x64_0_768 _
        (ctx_block_apply x2 12 (by omega) inb_S1x16x64x64_S1x1x64x64_0_12_0_0) x
    · refine (congrFun (head11_eq _ _ slices_S512x1024_o0_704_S512x64) x).trans ?_
      exact head_piece x0 x1 x2 11 704 rfl (by omega) slices_S512x1024_o0_704_S512x64 inb_S512x1024_S512x64_0_704 _
        (ctx_block_apply x2 11 (by omega) inb_S1x16x64x64_S1x1x64x64_0_11_0_0) x
    · refine (congrFun (head10_eq _ _ slices_S512x1024_o0_640_S512x64) x).trans ?_
      exact head_piece x0 x1 x2 10 640 rfl (by omega) slices_S512x1024_o0_640_S512x64 inb_S512x1024_S512x64_0_640 _
        (ctx_block_apply x2 10 (by omega) inb_S1x16x64x64_S1x1x64x64_0_10_0_0) x
    · refine (congrFun (head9_eq _ _ slices_S512x1024_o0_576_S512x64) x).trans ?_
      exact head_piece x0 x1 x2 9 576 rfl (by omega) slices_S512x1024_o0_576_S512x64 inb_S512x1024_S512x64_0_576 _
        (ctx_block_apply x2 9 (by omega) inb_S1x16x64x64_S1x1x64x64_0_9_0_0) x
    · refine (congrFun (head8_eq _ _ slices_S512x1024_o0_512_S512x64) x).trans ?_
      exact head_piece x0 x1 x2 8 512 rfl (by omega) slices_S512x1024_o0_512_S512x64 inb_S512x1024_S512x64_0_512 _
        (ctx_block_apply x2 8 (by omega) inb_S1x16x64x64_S1x1x64x64_0_8_0_0) x
    · refine (congrFun (head7_eq _ _ slices_S512x1024_o0_448_S512x64) x).trans ?_
      exact head_piece x0 x1 x2 7 448 rfl (by omega) slices_S512x1024_o0_448_S512x64 inb_S512x1024_S512x64_0_448 _
        (ctx_block_apply x2 7 (by omega) inb_S1x16x64x64_S1x1x64x64_0_7_0_0) x
    · refine (congrFun (head6_eq _ _ slices_S512x1024_o0_384_S512x64) x).trans ?_
      exact head_piece x0 x1 x2 6 384 rfl (by omega) slices_S512x1024_o0_384_S512x64 inb_S512x1024_S512x64_0_384 _
        (ctx_block_apply x2 6 (by omega) inb_S1x16x64x64_S1x1x64x64_0_6_0_0) x
    · refine (congrFun (head5_eq _ _ slices_S512x1024_o0_320_S512x64) x).trans ?_
      exact head_piece x0 x1 x2 5 320 rfl (by omega) slices_S512x1024_o0_320_S512x64 inb_S512x1024_S512x64_0_320 _
        (ctx_block_apply x2 5 (by omega) inb_S1x16x64x64_S1x1x64x64_0_5_0_0) x
    · refine (congrFun (head4_eq _ _ slices_S512x1024_o0_256_S512x64) x).trans ?_
      exact head_piece x0 x1 x2 4 256 rfl (by omega) slices_S512x1024_o0_256_S512x64 inb_S512x1024_S512x64_0_256 _
        (ctx_block_apply x2 4 (by omega) inb_S1x16x64x64_S1x1x64x64_0_4_0_0) x
    · refine (congrFun (head3_eq _ _ slices_S512x1024_o0_192_S512x64) x).trans ?_
      exact head_piece x0 x1 x2 3 192 rfl (by omega) slices_S512x1024_o0_192_S512x64 inb_S512x1024_S512x64_0_192 _
        (ctx_block_apply x2 3 (by omega) inb_S1x16x64x64_S1x1x64x64_0_3_0_0) x
    · refine (congrFun (head2_eq _ _ slices_S512x1024_o0_128_S512x64) x).trans ?_
      exact head_piece x0 x1 x2 2 128 rfl (by omega) slices_S512x1024_o0_128_S512x64 inb_S512x1024_S512x64_0_128 _
        (ctx_block_apply x2 2 (by omega) inb_S1x16x64x64_S1x1x64x64_0_2_0_0) x
    · refine (congrFun (head1_eq _ _ _ slices_S512x1024_o0_64_S512x64) x).trans ?_
      exact head_piece x0 x1 x2 1 64 rfl (by omega) slices_S512x1024_o0_64_S512x64 inb_S512x1024_S512x64_0_64 _
        (ctx_block_apply x2 1 (by omega) inb_S1x16x64x64_S1x1x64x64_0_1_0_0) x
    · refine (congrFun (head0_eq _ _ _ slices_S512x1024_o0_0_S512x64) x).trans ?_
      exact head_piece x0 x1 x2 0 0 rfl (by omega) slices_S512x1024_o0_0_S512x64 inb_S512x1024_S512x64_0_0 _
        (ctx_block_apply x2 0 (by omega) inb_S1x16x64x64_S1x1x64x64_0_0_0_0) x
  -- the stored block, entry by entry
  funext y
  obtain ⟨u, r, o, rfl⟩ : ∃ (u : Fin 1) (r : Fin 512) (o : Fin 1024), y = ix3 u r o := ⟨y 0, y 1, y 2, eq_ix3 y⟩
  exact proj_apply (rowsB x0 x1 x2) x3 x4 u r o

/-! ## From a point's blocks to the arrays -/

/-- THE BLOCK'S CLOSED FORM IS THE SPECIFICATION on the arrays the blocks were cut from: when the input tile's row `r`
    is row `n` of batch element `b` of the input array, the context block is that of batch element `b`, and the weights
    and the bias are whole arrays, entry (r, o) of the stored block is the result at (b, n, o'). -/
theorem outB_eq_outK
    (A0 : (⟨3, ![4, 4096, 1024]⟩ : Shape).Idx → EReal) (A1 : (⟨2, ![1024, 1024]⟩ : Shape).Idx → EReal)
    (A2 : (⟨4, ![4, 16, 64, 64]⟩ : Shape).Idx → EReal) (A3 : (⟨2, ![1024, 1024]⟩ : Shape).Idx → EReal)
    (A4 : (⟨2, ![1, 1024]⟩ : Shape).Idx → EReal)
    (x0 : S1x512x1024.Idx → EReal) (x1 : S1024x1024.Idx → EReal) (x2 : S1x16x64x64.Idx → EReal)
    (x3 : S1024x1024.Idx → EReal) (x4 : S1x1024.Idx → EReal)
    (u : Fin 1) (r : Fin 512) (o : Fin 1024) (b : Fin 4) (n : Fin 4096) (o' : Fin 1024)
    (e0 : ∀ ch : Fin 1024, x0 (ix3 (0 : Fin 1) r ch) = A0 (ix3 b n ch))
    (e1 : ∀ ch j : Fin 1024, x1 (ix2 ch j) = A1 (ix2 ch j))
    (e2 : ∀ (h : Fin 16) (e d : Fin 64), x2 (ix4 (0 : Fin 1) h e d) = A2 (ix4 b h e d))
    (e3 : ∀ j : Fin 1024, x3 (ix2 j o) = A3 (ix2 j o'))
    (e4 : x4 (ix2 (0 : Fin 1) o) = A4 (ix2 (0 : Fin 1) o')) :
    outB x0 x1 x2 x3 x4 (ix3 u r o) = Cert.KerSpec.outK A0 A1 A2 A3 A4 b n o' := by
  -- the queries, then the attention rows, agree channel by channel
  have hQ : ∀ j : Fin 1024, Qb x0 x1 r j = Cert.KerSpec.Qk A0 A1 b n j := fun j =>
    Finset.sum_congr rfl fun ch _ => by rw [e0 ch, e1 ch j]
  have hA : ∀ j : Fin 1024, attnB x0 x1 x2 r j = Cert.KerSpec.attnK A0 A1 A2 b n j := fun j =>
    Finset.sum_congr rfl fun d _ => by
      rw [e2 (headOf j) (featOf j) d]
      exact congrArg (fun f : Fin 64 → EReal => smax f d * A2 (ix4 b (headOf j) (featOf j) d))
        (funext fun d' => hQ (hd (headOf j) d'))
  show (∑ j : Fin 1024, attnB x0 x1 x2 r j * x3 (ix2 j o)) + x4 (ix2 (0 : Fin 1) o)
    = (∑ j : Fin 1024, Cert.KerSpec.attnK A0 A1 A2 b n j * A3 (ix2 j o')) + A4 (ix2 (0 : Fin 1) o')
  rw [e4]
  exact congrArg (· + A4 (ix2 (0 : Fin 1) o')) (Finset.sum_congr rfl fun j _ => by rw [hA j, e3 j])

/-- The printed index maps, decided over the 32 grid points: the input tile and the output tile have the same block
    index (batch, tile, 0); the context block's is (batch, 0, 0, 0); the weights' and the bias's are the origin. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_2.index t (0 : Fin 4) = win1_5.index t (0 : Fin 3) ∧ win1_2.index t (1 : Fin 4) = 0
    ∧ win1_2.index t (2 : Fin 4) = 0 ∧ win1_2.index t (3 : Fin 4) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every (batch, tile) pair is some grid point's output block index. -/
theorem idx_onto : ∀ (b : Fin 4) (nt : Fin 8), ∃ t : Fin cfg1.N, win1_5.index t = ![b.val, nt.val, 0] :=
  (by decide +kernel : ∀ (b : Fin 4) (nt : Fin 8), ∃ t : Fin grid1.N, win1_5.index t = ![b.val, nt.val, 0])

section Entry
variable (V : (c : Dev nD) → (b : Ref sig .tc) → Buf (Elt Ideal) ((c : Thread nD τ).loc b))

/-- The result array the specification names, from the five arrays as the grid finds them. -/
abbrev specOut (c : Dev nD) : (⟨3, ![4, 4096, 1024]⟩ : Shape).Idx → EReal :=
  fun i => Cert.KerSpec.outK (V c main_arg0) (V c main_v2) (V c main_v10) (V c main_v8) (V c main_v9) (i 0) (i 1) (i 2)

set_option maxHeartbeats 4000000 in
/-- WHAT POINT `t` WRITES BACK is block `t` of the specification's result. A block's coordinate on an axis is
    (block index) × (block size) + (coordinate inside the block); with the index maps' relations, entry (0, r, o) of the
    input tile is the input array's entry under entry (0, r, ·) of the output block, the context block is the batch
    element's, and the weights' and bias's blocks are the whole arrays. -/
theorem flushed_eq (c : Dev nD) (t : Fin cfg1.N) :
    (dat1 (F := Ideal) V c).flushed 5 t = ((cfg1.win 5).blk t).view.read (Elt Ideal) (specOut V c) := by
  show (cfg1.win 5).cut (grid1.coords t) ((dat1 (F := Ideal) V c).after 5 t) = _
  rw [after1_5, block_value c (grid1.coords t) (ms1_0 t) (hs1_0 t) (ms1_1 t) (hs1_1 t) (ms1_2 t) (hs1_2 t) (ms1_3 t) (hs1_3 t)
    (ms1_4 t) (hs1_4 t) (ms1_5 t) (hs1_5 t) scM1_0 (Memref.isWhole_whole _)
    (iblk1 V c 0 t) (iblk1 V c 1 t) (iblk1 V c 2 t) (iblk1 V c 3 t) (iblk1 V c 4 t)]
  obtain ⟨i0, i1, i2, i3, i4, i5, i6, i7, i8, i9, i10, i11, i12, i13⟩ := idx_facts t
  refine funext fun (j : S1x512x1024.Idx) => ?_
  obtain ⟨u, r, o, rfl⟩ : ∃ (u : Fin 1) (r : Fin 512) (o : Fin 1024), j = ix3 u r o := ⟨j 0, j 1, j 2, eq_ix3 j⟩
  have hu : u.val = 0 := by omega
  show outB (iblk1 V c 0 t) (iblk1 V c 1 t) (iblk1 V c 2 t) (iblk1 V c 3 t) (iblk1 V c 4 t) (ix3 u r o)
    = Cert.KerSpec.outK (V c main_arg0) (V c main_v2) (V c main_v10) (V c main_v8) (V c main_v9)
        (((cfg1.win 5).blk t).view.emb (ix3 u r o) 0) (((cfg1.win 5).blk t).view.emb (ix3 u r o) 1)
        (((cfg1.win 5).blk t).view.emb (ix3 u r o) 2)
  refine outB_eq_outK (V c main_arg0) (V c main_v2) (V c main_v10) (V c main_v8) (V c main_v9)
    (iblk1 V c 0 t) (iblk1 V c 1 t) (iblk1 V c 2 t) (iblk1 V c 3 t) (iblk1 V c 4 t) u r o
    (((cfg1.win 5).blk t).view.emb (ix3 u r o) 0) (((cfg1.win 5).blk t).view.emb (ix3 u r o) 1)
    (((cfg1.win 5).blk t).view.emb (ix3 u r o) 2) (fun ch => ?_) (fun ch j => ?_) (fun h e d => ?_) (fun j => ?_) ?_
  · -- the input tile
    show V c main_arg0 (((cfg1.win 0).blk t).view.emb (ix3 (0 : Fin 1) r ch)) = V c main_arg0 _
    refine congrArg (V c main_arg0) (funext fun a => Fin.ext ?_)
    match a with
    | ⟨0, _⟩ => show win1_0.index t (0 : Fin 3) * 1 + 1 * 0 = win1_5.index t (0 : Fin 3) * 1 + 1 * u.val; rw [i0, hu]
    | ⟨1, _⟩ => show win1_0.index t (1 : Fin 3) * 512 + 1 * r.val = win1_5.index t (1 : Fin 3) * 512 + 1 * r.val; rw [i1]
    | ⟨2, _⟩ => show win1_0.index t (2 : Fin 3) * 1024 + 1 * ch.val = ch.val; rw [i2]; omega
  · -- the query weights
    show V c main_v2 (((cfg1.win 1).blk t).view.emb (ix2 ch j)) = V c main_v2 _
    refine congrArg (V c main_v2) (funext fun a => Fin.ext ?_)
    match a with
    | ⟨0, _⟩ => show win1_1.index t (0 : Fin 2) * 1024 + 1 * ch.val = ch.val; rw [i8]; omega
    | ⟨1, _⟩ => show win1_1.index t (1 : Fin 2) * 1024 + 1 * j.val = j.val; rw [i9]; omega
  · -- the context block
    show V c main_v10 (((cfg1.win 2).blk t).view.emb (ix4 (0 : Fin 1) h e d)) = V c main_v10 _
    refine congrArg (V c main_v10) (funext fun a => Fin.ext ?_)
    match a with
    | ⟨0, _⟩ => show win1_2.index t (0 : Fin 4) * 1 + 1 * 0 = win1_5.index t (0 : Fin 3) * 1 + 1 * u.val; rw [i4, hu]
    | ⟨1, _⟩ => show win1_2.index t (1 : Fin 4) * 16 + 1 * h.val = h.val; rw [i5]; omega
    | ⟨2, _⟩ => show win1_2.index t (2 : Fin 4) * 64 + 1 * e.val = e.val; rw [i6]; omega
    | ⟨3, _⟩ => show win1_2.index t (3 : Fin 4) * 64 + 1 * d.val = d.val; rw [i7]; omega
  · -- the projection weights
    show V c main_v8 (((cfg1.win 3).blk t).view.emb (ix2 j o)) = V c main_v8 _
    refine congrArg (V c main_v8) (funext fun a => Fin.ext ?_)
    match a with
    | ⟨0, _⟩ => show win1_3.index t (0 : Fin 2) * 1024 + 1 * j.val = j.val; rw [i10]; omega
    | ⟨1, _⟩ => show win1_3.index t (1 : Fin 2) * 1024 + 1 * o.val = win1_5.index t (2 : Fin 3) * 1024 + 1 * o.val; rw [i11, i3]
  · -- the bias
    show V c main_v9 (((cfg1.win 4).blk t).view.emb (ix2 (0 : Fin 1) o)) = V c main_v9 _
    refine congrArg (V c main_v9) (funext fun a => Fin.ext ?_)
    match a with
    | ⟨0, _⟩ => show win1_4.index t (0 : Fin 2) * 1 + 1 * 0 = 0; rw [i12]
    | ⟨1, _⟩ => show win1_4.index t (1 : Fin 2) * 1024 + 1 * o.val = win1_5.index t (2 : Fin 3) * 1024 + 1 * o.val; rw [i13, i3]

/-- An index of the output array is in point `t`'s block iff each coordinate is in the block's range on its axis. -/
theorem mem_blk (t : Fin cfg1.N) (i : (⟨3, ![4, 4096, 1024]⟩ : Shape).Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v11).slice (win1_5.rect t)).set ↔ _
  rw [View.set_slice_whole, Rect.mem_set_unit]
  exact Iff.rfl

/-- EVERY INDEX (b, n, o) of the output array is in the block of the point whose block index is (b, n / 512, 0), and
    every point writes its block back. -/
theorem covered (i : (⟨3, ![4, 4096, 1024]⟩ : Shape).Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 1024 ≤ (i 2).val ∧ (i 2).val < win1_5.index t (2 : Fin 3) * 1024 + 1024
    omega

/-- THE OUTPUT ARRAY after the second grid: the specification's result, entry by entry. -/
theorem out_final (c : Dev nD) :
    (dat1 (F := Ideal) V c).arrAt 5 cfg1.N
      = fun i => Cert.KerSpec.outK (V c main_arg0) (V c main_v2) (V c main_v10) (V c main_v8) (V c main_v9) (i 0) (i 1) (i 2) :=
  (dat1 (F := Ideal) V c).arrAt_eq_of_cover 5 (specOut V c) (fun t _ => flushed_eq V c t) covered

end Entry

end Cert.KernelIdeal.Value1

end
-- ==== Proof.RefValue.lean ====
/-
  The reference program's result, entry by entry, is the attention formula of `AttnSpec`.

  The program projects the input onto 3·1024 stacked weight rows, re-lays the projection as (part, batch, head,
  position, feature), soft-maxes the queries over the 64 features of their head and the keys over the 4096
  positions, contracts keys against values into a 64 × 64 context per head, applies the soft-maxed queries to it,
  lays the heads side by side again and projects with the output weights, adding the bias. Below, each named
  intermediate of the program is read at explicit coordinates and identified with the corresponding quantity of the
  specification: `lin`, `qs`, `ks`, `ctx`, `attn`, `out`.
-/
import proofs.«161321_j2207613190677_2_alg».proof.Proof.Gen.ReferenceIdeal.Read
import proofs.«161321_j2207613190677_2_alg».proof.Proof.AttnSpec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read Cert.AttnSpec

/-- The input array as a function of (batch, position, channel). -/
abbrev X (a0 : (⟨S4x4096x1024, .f32⟩ : BufTy).Contents (Elt Ideal)) : Fin 4 → Fin 4096 → Fin 1024 → EReal :=
  fun b n c => a0 (ix3 b n c)
/-- The stacked projection weights as a function of (row, channel). -/
abbrev W (a1 : (⟨S3072x1024, .f32⟩ : BufTy).Contents (Elt Ideal)) : Fin 3072 → Fin 1024 → EReal :=
  fun o c => a1 (ix2 o c)

variable (a0 : (⟨S4x4096x1024, .f32⟩ : BufTy).Contents (Elt Ideal)) (a1 : (⟨S3072x1024, .f32⟩ : BufTy).Contents (Elt Ideal))

/-! ## The stacked projection and its three parts -/

/-- Entry (b, n, o) of the projection contracts channel `c` of the input's row (b, n) with channel `c` of weight row `o`. -/
theorem lidx_proj (b : Fin 4) (n : Fin 4096) (o : Fin 3072) (c : Fin 1024) : lidx_main_v0 (ix3 b n o) c = ix3 b n c := by
  funext a; match a with | ⟨0, _⟩ => rfl | ⟨1, _⟩ => rfl | ⟨2, _⟩ => rfl
theorem ridx_proj (b : Fin 4) (n : Fin 4096) (o : Fin 3072) (c : Fin 1024) : ridx_main_v0 (ix3 b n o) c = ix2 o c := by
  funext a; match a with | ⟨0, _⟩ => rfl | ⟨1, _⟩ => rfl

/-- The projection at (b, n, o): the input's row (b, n) against weight row `o`. -/
theorem proj_at (b : Fin 4) (n : Fin 4096) (o : Fin 3072) :
    val_main_v0 (F := Ideal) a0 a1 (ix3 b n o) = ∑ c : Fin 1024, X a0 b n c * W a1 o c := by
  rw [val_main_v0_apply]
  exact Finset.sum_congr rfl fun c _ => by rw [lidx_proj, ridx_proj]

/-- Splitting the 3072 projection columns as (part, head, feature) and moving the part in front: entry
    (s, b, h, n, d) of the re-laid projection is column 1024·s + 64·h + d of row (b, n). The flat position of
    (b, n, s, h, d) in the five-axis array is ((((b·4096 + n)·3 + s)·16 + h)·64 + d), and 3·16·64 = 3072. -/
theorem idx_parts (s : Fin 3) (b : Fin 4) (h : Fin 16) (n : Fin 4096) (d : Fin 64) :
    idx_main_v1 (idx_main_v2 (ix5 s b h n d)) = ix3 b n (col s (hd h d)) := by
  have := s.isLt; have := b.isLt; have := h.isLt; have := n.isLt; have := d.isLt
  funext a; apply Fin.ext
  match a with
  | ⟨0, _⟩ => show ((((b.val * 4096 + n.val) * 3 + s.val) * 16 + h.val) * 64 + d.val) / 12582912 = b.val; omega
  | ⟨1, _⟩ => show ((((b.val * 4096 + n.val) * 3 + s.val) * 16 + h.val) * 64 + d.val) / 3072 % 4096 = n.val; omega
  | ⟨2, _⟩ => show ((((b.val * 4096 + n.val) * 3 + s.val) * 16 + h.val) * 64 + d.val) % 3072 = 1024 * s.val + (64 * h.val + d.val); omega

/-- The re-laid projection at (s, b, h, n, d) is part `s` of the projection at (b, n), channel (h, d). -/
theorem parts_at (s : Fin 3) (b : Fin 4) (h : Fin 16) (n : Fin 4096) (d : Fin 64) :
    val_main_v2 (F := Ideal) a0 a1 (ix5 s b h n d) = lin (X a0) (W a1) s b n (hd h d) := by
  rw [val_main_v2_apply, val_main_v1_apply, idx_parts, proj_at]
  rfl

/-- Part `s` alone, with its unit axis dropped: entry (b, h, n, d) of the four-axis array is entry (s, b, h, n, d) of
    the five-axis one. The flat position of (b, h, n, d) is (((b·16 + h)·4096 + n)·64 + d). -/
theorem idx_q (b : Fin 4) (h : Fin 16) (n : Fin 4096) (d : Fin 64) :
    idx_main_v3 (idx_main_v4 (ix4 b h n d)) = ix5 (0 : Fin 3) b h n d := by
  have := b.isLt; have := h.isLt; have := n.isLt; have := d.isLt
  funext a; apply Fin.ext
  match a with
  | ⟨0, _⟩ => rfl
  | ⟨1, _⟩ => show (((b.val * 16 + h.val) * 4096 + n.val) * 64 + d.val) / 4194304 % 4 = b.val; omega
  | ⟨2, _⟩ => show (((b.val * 16 + h.val) * 4096 + n.val) * 64 + d.val) / 262144 % 16 = h.val; omega
  | ⟨3, _⟩ => show (((b.val * 16 + h.val) * 4096 + n.val) * 64 + d.val) / 64 % 4096 = n.val; omega
  | ⟨4, _⟩ => show (((b.val * 16 + h.val) * 4096 + n.val) * 64 + d.val) % 64 = d.val; omega
theorem idx_k (b : Fin 4) (h : Fin 16) (n : Fin 4096) (d : Fin 64) :
    idx_main_v5 (idx_main_v6 (ix4 b h n d)) = ix5 (1 : Fin 3) b h n d := by
  have := b.isLt; have := h.isLt; have := n.isLt; have := d.isLt
  funext a; apply Fin.ext
  match a with
  | ⟨0, _⟩ => rfl
  | ⟨1, _⟩ => show (((b.val * 16 + h.val) * 4096 + n.val) * 64 + d.val) / 4194304 % 4 = b.val; omega
  | ⟨2, _⟩ => show (((b.val * 16 + h.val) * 4096 + n.val) * 64 + d.val) / 262144 % 16 = h.val; omega
  | ⟨3, _⟩ => show (((b.val * 16 + h.val) * 4096 + n.val) * 64 + d.val) / 64 % 4096 = n.val; omega
  | ⟨4, _⟩ => show (((b.val * 16 + h.val) * 4096 + n.val) * 64 + d.val) % 64 = d.val; omega
theorem idx_v (b : Fin 4) (h : Fin 16) (n : Fin 4096) (d : Fin 64) :
    idx_main_v7 (idx_main_v8 (ix4 b h n d)) = ix5 (2 : Fin 3) b h n d := by
  have := b.isLt; have := h.isLt; have := n.isLt; have := d.isLt
  funext a; apply Fin.ext
  match a with
  | ⟨0, _⟩ => rfl
  | ⟨1, _⟩ => show (((b.val * 16 + h.val) * 4096 + n.val) * 64 + d.val) / 4194304 % 4 = b.val; omega
  | ⟨2, _⟩ => show (((b.val * 16 + h.val) * 4096 + n.val) * 64 + d.val) / 262144 % 16 = h.val; omega
  | ⟨3, _⟩ => show (((b.val * 16 + h.val) * 4096 + n.val) * 64 + d.val) / 64 % 4096 = n.val; omega
  | ⟨4, _⟩ => show (((b.val * 16 + h.val) * 4096 + n.val) * 64 + d.val) % 64 = d.val; omega

/-- The queries, keys and values at (b, h, n, d): parts 0, 1, 2 of the projection at (b, n), channel (h, d). -/
theorem q_at (b : Fin 4) (h : Fin 16) (n : Fin 4096) (d : Fin 64) :
    val_main_v4 (F := Ideal) a0 a1 (ix4 b h n d) = lin (X a0) (W a1) 0 b n (hd h d) := by
  rw [val_main_v4_apply, val_main_v3_apply, idx_q, parts_at]
theorem k_at (b : Fin 4) (h : Fin 16) (n : Fin 4096) (d : Fin 64) :
    val_main_v6 (F := Ideal) a0 a1 (ix4 b h n d) = lin (X a0) (W a1) 1 b n (hd h d) := by
  rw [val_main_v6_apply, val_main_v5_apply, idx_k, parts_at]
theorem v_at (b : Fin 4) (h : Fin 16) (n : Fin 4096) (d : Fin 64) :
    val_main_v8 (F := Ideal) a0 a1 (ix4 b h n d) = lin (X a0) (W a1) 2 b n (hd h d) := by
  rw [val_main_v8_apply, val_main_v7_apply, idx_v, parts_at]

/-! ## The largest entry along one axis

A maximum-reduction of the program starts from the word 0xFF800000, which is −∞, the bottom of the extended reals;
over one axis it is the fold of `max` from there over that axis's coordinates, the other coordinates held. -/

/-- The word 0xFF800000 denotes −∞. -/
theorem ofBits_negInf : Ideal.ofBits .f32 0xFF800000#32 = (⊥ : EReal) := by simp [Ideal.ofBits, Ideal.ieee]

theorem reduces_feat : S4x16x4096x64.Reduces [3] S4x16x4096 := by decide
theorem reduces_pos : S4x16x4096x64.Reduces [2] S4x16x64 := by decide

/-- (b, h, n) with feature `k` put back on the last axis is (b, h, n, k). -/
theorem lift_feat (b : Fin 4) (h : Fin 16) (n : Fin 4096) (k : Fin (S4x16x4096x64.size 3)) :
    reduces_feat.lift (ix3 b h n) k = ix4 b h n (⟨k.val, k.isLt⟩ : Fin 64) := by
  funext c; apply Fin.ext
  fin_cases c <;> rfl
/-- (b, h, d) with position `k` put back on the third axis is (b, h, k, d). -/
theorem lift_pos (b : Fin 4) (h : Fin 16) (d : Fin 64) (k : Fin (S4x16x4096x64.size 2)) :
    reduces_pos.lift (ix3 b h d) k = ix4 b h (⟨k.val, k.isLt⟩ : Fin 4096) d := by
  funext c; apply Fin.ext
  fin_cases c <;> rfl

/-- The maximum-reduction over the features, at (b, h, n): the largest of the 64 entries (b, h, n, ·). -/
theorem max_over_feat (x : S4x16x4096x64.Idx → EReal) (b : Fin 4) (h : Fin 16) (n : Fin 4096) :
    Host.reduce (FloatOps.maximumf (F := Ideal) (φ := .f32)) x (val_main_cst (F := Ideal))
        reducesTo_S4x16x4096x64_S4x16x4096_d3 h_S_ (ix3 b h n)
      = fmax (fun d : Fin 64 => x (ix4 b h n d)) := by
  refine (Host.reduce_eq_fold_single (FloatOps.maximumf (F := Ideal) (φ := .f32)) x _
    reducesTo_S4x16x4096x64_S4x16x4096_d3 reduces_feat h_S_ (ix3 b h n)).trans ?_
  rw [show val_main_cst (F := Ideal) (Shape.Idx.first h_S_) = (⊥ : EReal) from ofBits_negInf]
  have hf : (x ∘ reduces_feat.lift (ix3 b h n)) = fun d : Fin 64 => x (ix4 b h n d) :=
    funext fun k => congrArg x (lift_feat b h n k)
  exact congrArg (fun f => Finset.fold max (⊥ : EReal) f (Finset.univ : Finset (Fin 64))) hf

/-- The maximum-reduction over the positions, at (b, h, d): the largest of the 4096 entries (b, h, ·, d). -/
theorem max_over_pos (x : S4x16x4096x64.Idx → EReal) (b : Fin 4) (h : Fin 16) (d : Fin 64) :
    Host.reduce (FloatOps.maximumf (F := Ideal) (φ := .f32)) x (val_main_cst_2 (F := Ideal))
        reducesTo_S4x16x4096x64_S4x16x64_d2 h_S_ (ix3 b h d)
      = fmax (fun n : Fin 4096 => x (ix4 b h n d)) := by
  refine (Host.reduce_eq_fold_single (FloatOps.maximumf (F := Ideal) (φ := .f32)) x _
    reducesTo_S4x16x4096x64_S4x16x64_d2 reduces_pos h_S_ (ix3 b h d)).trans ?_
  rw [show val_main_cst_2 (F := Ideal) (Shape.Idx.first h_S_) = (⊥ : EReal) from ofBits_negInf]
  have hf : (x ∘ reduces_pos.lift (ix3 b h d)) = fun n : Fin 4096 => x (ix4 b h n d) :=
    funext fun k => congrArg x (lift_pos b h d k)
  exact congrArg (fun f => Finset.fold max (⊥ : EReal) f (Finset.univ : Finset (Fin 4096))) hf

/-! ## The queries, soft-maxed over the features of their head -/

/-- The query features of head `h` at (b, n): the family the query soft-max runs over. -/
abbrev qrow (b : Fin 4) (h : Fin 16) (n : Fin 4096) : Fin 64 → EReal := fun d' => lin (X a0) (W a1) 0 b n (hd h d')

/-- The row maximum, broadcast back along the features: (b, h, n, d) reads (b, h, n). -/
theorem idx_qmax_bcast (b : Fin 4) (h : Fin 16) (n : Fin 4096) (d : Fin 64) :
    idx_main_v12 (idx_main_v13 (ix4 b h n d)) = ix3 b h n := by
  funext a; match a with | ⟨0, _⟩ => rfl | ⟨1, _⟩ => rfl | ⟨2, _⟩ => rfl
theorem idx_qsum_bcast (b : Fin 4) (h : Fin 16) (n : Fin 4096) (d : Fin 64) :
    idx_main_v17 (idx_main_v18 (ix4 b h n d)) = ix3 b h n := by
  funext a; match a with | ⟨0, _⟩ => rfl | ⟨1, _⟩ => rfl | ⟨2, _⟩ => rfl
/-- The sum over the features at (b, h, n) runs over the entries (b, h, n, ·). -/
theorem idx_qsum (b : Fin 4) (h : Fin 16) (n : Fin 4096) (k : Fin 64) : idx_main_v16 (ix3 b h n) k = ix4 b h n k := by
  funext a; match a with | ⟨0, _⟩ => rfl | ⟨1, _⟩ => rfl | ⟨2, _⟩ => rfl | ⟨3, _⟩ => rfl

/-- The maximum the soft-max subtracts: max(−∞, the largest query feature of the head) is that largest feature. -/
theorem qmax_at (b : Fin 4) (h : Fin 16) (n : Fin 4096) :
    val_main_v11 (F := Ideal) a0 a1 (ix3 b h n) = fmax (qrow a0 a1 b h n) := by
  rw [val_main_v11_apply, val_main_v10_apply, val_main_cst_0_apply, Ideal.ofBits_def, ofBits_negInf, Ideal.maximumf_def,
    max_bot_left]
  unfold val_main_v9
  rw [max_over_feat]
  simp only [q_at]

/-- The exponentials: e^(query feature − row maximum). -/
theorem qexp_at (b : Fin 4) (h : Fin 16) (n : Fin 4096) (d : Fin 64) :
    val_main_v15 (F := Ideal) a0 a1 (ix4 b h n d) = Ideal.exp (qrow a0 a1 b h n d - fmax (qrow a0 a1 b h n)) := by
  rw [val_main_v15_apply, val_main_v14_apply, val_main_v13_apply, val_main_v12_apply, idx_qmax_bcast, qmax_at, q_at]
  rfl

/-- Their sum over the head's features; the program's sum starts from the word 0x00000000, which is 0. -/
theorem qsum_at (b : Fin 4) (h : Fin 16) (n : Fin 4096) :
    val_main_v16 (F := Ideal) a0 a1 (ix3 b h n)
      = ∑ d' : Fin 64, Ideal.exp (qrow a0 a1 b h n d' - fmax (qrow a0 a1 b h n)) := by
  rw [val_main_v16_apply, val_main_cst_1_apply, Ideal.ofBits_def, Ideal.ofBits_zero_f32, zero_add]
  exact Finset.sum_congr rfl fun k _ => by rw [idx_qsum, qexp_at]

/-- The soft-maxed queries are the specification's `qs`. -/
theorem qs_at (b : Fin 4) (h : Fin 16) (n : Fin 4096) (d : Fin 64) :
    val_main_v19 (F := Ideal) a0 a1 (ix4 b h n d) = qs (X a0) (W a1) b h n d := by
  rw [val_main_v19_apply, val_main_v18_apply, val_main_v17_apply, idx_qsum_bcast, qsum_at, qexp_at]
  rfl

/-! ## The keys, soft-maxed over the positions -/

/-- Key feature `d` of head `h` in batch `b` along the positions: the family the key soft-max runs over. -/
abbrev kcol (b : Fin 4) (h : Fin 16) (d : Fin 64) : Fin 4096 → EReal := fun n' => lin (X a0) (W a1) 1 b n' (hd h d)

/-- The column maximum, broadcast back along the positions: (b, h, n, d) reads (b, h, d). -/
theorem idx_kmax_bcast (b : Fin 4) (h : Fin 16) (n : Fin 4096) (d : Fin 64) :
    idx_main_v23 (idx_main_v24 (ix4 b h n d)) = ix3 b h d := by
  funext a; match a with | ⟨0, _⟩ => rfl | ⟨1, _⟩ => rfl | ⟨2, _⟩ => rfl
theorem idx_ksum_bcast (b : Fin 4) (h : Fin 16) (n : Fin 4096) (d : Fin 64) :
    idx_main_v28 (idx_main_v29 (ix4 b h n d)) = ix3 b h d := by
  funext a; match a with | ⟨0, _⟩ => rfl | ⟨1, _⟩ => rfl | ⟨2, _⟩ => rfl
/-- The sum over the positions at (b, h, d) runs over the entries (b, h, ·, d). -/
theorem idx_ksum (b : Fin 4) (h : Fin 16) (d : Fin 64) (k : Fin 4096) : idx_main_v27 (ix3 b h d) k = ix4 b h k d := by
  funext a; match a with | ⟨0, _⟩ => rfl | ⟨1, _⟩ => rfl | ⟨2, _⟩ => rfl | ⟨3, _⟩ => rfl

/-- The maximum the soft-max subtracts: max(−∞, the largest key entry of the column) is that largest entry. -/
theorem kmax_at (b : Fin 4) (h : Fin 16) (d : Fin 64) :
    val_main_v22 (F := Ideal) a0 a1 (ix3 b h d) = fmax (kcol a0 a1 b h d) := by
  rw [val_main_v22_apply, val_main_v21_apply, val_main_cst_3_apply, Ideal.ofBits_def, ofBits_negInf, Ideal.maximumf_def,
    max_bot_left]
  unfold val_main_v20
  rw [max_over_pos]
  simp only [k_at]

/-- The exponentials: e^(key entry − column maximum). -/
theorem kexp_at (b : Fin 4) (h : Fin 16) (n : Fin 4096) (d : Fin 64) :
    val_main_v26 (F := Ideal) a0 a1 (ix4 b h n d) = Ideal.exp (kcol a0 a1 b h d n - fmax (kcol a0 a1 b h d)) := by
  rw [val_main_v26_apply, val_main_v25_apply, val_main_v24_apply, val_main_v23_apply, idx_kmax_bcast, kmax_at, k_at]
  rfl

/-- Their sum over the positions, from 0. -/
theorem ksum_at (b : Fin 4) (h : Fin 16) (d : Fin 64) :
    val_main_v27 (F := Ideal) a0 a1 (ix3 b h d)
      = ∑ n' : Fin 4096, Ideal.exp (kcol a0 a1 b h d n' - fmax (kcol a0 a1 b h d)) := by
  rw [val_main_v27_apply, val_main_cst_4_apply, Ideal.ofBits_def, Ideal.ofBits_zero_f32, zero_add]
  exact Finset.sum_congr rfl fun k _ => by rw [idx_ksum, kexp_at]

/-- The soft-maxed keys are the specification's `ks`. -/
theorem ks_at (b : Fin 4) (h : Fin 16) (n : Fin 4096) (d : Fin 64) :
    val_main_v30 (F := Ideal) a0 a1 (ix4 b h n d) = ks (X a0) (W a1) b h n d := by
  rw [val_main_v30_apply, val_main_v29_apply, val_main_v28_apply, idx_ksum_bcast, ksum_at, kexp_at]
  rfl

/-! ## Context, attention rows, and the result -/

/-- Entry (d, e) of head (b, h)'s context contracts position `k` of the soft-maxed keys' feature `d` with position `k`
    of the values' feature `e`. -/
theorem lidx_ctx (b : Fin 4) (h : Fin 16) (d e : Fin 64) (k : Fin 4096) : lidx_main_v31 (ix4 b h d e) k = ix4 b h k d := by
  funext a; match a with | ⟨0, _⟩ => rfl | ⟨1, _⟩ => rfl | ⟨2, _⟩ => rfl | ⟨3, _⟩ => rfl
theorem ridx_ctx (b : Fin 4) (h : Fin 16) (d e : Fin 64) (k : Fin 4096) : ridx_main_v31 (ix4 b h d e) k = ix4 b h k e := by
  funext a; match a with | ⟨0, _⟩ => rfl | ⟨1, _⟩ => rfl | ⟨2, _⟩ => rfl | ⟨3, _⟩ => rfl

/-- The context matrix of a head is the specification's `ctx`. -/
theorem ctx_at (b : Fin 4) (h : Fin 16) (d e : Fin 64) :
    val_main_v31 (F := Ideal) a0 a1 (ix4 b h d e) = ctx (X a0) (W a1) b h d e := by
  rw [val_main_v31_apply]
  exact Finset.sum_congr rfl fun k _ => by rw [lidx_ctx, ridx_ctx, ks_at, v_at]

/-- Entry (n, e) of head (b, h)'s attention contracts feature `k` of the soft-maxed query at `n` with row `k` of the context. -/
theorem lidx_attn (b : Fin 4) (h : Fin 16) (n : Fin 4096) (e k : Fin 64) : lidx_main_v32 (ix4 b h n e) k = ix4 b h n k := by
  funext a; match a with | ⟨0, _⟩ => rfl | ⟨1, _⟩ => rfl | ⟨2, _⟩ => rfl | ⟨3, _⟩ => rfl
theorem ridx_attn (b : Fin 4) (h : Fin 16) (n : Fin 4096) (e k : Fin 64) : ridx_main_v32 (ix4 b h n e) k = ix4 b h k e := by
  funext a; match a with | ⟨0, _⟩ => rfl | ⟨1, _⟩ => rfl | ⟨2, _⟩ => rfl | ⟨3, _⟩ => rfl

/-- The attention rows are the specification's `attn`. -/
theorem attn_at (b : Fin 4) (h : Fin 16) (n : Fin 4096) (e : Fin 64) :
    val_main_v32 (F := Ideal) a0 a1 (ix4 b h n e) = attn (X a0) (W a1) b n h e := by
  rw [val_main_v32_apply]
  exact Finset.sum_congr rfl fun k _ => by rw [lidx_attn, ridx_attn, qs_at, ctx_at]

/-- Laying the heads side by side: channel `j` of (b, n) is feature j mod 64 of head j / 64. The flat position of
    (b, n, j) is ((b·4096 + n)·1024 + j), and the four-axis array it is read from has 16·64 = 1024 entries per (b, n). -/
theorem idx_heads (b : Fin 4) (n : Fin 4096) (j : Fin 1024) :
    idx_main_v33 (idx_main_v34 (ix3 b n j)) = ix4 b (headOf j) n (featOf j) := by
  have := b.isLt; have := n.isLt; have := j.isLt
  funext a; apply Fin.ext
  match a with
  | ⟨0, _⟩ => show ((b.val * 4096 + n.val) * 1024 + j.val) / 4194304 = b.val; omega
  | ⟨1, _⟩ => show ((b.val * 4096 + n.val) * 1024 + j.val) / 64 % 16 = j.val / 64; omega
  | ⟨2, _⟩ => show ((b.val * 4096 + n.val) * 1024 + j.val) / 1024 % 4096 = n.val; omega
  | ⟨3, _⟩ => show ((b.val * 4096 + n.val) * 1024 + j.val) % 64 = j.val % 64; omega

/-- The attention rows with the heads side by side. -/
theorem heads_at (b : Fin 4) (n : Fin 4096) (j : Fin 1024) :
    val_main_v34 (F := Ideal) a0 a1 (ix3 b n j) = attn (X a0) (W a1) b n (headOf j) (featOf j) := by
  rw [val_main_v34_apply, val_main_v33_apply, idx_heads, attn_at]

variable (a2 : (⟨S1024x1024, .f32⟩ : BufTy).Contents (Elt Ideal)) (a3 : (⟨S1024, .f32⟩ : BufTy).Contents (Elt Ideal))

/-- Entry (b, n, o) of the output projection contracts channel `k` of the attention row (b, n) with channel `k` of
    output weight row `o`. -/
theorem lidx_out (b : Fin 4) (n : Fin 4096) (o k : Fin 1024) : lidx_main_v35 (ix3 b n o) k = ix3 b n k := by
  funext a; match a with | ⟨0, _⟩ => rfl | ⟨1, _⟩ => rfl | ⟨2, _⟩ => rfl
theorem ridx_out (b : Fin 4) (n : Fin 4096) (o k : Fin 1024) : ridx_main_v35 (ix3 b n o) k = ix2 o k := by
  funext a; match a with | ⟨0, _⟩ => rfl | ⟨1, _⟩ => rfl
/-- The bias, broadcast over batches and positions: (b, n, o) reads entry `o`. -/
theorem idx_bias (b : Fin 4) (n : Fin 4096) (o : Fin 1024) : idx_main_v36 (idx_main_v37 (ix3 b n o)) = ix1 o := by
  funext a; match a with | ⟨0, _⟩ => rfl

/-- The result at (b, n, o) is the specification's `out`. -/
theorem ref_out_at (b : Fin 4) (n : Fin 4096) (o : Fin 1024) :
    val_main_v38 (F := Ideal) a0 a1 a2 a3 (ix3 b n o)
      = out (X a0) (W a1) (fun o j => a2 (ix2 o j)) (fun o => a3 (ix1 o)) b n o := by
  rw [val_main_v38_apply, val_main_v37_apply, val_main_v36_apply, idx_bias, val_main_v35_apply, Ideal.addf_def]
  exact congrArg (· + a3 (ix1 o)) (Finset.sum_congr rfl fun k _ => by rw [lidx_out, ridx_out, heads_at])

/-- The reference program's result is `out` of its four argument arrays, at every index. -/
theorem ref_out (a0 : (⟨S4x4096x1024, .f32⟩ : BufTy).Contents (Elt Ideal)) (a1 : (⟨S3072x1024, .f32⟩ : BufTy).Contents (Elt Ideal))
    (a2 : (⟨S1024x1024, .f32⟩ : BufTy).Contents (Elt Ideal)) (a3 : (⟨S1024, .f32⟩ : BufTy).Contents (Elt Ideal)) (i : S4x4096x1024.Idx) :
    Cert.ReferenceIdeal.Read.val_main_v38 (F := Ideal) a0 a1 a2 a3 i
      = Cert.AttnSpec.out (fun b n c => a0 (ix3 b n c)) (fun o c => a1 (ix2 o c)) (fun o j => a2 (ix2 o j)) (fun o => a3 (ix1 o)) (i 0) (i 1) (i 2) :=
  (congrArg (val_main_v38 (F := Ideal) a0 a1 a2 a3) (eq_ix3 i)).trans (ref_out_at a0 a1 a2 a3 (i 0) (i 1) (i 2))

end Cert.RefValue

end
-- ==== Proof.HostReads.lean ====
/-
  What the host operations before the first grid leave in the arrays the grids read.

  The stacked weight `wqkv` (3072 rows of 1024 channels) is transposed to 1024 × 3072 and its three column blocks
  [0:1024], [1024:2048], [2048:3072] are cut out: entry (c, j) of block `s` is entry (c, 1024·s + j) of the transpose,
  that is entry (1024·s + j, c) of `wqkv`. The output weight is transposed: entry (j, o) is entry (o, j). The bias is
  reshaped from 1024 to 1 × 1024: entry (0, o) is entry o. A change of float format is the identity over the extended
  reals, and no host operation writes an argument, so the input array is what the launch memory holds.
-/
import proofs.«161321_j2207613190677_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostReads

open Cert.KernelIdeal Cert.KernelIdeal.Gen Idealize.ShloMosaic Idealize.ShloMosaic.ValueIdx Idealize.ShloMosaic.TcCoe Idealize.SL.Sem

/-! ## The operations read at an index, over plain arrays -/

/-- A column block of the transposed stacked weight. With `X` of 3072 rows and 1024 columns, the block of 1024 columns
    starting at column `o` of `Xᵀ`, read at (c, j), is `Xᵀ` at (c, o + j), which is `X` at (o + j, c); the change of
    format after it leaves the entry as it is. -/
theorem block_read (X : S3072x1024.Idx → EReal) (o : ℕ)
    (ht : S3072x1024.Transposes [1, 0] S1024x3072) (hs : S1024x3072.Slices ![0, o] S1024x1024) (hb : FTy.bf16.bits < FTy.f32.bits)
    (cc j : Fin 1024) (k : Fin 3072) (hk : k.val = o + j.val) :
    (truncf (F := Ideal) .bf16 (extractStridedSlice S1024x1024 ![0, o] (transpose S1024x3072 [1, 0] X ht) hs) hb
        : S1024x1024.Idx → EReal) (ix2 cc j) = X (ix2 k cc) := by
  rw [truncf_apply, slice2_axis1_apply o _ hs cc j k hk, transpose_ix2_apply X ht cc k]

/-- The transposed output weight: entry (j, o) of `Yᵀ` is entry (o, j) of `Y`, whatever the float format. -/
theorem transposed_read (Y : S1024x1024.Idx → EReal) (ht : S1024x1024.Transposes [1, 0] S1024x1024)
    (hb : FTy.bf16.bits < FTy.f32.bits) (j o : Fin 1024) :
    (truncf (F := Ideal) .bf16 (transpose S1024x1024 [1, 0] Y ht) hb : S1024x1024.Idx → EReal) (ix2 j o) = Y (ix2 o j) := by
  rw [truncf_apply, transpose_ix2_apply Y ht j o]

/-! ## The five arrays after the host operations -/

variable (m : (ℓ : Loc nD τ sig) → Buf (Elt Ideal) ℓ) (c : Dev nD)

/-- The query weight as the operations' composed term: transpose, columns [0:1024], format change. -/
theorem wq_term : (V1 m c main_v2 : S1024x1024.Idx → EReal)
    = truncf (F := Ideal) .bf16 (extractStridedSlice S1024x1024 ![0, 0]
        (transpose S1024x3072 [1, 0] (m ((c.tc : Thread nD τ).loc main_arg1)) transposes_S3072x1024_S1024x3072_1_0)
        slices_S1024x3072_S1024x1024_0_0) bitsLt_bf16_f32 := by
  show StableHlo.after hostOps0 (fun b => m (c, b)) (Proc.devRef .tc main_v2) = _
  after_results

/-- The key weight: transpose, columns [1024:2048], format change. -/
theorem wk_term : (V1 m c main_v4 : S1024x1024.Idx → EReal)
    = truncf (F := Ideal) .bf16 (extractStridedSlice S1024x1024 ![0, 1024]
        (transpose S1024x3072 [1, 0] (m ((c.tc : Thread nD τ).loc main_arg1)) transposes_S3072x1024_S1024x3072_1_0)
        slices_S1024x3072_S1024x1024_0_1024) bitsLt_bf16_f32 := by
  show StableHlo.after hostOps0 (fun b => m (c, b)) (Proc.devRef .tc main_v4) = _
  after_results

/-- The value weight: transpose, columns [2048:3072], format change. -/
theorem wv_term : (V1 m c main_v6 : S1024x1024.Idx → EReal)
    = truncf (F := Ideal) .bf16 (extractStridedSlice S1024x1024 ![0, 2048]
        (transpose S1024x3072 [1, 0] (m ((c.tc : Thread nD τ).loc main_arg1)) transposes_S3072x1024_S1024x3072_1_0)
        slices_S1024x3072_S1024x1024_0_2048) bitsLt_bf16_f32 := by
  show StableHlo.after hostOps0 (fun b => m (c, b)) (Proc.devRef .tc main_v6) = _
  after_results

/-- The output weight: transpose, format change. -/
theorem wp_term : (V1 m c main_v8 : S1024x1024.Idx → EReal)
    = truncf (F := Ideal) .bf16
        (transpose S1024x1024 [1, 0] (m ((c.tc : Thread nD τ).loc main_arg2)) transposes_S1024x1024_S1024x1024_1_0)
        bitsLt_bf16_f32 := by
  show StableHlo.after hostOps0 (fun b => m (c, b)) (Proc.devRef .tc main_v8) = _
  after_results

/-- The bias: the same 1024 entries in row-major order under the shape 1 × 1024. -/
theorem bias_term : (V1 m c main_v9 : S1x1024.Idx → EReal)
    = shapeCast S1x1024 (m ((c.tc : Thread nD τ).loc main_arg3)) shapeCasts_S1024_S1x1024 := by
  show StableHlo.after hostOps0 (fun b => m (c, b)) (Proc.devRef .tc main_v9) = _
  after_results
  -- what is left is a cast along an equality of element types that holds by reflexivity
  rfl

/-- Query weight at (channel c, output j): row `j` of the stacked weight. -/
theorem wq_read (cc j : Fin 1024) :
    (V1 m c main_v2 : S1024x1024.Idx → EReal) (ix2 cc j)
      = m ((c.tc : Thread nD τ).loc main_arg1) (ix2 (⟨j.val, by omega⟩ : Fin 3072) cc) := by
  rw [wq_term]
  exact block_read _ 0 _ _ _ cc j _ (Nat.zero_add _).symm

/-- Key weight at (channel c, output j): row `1024 + j` of the stacked weight. -/
theorem wk_read (cc j : Fin 1024) :
    (V1 m c main_v4 : S1024x1024.Idx → EReal) (ix2 cc j)
      = m ((c.tc : Thread nD τ).loc main_arg1) (ix2 (⟨1024 + j.val, by omega⟩ : Fin 3072) cc) := by
  rw [wk_term]
  exact block_read _ 1024 _ _ _ cc j _ rfl

/-- Value weight at (channel c, output j): row `2048 + j` of the stacked weight. -/
theorem wv_read (cc j : Fin 1024) :
    (V1 m c main_v6 : S1024x1024.Idx → EReal) (ix2 cc j)
      = m ((c.tc : Thread nD τ).loc main_arg1) (ix2 (⟨2048 + j.val, by omega⟩ : Fin 3072) cc) := by
  rw [wv_term]
  exact block_read _ 2048 _ _ _ cc j _ rfl

/-- Output weight at (j, o): entry (o, j) of the argument. -/
theorem wp_read (j o : Fin 1024) :
    (V1 m c main_v8 : S1024x1024.Idx → EReal) (ix2 j o) = m ((c.tc : Thread nD τ).loc main_arg2) (ix2 o j) := by
  rw [wp_term]
  exact transposed_read _ _ _ j o

/-- Bias at (0, o): entry `o` of the argument. -/
theorem bias_read (o : Fin 1024) :
    (V1 m c main_v9 : S1x1024.Idx → EReal) (ix2 (0 : Fin 1) o) = m ((c.tc : Thread nD τ).loc main_arg3) (ix1 o) := by
  rw [bias_term]
  exact shapeCast_a_1a_apply _ _ 0 o

/-- The input array: no host operation writes an argument, so it is what the launch memory holds. -/
theorem x_read : V1 m c main_arg0 = m ((c.tc : Thread nD τ).loc main_arg0) :=
  (V1_of m c main_arg0 (by decide)).trans rfl

end Cert.KernelIdeal.HostReads

end
-- ==== Proof.FiniteArgs.lean ====
/-
  Under the precondition every entry of the four float arguments is a real number.

  The precondition is the conjunction, over the four arguments, of "every entry satisfies |x| < +∞": the absolute
  value is max x (-x), the bound is the bit pattern 0x7F800000 of +∞, the comparisons of one argument are
  folded by "and" from 1 over all its axes, and the four results are joined by "and". That the whole is 1 gives each
  conjunct 1, hence each comparison 1 at every index. Over the extended reals |x| < ⊤ excludes x = ⊤ (|⊤| = ⊤) and
  x = ⊥ (|⊥| = max ⊥ ⊤ = ⊤), so x is a real. A finite sum of products of reals is then a real as well.
-/
import proofs.«161321_j2207613190677_2_alg».proof.Defs
import proofs.«161321_j2207613190677_2_alg».proof.Proof.Gen.Pre_finite_inputs
import proofs.«161321_j2207613190677_2_alg».proof.Proof.LibOnlineSoftmax
import Idealize.ShloMosaic.Lib.ReduceAll
import Idealize.ShloMosaic.Lib.ValueIdx

noncomputable section

namespace Cert.FiniteArgs

open Idealize.ShloMosaic Idealize.SL.Sem Idealize.ShloMosaic.ValueIdx Cert.Pre_finite_inputs

/-- The rank-0 shape has one index: a function out of the empty set of axes. -/
instance : Subsingleton S_.Idx := ⟨fun a b => funext fun d => d.elim0⟩

/-- ONE ENTRY. The pattern 0x7F800000 denotes ⊤, and `max x (-x) < ⊤` fails at both infinities:
    at `x = ⊥` the maximum is `-⊥ = ⊤`, at `x = ⊤` it is `⊤` itself. What is left is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- ONE ENTRY OF AN ARRAY. The array of comparisons `|a| < +∞` (the bound a scalar broadcast to the array's shape)
    read at index `i` is the comparison of `max (a i) (-(a i))` with ⊤: every operation acts entry by entry and the
    broadcast scalar is the same at every index. -/
theorem entry_real {s : Shape} (a : FVec Ideal s .f32) (bc : S_.BroadcastsInDim s (![] : Fin 0 → Fin s.rank)) (i : s.Idx)
    (h : cmpf .olt (Host.absf a) (broadcastInDim s ![] bc (constant S_ .f32 0x7F800000#32)) i = 1#1) :
    ∃ r : ℝ, a i = (r : EReal) :=
  real_of_abs_lt_top (a i) h

/-- ALL FOUR ARGUMENTS. The precondition at the one index of its rank-0 result is
    `((all₀ ∧ all₁) ∧ all₂) ∧ all₃ = 1`; an "and" of one-bit words is 1 exactly when both are, which splits off the
    four `all`s; an "and"-fold over all axes that is 1 met a 1 at every index; and a 1 there says the entry is a real. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  -- the precondition's one bit, with the chain of operations in view
  have hbit := congrFun (h c) ix0
  dsimp only [Cert.Pre_finite_inputs.fn, Cert.Pre_finite_inputs.fn_part1] at hbit
  -- ((all₀ ∧ all₁) ∧ all₂) ∧ all₃ = 1 gives each of the four
  obtain ⟨h012, h3⟩ := IntOp.andi_eq_one.1 hbit
  obtain ⟨h01, h2⟩ := IntOp.andi_eq_one.1 h012
  obtain ⟨h0, h1⟩ := IntOp.andi_eq_one.1 h01
  -- each `all` is 1, so each comparison is 1, so each entry is a real
  exact ⟨fun i => entry_real (s := S4x4096x1024) _ _ i (Host.reduce_andi_all _ _ _ _ _ h0 i),
    fun i => entry_real (s := S3072x1024) _ _ i (Host.reduce_andi_all _ _ _ _ _ h1 i),
    fun i => entry_real (s := S1024x1024) _ _ i (Host.reduce_andi_all _ _ _ _ _ h2 i),
    fun i => entry_real (s := S1024) _ _ i (Host.reduce_andi_all _ _ _ _ _ h3 i)⟩

/-- A finite sum of products of reals is a real: with `f i = a i` and `g i = b i`, `Σ f i · g i` is the
    extended real of `Σ a i · b i`, because the embedding of the reals commutes with products and with finite sums. -/
theorem lin_real {ι : Type*} [Fintype ι] (f g : ι → EReal) (hf : ∀ i, ∃ r : ℝ, f i = r) (hg : ∀ i, ∃ r : ℝ, g i = r) :
    ∃ r : ℝ, (∑ i, f i * g i) = (r : EReal) := by
  choose a ha using hf
  choose b hb using hg
  refine ⟨∑ i, a i * b i, ?_⟩
  rw [Cert.Lib.OnlineSoftmax.coe_sum]
  exact Finset.sum_congr rfl fun i _ => by rw [ha, hb, EReal.coe_mul]

end Cert.FiniteArgs

end
-- ==== Proof.Bridge.lean ====
/-
  The kernel-side reading of the computation and the reference-side one agree, over abstract arrays.

  The kernel sees the stacked projection weights as three separate transposed blocks (queries, keys, values), the
  output weights transposed, and the bias as a one-row matrix; it builds each head's context by running through the
  4096 positions in eight tiles, and then applies the soft-maxed queries. Here: the tiled context is the
  specification's `ctx` (for real inputs), and the kernel-side result built on such a context is the specification's `out`.
-/
import proofs.«161321_j2207613190677_2_alg».proof.Proof.AttnSpec
import proofs.«161321_j2207613190677_2_alg».proof.Proof.KerSpec
import proofs.«161321_j2207613190677_2_alg».proof.Proof.CtxTiles
import proofs.«161321_j2207613190677_2_alg».proof.Proof.FiniteArgs
import Idealize.ShloMosaic.Lib.ValueIdx

noncomputable section

namespace Cert.Bridge

open Idealize.ShloMosaic Idealize.ShloMosaic.ValueIdx Cert.AttnSpec

variable (xa : (⟨3, ![4, 4096, 1024]⟩ : Shape).Idx → EReal) (wa : (⟨2, ![3072, 1024]⟩ : Shape).Idx → EReal)
  (pa : (⟨2, ![1024, 1024]⟩ : Shape).Idx → EReal) (ba : (⟨1, ![1024]⟩ : Shape).Idx → EReal)

/-! ## A transposed block of the stacked weights -/

/-- If `w` is part `s` of the stacked weights, transposed (entry (c, j) of `w` is entry (1024·s + j, c) of the stack),
    then the input row (b, n) against column `j` of `w` is part `s` of the projection at (b, n), channel `j`. -/
theorem part_row (s : Fin 3) (w : (⟨2, ![1024, 1024]⟩ : Shape).Idx → EReal)
    (hw' : ∀ cc j : Fin 1024, w (ix2 cc j) = wa (ix2 (col s j) cc)) (b : Fin 4) (n : Fin 4096) (j : Fin 1024) :
    ∑ cc : Fin 1024, xa (ix3 b n cc) * w (ix2 cc j)
      = lin (fun b n c => xa (ix3 b n c)) (fun o c => wa (ix2 o c)) s b n j := by
  unfold lin
  exact Finset.sum_congr rfl fun cc _ => by rw [hw']

/-- Rows 1024 + j, 2048 + j and j of the stack are rows `j` of parts 1, 2 and 0. -/
theorem col_one (j : Fin 1024) : (⟨1024 + j.val, by omega⟩ : Fin 3072) = col 1 j :=
  Fin.ext (by show 1024 + j.val = 1024 * 1 + j.val; omega)
theorem col_two (j : Fin 1024) : (⟨2048 + j.val, by omega⟩ : Fin 3072) = col 2 j :=
  Fin.ext (by show 2048 + j.val = 1024 * 2 + j.val; omega)
theorem col_zero (j : Fin 1024) : (⟨j.val, by omega⟩ : Fin 3072) = col 0 j :=
  Fin.ext (by show j.val = 1024 * 0 + j.val; omega)

/-! ## The context: eight tiles against the whole sequence -/

/-- Column `j` of the input of batch element `b` times `w`, along the positions, as a sequence on the naturals
    (zero past the last position). -/
def seqOf (w : (⟨2, ![1024, 1024]⟩ : Shape).Idx → EReal) (b : Fin 4) (j : Fin 1024) : ℕ → EReal :=
  fun k => if hk : k < 4096 then ∑ cc : Fin 1024, xa (ix3 b ⟨k, hk⟩ cc) * w (ix2 cc j) else 0

/-- At a position it is the row against the column. -/
theorem seqOf_at (w : (⟨2, ![1024, 1024]⟩ : Shape).Idx → EReal) (b : Fin 4) (j : Fin 1024) (n : Fin 4096) :
    seqOf xa w b j n.val = ∑ cc : Fin 1024, xa (ix3 b n cc) * w (ix2 cc j) := by
  unfold seqOf
  rw [dif_pos n.isLt]

/-- With real inputs and real weights every term of the sequence is a real: a finite sum of products of reals, or 0. -/
theorem seqOf_real (w : (⟨2, ![1024, 1024]⟩ : Shape).Idx → EReal) (hx : ∀ i, ∃ r : ℝ, xa i = (r : EReal))
    (hw' : ∀ i, ∃ r : ℝ, w i = (r : EReal)) (b : Fin 4) (j : Fin 1024) (k : ℕ) : ∃ r : ℝ, seqOf xa w b j k = (r : EReal) := by
  unfold seqOf
  by_cases hk : k < 4096
  · rw [dif_pos hk]
    exact Cert.FiniteArgs.lin_real _ _ (fun cc => hx _) (fun cc => hw' _)
  · rw [dif_neg hk]
    exact ⟨0, EReal.coe_zero.symm⟩

/-- The running quotient after the eighth tile, for key feature `d` and value feature `e` of head `h`, is the
    specification's context entry: the tiled recurrence gives the soft-max over all 4096 positions contracted with the
    values, and the key and value sequences are parts 1 and 2 of the projection. -/
theorem ctx_bridge (wk wv : (⟨2, ![1024, 1024]⟩ : Shape).Idx → EReal)
    (hwk : ∀ cc j : Fin 1024, wk (ix2 cc j) = wa (ix2 (⟨1024 + j.val, by omega⟩ : Fin 3072) cc))
    (hwv : ∀ cc j : Fin 1024, wv (ix2 cc j) = wa (ix2 (⟨2048 + j.val, by omega⟩ : Fin 3072) cc))
    (hx : ∀ i, ∃ r : ℝ, xa i = (r : EReal)) (hw : ∀ i, ∃ r : ℝ, wa i = (r : EReal))
    (b : Fin 4) (h : Fin 16) (e d : Fin 64) :
    Ideal.div
        (Cert.CtxTiles.st (fun k => if hk : k < 4096 then ∑ cc : Fin 1024, xa (ix3 b ⟨k, hk⟩ cc) * wk (ix2 cc (hd h d)) else 0)
          (fun k => if hk : k < 4096 then ∑ cc : Fin 1024, xa (ix3 b ⟨k, hk⟩ cc) * wv (ix2 cc (hd h e)) else 0) 7).2.2
        (Cert.CtxTiles.st (fun k => if hk : k < 4096 then ∑ cc : Fin 1024, xa (ix3 b ⟨k, hk⟩ cc) * wk (ix2 cc (hd h d)) else 0)
          (fun k => if hk : k < 4096 then ∑ cc : Fin 1024, xa (ix3 b ⟨k, hk⟩ cc) * wv (ix2 cc (hd h e)) else 0) 7).2.1
      = Cert.AttnSpec.ctx (fun b n c => xa (ix3 b n c)) (fun o c => wa (ix2 o c)) b h d e := by
  -- the transposed key and value blocks are parts 1 and 2 of the stack, and their entries are reals
  have hk1 : ∀ cc j : Fin 1024, wk (ix2 cc j) = wa (ix2 (col 1 j) cc) := fun cc j => by rw [hwk, col_one]
  have hv2 : ∀ cc j : Fin 1024, wv (ix2 cc j) = wa (ix2 (col 2 j) cc) := fun cc j => by rw [hwv, col_two]
  have hkr : ∀ i, ∃ r : ℝ, wk i = (r : EReal) := fun i => by
    obtain ⟨p, q, rfl⟩ : ∃ p q : Fin 1024, i = ix2 p q := ⟨i 0, i 1, eq_ix2 i⟩
    rw [hwk]; exact hw _
  have hvr : ∀ i, ∃ r : ℝ, wv i = (r : EReal) := fun i => by
    obtain ⟨p, q, rfl⟩ : ∃ p q : Fin 1024, i = ix2 p q := ⟨i 0, i 1, eq_ix2 i⟩
    rw [hwv]; exact hw _
  -- eight tiles of real keys and values: the quotient is the soft-max over the sequence against the values
  show Ideal.div (Cert.CtxTiles.st (seqOf xa wk b (hd h d)) (seqOf xa wv b (hd h e)) 7).2.2
      (Cert.CtxTiles.st (seqOf xa wk b (hd h d)) (seqOf xa wv b (hd h e)) 7).2.1 = _
  rw [Cert.CtxTiles.quotient_eq _ _ (seqOf_real xa wk hx hkr b (hd h d)) (seqOf_real xa wv hx hvr b (hd h e))]
  -- position by position these are the specification's soft-maxed keys and values
  unfold ctx ks
  have hkeys : (fun n' : Fin 4096 => seqOf xa wk b (hd h d) n'.val)
      = fun n' : Fin 4096 => lin (fun b n c => xa (ix3 b n c)) (fun o c => wa (ix2 o c)) 1 b n' (hd h d) :=
    funext fun n' => by rw [seqOf_at, part_row xa wa 1 wk hk1]
  rw [hkeys]
  exact Finset.sum_congr rfl fun n _ => by rw [seqOf_at, part_row xa wa 2 wv hv2]

/-! ## The result -/

/-- Given a context array that holds the specification's context (value feature first), the kernel-side result is the
    specification's: the query weights are part 0 of the stack transposed, the output weights are read transposed,
    and the bias row is the bias. -/
theorem out_bridge (wq wp : (⟨2, ![1024, 1024]⟩ : Shape).Idx → EReal) (bias2 : (⟨2, ![1, 1024]⟩ : Shape).Idx → EReal)
    (ctxA : (⟨4, ![4, 16, 64, 64]⟩ : Shape).Idx → EReal)
    (hwq : ∀ cc j : Fin 1024, wq (ix2 cc j) = wa (ix2 (⟨j.val, by omega⟩ : Fin 3072) cc))
    (hwp : ∀ j o : Fin 1024, wp (ix2 j o) = pa (ix2 o j))
    (hb : ∀ o : Fin 1024, bias2 (ix2 (0 : Fin 1) o) = ba (ix1 o))
    (hctx : ∀ (b : Fin 4) (h : Fin 16) (e d : Fin 64), ctxA (ix4 b h e d)
      = Cert.AttnSpec.ctx (fun b n c => xa (ix3 b n c)) (fun o c => wa (ix2 o c)) b h d e)
    (b : Fin 4) (n : Fin 4096) (o : Fin 1024) :
    Cert.KerSpec.outK xa wq ctxA wp bias2 b n o
      = Cert.AttnSpec.out (fun b n c => xa (ix3 b n c)) (fun o c => wa (ix2 o c)) (fun o j => pa (ix2 o j)) (fun o => ba (ix1 o)) b n o := by
  have hq0 : ∀ cc j : Fin 1024, wq (ix2 cc j) = wa (ix2 (col 0 j) cc) := fun cc j => by rw [hwq, col_zero]
  -- the kernel-side queries are part 0 of the projection
  have hQ : ∀ j : Fin 1024, Cert.KerSpec.Qk xa wq b n j = lin (fun b n c => xa (ix3 b n c)) (fun o c => wa (ix2 o c)) 0 b n j :=
    fun j => part_row xa wa 0 wq hq0 b n j
  unfold Cert.KerSpec.outK out
  rw [hb]
  refine congrArg (· + ba (ix1 o)) (Finset.sum_congr rfl fun j _ => ?_)
  rw [hwp]
  refine congrArg (· * pa (ix2 o j)) ?_
  -- channel j: the head's soft-maxed queries against the context row of value feature j mod 64
  unfold Cert.KerSpec.attnK attn qs
  simp only [hQ]
  exact Finset.sum_congr rfl fun d _ => by rw [hctx]

end Cert.Bridge

end
-- ==== Proof.Algebraic.lean ====
/-
  The two idealized programs return the same array on finite inputs.

  The kernel's result is what its second grid leaves: at (b, n, o), the attention rows of position n — per head, the
  soft-maxed query against the head's context block — times the projection weights, plus the bias, over the arrays the
  grid finds. Those arrays are the host stretch's re-laid weights and the first grid's context array, which holds,
  per head, the quotient of the running accumulator by the running sum after eight tiles; for real inputs that quotient
  is the keys' softmax over the whole sequence contracted with the values — the reference's context. The reference's
  result is the same formula read off its forty-five host operations.
-/
import proofs.«161321_j2207613190677_2_alg».proof.Defs
import proofs.«161321_j2207613190677_2_alg».proof.Proof.IdealValueRun
import proofs.«161321_j2207613190677_2_alg».proof.Proof.IdealValue0e
import proofs.«161321_j2207613190677_2_alg».proof.Proof.IdealValue1b
import proofs.«161321_j2207613190677_2_alg».proof.Proof.RefValue
import proofs.«161321_j2207613190677_2_alg».proof.Proof.HostReads
import proofs.«161321_j2207613190677_2_alg».proof.Proof.FiniteArgs
import proofs.«161321_j2207613190677_2_alg».proof.Proof.Bridge
import proofs.«161321_j2207613190677_2_alg».proof.Proof.Gen.ReferenceIdeal
import proofs.«161321_j2207613190677_2_alg».proof.Proof.Gen.Pre_finite_inputs

noncomputable section

namespace Cert.Alg

open Idealize.ShloMosaic Idealize.ShloMosaic.ValueIdx Idealize.ShloMosaic.TcCoe Idealize.SL.Sem
open Cert.KernelIdeal Cert.KernelIdeal.Gen Cert.AttnSpec

variable (m : (ℓ : Loc nD τ sig) → Buf (Elt Ideal) ℓ) (c : Dev nD)

/-- The second grid finds the host stretch's arrays unchanged by the first grid, except the context array. -/
theorem Ve2_of (r : Ref sig .tc) (h : r ∉ ([main_v10] : List (Ref sig .tc))) : Ve2 m c r = V1 m c r :=
  V2_of m (outsA m) c r h

/-- The context array the second grid finds is what the first grid's write-backs leave. -/
theorem Ve2_ctx : (Ve2 m c main_v10 : S4x16x64x64.Idx → EReal) = ctxG (Ve1 m) c := by
  have h : Ve2 m c main_v10 = Wa m c (Proc.devRef .tc main_v10) := by
    simp only [Ve2, U2, V2, outsA, Function.update_self]
  rw [h]
  exact (Wa_arr m c 3).trans (ctx_final (Ve1 m) c)

/-- THE KERNEL'S RESULT, entry by entry, is the attention formula of the four arguments. -/
theorem kernel_value (hpre : Cert.Pre_KernelIdeal (hPre_finite_inputs := Cert.Pre_finite_inputs.Gen.facts) m) (i : S4x4096x1024.Idx) :
    (dat1 (F := Ideal) (Ve2 m) c).arrAt 5 cfg1.N i
      = Cert.AttnSpec.out (fun b n cc => m ((c.tc : Thread nD τ).loc main_arg0) (ix3 b n cc))
          (fun o cc => m ((c.tc : Thread nD τ).loc main_arg1) (ix2 o cc))
          (fun o j => m ((c.tc : Thread nD τ).loc main_arg2) (ix2 o j))
          (fun o => m ((c.tc : Thread nD τ).loc main_arg3) (ix1 o)) (i 0) (i 1) (i 2) := by
  obtain ⟨hx, hw, -, -⟩ := Cert.FiniteArgs.args_real m hpre c
  have hX : (Ve2 m c main_arg0 : S4x4096x1024.Idx → EReal) = m ((c.tc : Thread nD τ).loc main_arg0) :=
    (Ve2_of m c main_arg0 (by decide)).trans (Cert.KernelIdeal.HostReads.x_read m c)
  have hX1 : (Ve1 m c main_arg0 : S4x4096x1024.Idx → EReal) = m ((c.tc : Thread nD τ).loc main_arg0) :=
    Cert.KernelIdeal.HostReads.x_read m c
  rw [Cert.KernelIdeal.Value1.out_final (Ve2 m) c]
  show Cert.KerSpec.outK (Ve2 m c main_arg0) (Ve2 m c main_v2) (Ve2 m c main_v10) (Ve2 m c main_v8) (Ve2 m c main_v9) (i 0) (i 1) (i 2) = _
  rw [hX]
  refine Cert.Bridge.out_bridge _ (m ((c.tc : Thread nD τ).loc main_arg1)) (m ((c.tc : Thread nD τ).loc main_arg2))
    (m ((c.tc : Thread nD τ).loc main_arg3)) _ _ _ _ ?hwq ?hwp ?hb ?hctx (i 0) (i 1) (i 2)
  case hwq => exact fun cc j => (congrFun (Ve2_of m c main_v2 (by decide)) _).trans (Cert.KernelIdeal.HostReads.wq_read m c cc j)
  case hwp => exact fun j o => (congrFun (Ve2_of m c main_v8 (by decide)) _).trans (Cert.KernelIdeal.HostReads.wp_read m c j o)
  case hb => exact fun o => (congrFun (Ve2_of m c main_v9 (by decide)) _).trans (Cert.KernelIdeal.HostReads.bias_read m c o)
  case hctx =>
    intro b h e d
    rw [Ve2_ctx]
    unfold ctxG Kseq Vseq Xin Wkey Wval
    simp only [hX1]
    exact Cert.Bridge.ctx_bridge _ _ _ _ (Cert.KernelIdeal.HostReads.wk_read m c) (Cert.KernelIdeal.HostReads.wv_read m c) hx hw b h e d

end Cert.Alg

end
-- ==== Proof.lean ====
/-
  The five claims about the linear-attention kernel (two grids: per-batch context sums with an online softmax along the
  sequence, then queries · context and the output projection) against its plain reference.
  * The three runs: each program terminates, faults nowhere and leaves its four arguments unchanged. For the kernel, at
    the word level and at the extended reals alike, this is the host stretch and the two grids in order (modules
    BitsWhole / IdealWhole); for the reference it is its run read back, with the result dropped.
  * The one rewrite the idealization made — a round trip through the narrow format dropped — is the identity at the
    extended reals.
  * At the extended reals, on finite inputs, the two programs return the same array.
-/
import proofs.«161321_j2207613190677_2_alg».proof.Defs
import proofs.«161321_j2207613190677_2_alg».proof.Proof.Gen.Kernel
import proofs.«161321_j2207613190677_2_alg».proof.Proof.Gen.Kernel.Skeleton
import proofs.«161321_j2207613190677_2_alg».proof.Proof.Gen.Kernel.Launch
import proofs.«161321_j2207613190677_2_alg».proof.Proof.Gen.Kernel.Regions
import proofs.«161321_j2207613190677_2_alg».proof.Proof.Gen.Kernel.Points
import proofs.«161321_j2207613190677_2_alg».proof.Proof.Gen.KernelIdeal
import proofs.«161321_j2207613190677_2_alg».proof.Proof.Gen.KernelIdeal.Skeleton
import proofs.«161321_j2207613190677_2_alg».proof.Proof.Gen.KernelIdeal.Launch
import proofs.«161321_j2207613190677_2_alg».proof.Proof.Gen.KernelIdeal.Regions
import proofs.«161321_j2207613190677_2_alg».proof.Proof.Gen.KernelIdeal.Points
import proofs.«161321_j2207613190677_2_alg».proof.Proof.Gen.ReferenceIdeal
import proofs.«161321_j2207613190677_2_alg».proof.Proof.Gen.ReferenceIdeal.Run
import proofs.«161321_j2207613190677_2_alg».proof.Proof.Gen.ReferenceIdeal.Read
import proofs.«161321_j2207613190677_2_alg».proof.Proof.Gen.Pre_finite_inputs
import proofs.«161321_j2207613190677_2_alg».proof.Proof.BitsWhole
import proofs.«161321_j2207613190677_2_alg».proof.Proof.IdealWhole
import proofs.«161321_j2207613190677_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal :=
  IdealRules.truncf_extf.statement _ .f32 .bf16

/-- Both idealized programs run; the kernel's result array ends at what its second grid leaves, which entry by entry is
    the attention formula of the arguments, and the reference's result is the same formula of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.Gen.dat1 (F := Ideal) (Cert.KernelIdeal.Gen.Ve2 m) c).arrAt 5 Cert.KernelIdeal.cfg1.N,
    Cert.KernelIdeal.Gen.run_whole m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2]
  funext i
  rw [Cert.RefValue.ref_out]
  exact (Cert.Alg.kernel_value m c hpre i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
